-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S150000 : Shape := ⟨1, ![150000]⟩
abbrev S512x512 : Shape := ⟨2, ![512, 512]⟩
abbrev S512 : Shape := ⟨1, ![512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S20000x512 .f32) (main_arg1 : IVec S150000 32) (main_arg2 : IVec S150000 32) (main_arg3 : FVec F S512x512 .f32) (main_arg4 : FVec F S512 .f32) (main_arg5 : FVec F S512 .f32) (main_arg6 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_v13 main_v16
-- ==== Kernel.lean ====
abbrev S20000x512 : Shape := ⟨2, ![20000, 512]⟩
abbrev S150000 : Shape := ⟨1, ![150000]⟩
abbrev S512x512 : Shape := ⟨2, ![512, 512]⟩
abbrev S512 : Shape := ⟨1, ![512]⟩
abbrev S_ : Shape := ⟨0, ![]⟩
abbrev S150000x1 : Shape := ⟨2, ![150000, 1]⟩
abbrev S150000x512 : Shape := ⟨2, ![150000, 512]⟩
abbrev S20000 : Shape := ⟨1, ![20000]⟩
abbrev S20000x1 : Shape := ⟨2, ![20000, 1]⟩
abbrev S1x512 : Shape := ⟨2, ![1, 512]⟩
abbrev S1000x512 : Shape := ⟨2, ![1000, 512]⟩

abbrev nBuf : Space → Nat
  | .hbm => 49
  | .vmem => 18
  | .smem => 0
  | _ => 0

abbrev bufTy : (tb : Table) → Fin (tcTables nBuf tb) → BufTy
  | .hbm, ⟨0, _⟩ => ⟨S20000x512, .f32⟩
  | .hbm, ⟨1, _⟩ => ⟨S150000, .i32⟩
  | .hbm, ⟨2, _⟩ => ⟨S150000, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .i32⟩
  | .hbm, ⟨8, _⟩ => ⟨S150000, .i32⟩
  | .hbm, ⟨9, _⟩ => ⟨S150000, .i1⟩
  | .hbm, ⟨10, _⟩ => ⟨S_, .i32⟩
  | .hbm, ⟨11, _⟩ => ⟨S150000, .i32⟩
  | .hbm, ⟨12, _⟩ => ⟨S150000, .i32⟩
  | .hbm, ⟨13, _⟩ => ⟨S150000, .i32⟩
  | .hbm, ⟨14, _⟩ => ⟨S150000x1, .i32⟩
  | .hbm, ⟨15, _⟩ => ⟨S150000x512, .f32⟩
  | .hbm, ⟨16, _⟩ => ⟨S_, .f32⟩
  | .hbm, ⟨17, _⟩ => ⟨S20000x512, .f32⟩
  | .hbm, ⟨18, _⟩ => ⟨S150000x1, .i32⟩
  | .hbm, ⟨19, _⟩ => ⟨S20000x512, .f32⟩
  | .hbm, ⟨20, _⟩ => ⟨S_, .f32⟩
  | .hbm, ⟨21, _⟩ => ⟨S150000, .f32⟩
  | .hbm, ⟨22, _⟩ => ⟨S_, .f32⟩
  | .hbm, ⟨23, _⟩ => ⟨S20000, .f32⟩
  | .hbm, ⟨24, _⟩ => ⟨S150000x1, .i32⟩
  | .hbm, ⟨25, _⟩ => ⟨S20000, .f32⟩
  | .hbm, ⟨26, _⟩ => ⟨S20000x1, .f32⟩
  | .hbm, ⟨27, _⟩ => ⟨S_, .f32⟩
  | .hbm, ⟨28, _⟩ => ⟨S20000x1, .f32⟩
  | .hbm, ⟨29, _⟩ => ⟨S20000x1, .i1⟩
  | .hbm, ⟨30, _⟩ => ⟨S20000x512, .i1⟩
  | .hbm, ⟨31, _⟩ => ⟨S20000x512, .f32⟩
  | .hbm, ⟨32, _⟩ => ⟨S512x512, .f32⟩
  | .hbm, ⟨33, _⟩ => ⟨S512x512, .bf16⟩
  | .hbm, ⟨34, _⟩ => ⟨S1x512, .f32⟩
  | .hbm, ⟨35, _⟩ => ⟨S20000x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S20000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  transposes_S512x512_S512x512_1_0 : S512x512.Transposes [1, 0] S512x512
  bitsLt_bf16_f32 : FTy.bits .bf16 < FTy.bits .f32
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S1000x512 : S1x512.Broadcasts S1000x512
  reduces_S1000x512_S512 : S1000x512.Reduces [0] S512
  bcast_S_S1x512 : S_.BroadcastsInDim S1x512 (![] : Fin 0 → Fin S1x512.rank)
  gather_S20000x512_S150000x1_S150000x512_1_0_n_n_0_1_1512_wf : GatherDims.WF S20000x512 S150000x1 S150000x512 [1] [0] [] [0] [] 1 ![1, 512]
  scatter_S20000x512_S150000x1_S150000x512_1_0_0_1_wf : ScatterDims.WF S20000x512 S150000x1 S150000x512 [1] [0] [0] 1
  scatter_S20000_S150000x1_S150000_n_0_0_1_wf : ScatterDims.WF S20000 S150000x1 S150000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S20000x512.size a
  hwx0_3 : ∀ i : grid0.Coords, EltTy.bits .f32 = 32 ∨ (Rect.block (s := S20000x512) S1000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S20000x512.size a
  hwx1_5 : ∀ i : grid1.Coords, EltTy.bits .f32 = 32 ∨ (Rect.block (s := S20000x512) S1000x512.size (cc1_transform_5 i) (hinb1_5 i)).WholeWords (EltTy.packing .f32)

variable [Facts₀]

def gather_S20000x512_S150000x1_S150000x512_1_0_n_n_0_1_1512 : GatherDims S20000x512 S150000x1 S150000x512 where
  offsetDims := [1]
  collapsedSliceDims := [0]
  operandBatchingDims := []
  startIndicesBatchingDims := []
  startIndexMap := [0]
  indexVectorDim := 1
  sliceSizes := ![1, 512]
  wf := gather_S20000x512_S150000x1_S150000x512_1_0_n_n_0_1_1512_wf
def scatter_S20000x512_S150000x1_S150000x512_1_0_0_1 : ScatterDims S20000x512 S150000x1 S150000x512 where
  updateWindowDims := [1]
  insertedWindowDims := [0]
  scatterDimsToOperandDims := [0]
  indexVectorDim := 1
  wf := scatter_S20000x512_S150000x1_S150000x512_1_0_0_1_wf
def scatter_S20000_S150000x1_S150000_n_0_0_1 : ScatterDims S20000 S150000x1 S150000 where
  updateWindowDims := []
  insertedWindowDims := [0]
  scatterDimsToOperandDims := [0]
  indexVectorDim := 1
  wf := scatter_S20000_S150000x1_S150000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v17) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S1000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x512 : Shape := ⟨2, ![20000, 512]⟩
abbrev S150000 : Shape := ⟨1, ![150000]⟩
abbrev S512x512 : Shape := ⟨2, ![512, 512]⟩
abbrev S512 : Shape := ⟨1, ![512]⟩
abbrev S_ : Shape := ⟨0, ![]⟩
abbrev S150000x1 : Shape := ⟨2, ![150000, 1]⟩
abbrev S150000x512 : Shape := ⟨2, ![150000, 512]⟩
abbrev S20000 : Shape := ⟨1, ![20000]⟩
abbrev S20000x1 : Shape := ⟨2, ![20000, 1]⟩
abbrev S1x512 : Shape := ⟨2, ![1, 512]⟩

abbrev nBuf : Space → Nat
  | .hbm => 83
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S150000, .i32⟩
  | .hbm, ⟨2, _⟩ => ⟨S150000, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .i32⟩
  | .hbm, ⟨8, _⟩ => ⟨S150000, .i32⟩
  | .hbm, ⟨9, _⟩ => ⟨S150000, .i1⟩
  | .hbm, ⟨10, _⟩ => ⟨S_, .i32⟩
  | .hbm, ⟨11, _⟩ => ⟨S150000, .i32⟩
  | .hbm, ⟨12, _⟩ => ⟨S150000, .i32⟩
  | .hbm, ⟨13, _⟩ => ⟨S150000, .i32⟩
  | .hbm, ⟨14, _⟩ => ⟨S150000x1, .i32⟩
  | .hbm, ⟨15, _⟩ => ⟨S150000x512, .f32⟩
  | .hbm, ⟨16, _⟩ => ⟨S_, .f32⟩
  | .hbm, ⟨17, _⟩ => ⟨S20000x512, .f32⟩
  | .hbm, ⟨18, _⟩ => ⟨S150000x1, .i32⟩
  | .hbm, ⟨19, _⟩ => ⟨S20000x512, .f32⟩
  | .hbm, ⟨20, _⟩ => ⟨S_, .f32⟩
  | .hbm, ⟨21, _⟩ => ⟨S150000, .f32⟩
  | .hbm, ⟨22, _⟩ => ⟨S_, .f32⟩
  | .hbm, ⟨23, _⟩ => ⟨S20000, .f32⟩
  | .hbm, ⟨24, _⟩ => ⟨S150000x1, .i32⟩
  | .hbm, ⟨25, _⟩ => ⟨S20000, .f32⟩
  | .hbm, ⟨26, _⟩ => ⟨S20000x1, .f32⟩
  | .hbm, ⟨27, _⟩ => ⟨S_, .f32⟩
  | .hbm, ⟨28, _⟩ => ⟨S20000x1, .f32⟩
  | .hbm, ⟨29, _⟩ => ⟨S20000x1, .i1⟩
  | .hbm, ⟨30, _⟩ => ⟨S20000x512, .i1⟩
  | .hbm, ⟨31, _⟩ => ⟨S20000x512, .f32⟩
  | .hbm, ⟨32, _⟩ => ⟨S20000x512, .f32⟩
  | .hbm, ⟨33, _⟩ => ⟨S1x512, .f32⟩
  | .hbm, ⟨34, _⟩ => ⟨S20000x512, .f32⟩
  | .hbm, ⟨35, _⟩ => ⟨S20000x512, .f32⟩
  | .hbm, ⟨36, _⟩ => ⟨S_, .f32⟩
  | .hbm, ⟨37, _⟩ => ⟨S20000x512, .f32⟩
  | .hbm, ⟨38, _⟩ => ⟨S20000x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .i32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S20000x512, .f32⟩
  | .hbm, ⟨52, _⟩ => ⟨S20000x512, .f32⟩
  | .hbm, ⟨53, _⟩ => ⟨S20000x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S1x512, .f32⟩
  | .hbm, ⟨68, _⟩ => ⟨S20000x512, .f32⟩
  | .hbm, ⟨69, _⟩ => ⟨S20000x512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S1x512, .f32⟩
  | .hbm, ⟨75, _⟩ => ⟨S20000x512, .f32⟩
  | .hbm, ⟨76, _⟩ => ⟨S20000x512, .f32⟩
  | .hbm, ⟨77, _⟩ => ⟨S1x512, .f32⟩
  | .hbm, ⟨78, _⟩ => ⟨S20000x512, .f32⟩
  | .hbm, ⟨79, _⟩ => ⟨S20000x512, .f32⟩
  | .hbm, ⟨80, _⟩ => ⟨S1x512, .f32⟩
  | .hbm, ⟨81, _⟩ => ⟨S20000x512, .f32⟩
  | .hbm, ⟨82, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_cst_2 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_cst_3 : Ref sig .tc := ⟨.hbm, 61, rfl⟩
abbrev main_call2_v12 : Ref sig .tc := ⟨.hbm, 62, rfl⟩
abbrev main_call2_cst_4 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_7 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S_S20000x512 : S_.BroadcastsInDim S20000x512 (![] : Fin 0 → Fin S20000x512.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  reducesTo_S20000x512_S512_d0 : S20000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  gather_S20000x512_S150000x1_S150000x512_1_0_n_n_0_1_1512_wf : GatherDims.WF S20000x512 S150000x1 S150000x512 [1] [0] [] [0] [] 1 ![1, 512]
  scatter_S20000x512_S150000x1_S150000x512_1_0_0_1_wf : ScatterDims.WF S20000x512 S150000x1 S150000x512 [1] [0] [0] 1
  scatter_S20000_S150000x1_S150000_n_0_0_1_wf : ScatterDims.WF S20000 S150000x1 S150000 [] [0] [0] 1
  dot_S20000x512_S512x512_S20000x512_1_1_0_0_n_n_wf : DotDims.WF S20000x512 S512x512 S20000x512 [1] [1] [0] [0] [] []

variable [Facts₀]

def gather_S20000x512_S150000x1_S150000x512_1_0_n_n_0_1_1512 : GatherDims S20000x512 S150000x1 S150000x512 where
  offsetDims := [1]
  collapsedSliceDims := [0]
  operandBatchingDims := []
  startIndicesBatchingDims := []
  startIndexMap := [0]
  indexVectorDim := 1
  sliceSizes := ![1, 512]
  wf := gather_S20000x512_S150000x1_S150000x512_1_0_n_n_0_1_1512_wf
def scatter_S20000x512_S150000x1_S150000x512_1_0_0_1 : ScatterDims S20000x512 S150000x1 S150000x512 where
  updateWindowDims := [1]
  insertedWindowDims := [0]
  scatterDimsToOperandDims := [0]
  indexVectorDim := 1
  wf := scatter_S20000x512_S150000x1_S150000x512_1_0_0_1_wf
def scatter_S20000_S150000x1_S150000_n_0_0_1 : ScatterDims S20000 S150000x1 S150000 where
  updateWindowDims := []
  insertedWindowDims := [0]
  scatterDimsToOperandDims := [0]
  indexVectorDim := 1
  wf := scatter_S20000_S150000x1_S150000_n_0_0_1_wf
def dot_S20000x512_S512x512_S20000x512_1_1_0_0_n_n : DotDims S20000x512 S512x512 S20000x512 where
  lhsContracting := [1]
  rhsContracting := [1]
  lhsNonContracting := [0]
  rhsNonContracting := [0]
  lhsBatch := []
  rhsBatch := []
  wf := dot_S20000x512_S512x512_S20000x512_1_1_0_0_n_n_wf

class Facts : Prop extends Facts₀ where

variable [Facts]
-- ==== Proof.Region1.lean ====
/-
  The second kernel region of the program — the launch that applies the batch-norm affine map
  tile by tile — at an arbitrary TensorCore buffer contents `V` found when the region is entered.

  The region has a grid of 20 points. Window 0 is the activation matrix, cut into 20 blocks of 1000 rows
  (block `t` is rows 1000·t … 1000·t + 999, all 512 columns); windows 1–4 are the four 1×512 rows
  (column mean, column variance, scale, shift), each a single block with a constant index map, so the
  same row is in place at every point; window 5 is the output matrix, cut like window 0.

  At a point the body reads the five input blocks whole and overwrites the whole output block with
      ((h − mean) · rsqrt (var + ε)) · scale + shift,
  the rows broadcast down the 1000 rows of the tile. So after the body the output buffer is a function
  of the five input blocks alone (`out1_5`), and each input buffer still holds its block. This file
  states that as the pipeline's proof data `dat1` and proves the body obligation at every point,
  for any float instance.
-/
import proofs.«130999_j29059748725632_1_alg».proof.Proof.Gen.KernelIdeal.Launch
import proofs.«130999_j29059748725632_1_alg».proof.Proof.Gen.KernelIdeal.Skeleton
import proofs.«130999_j29059748725632_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 × 512 entries: the structural check recurses once per coordinate
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window's
    index map selects at `t` (rows 1000·t … 1000·t + 999 for the two matrices, the whole row for the rest). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation tile is in its staging buffer at every point (it is fetched at every point), for any proof
    data over the arrays `V` whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The mean row is in its staging buffer at every point: fetched at the first point, and at a later point
    the index map has not moved (it is constant), so the buffer still holds the row the body left in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The variance row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scale row likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The shift row likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

/-- The whole 1000 × 512 tile. -/
abbrev tileRect : Rect S1000x512 := Rect.unit (s := S1000x512) ![0, 0] S1000x512.size inb_S1000x512_S1000x512_0_0
/-- The whole 1 × 512 row. -/
abbrev rowRect : Rect S1x512 := Rect.unit (s := S1x512) ![0, 0] S1x512.size inb_S1x512_S1x512_0_0

/-! ## What the body leaves in the output window's buffer -/

/-- The output tile after the body, from the five input blocks (`h` the activation tile, then the mean,
    variance, scale and shift rows): its one store, of the affine payload, over the whole tile. The payload
    takes the variance row first, then the tile, then the mean, scale and shift rows — the order in which the
    body reads them. -/
def out1_5 (h : Vec F S1000x512 .f32) (mean var scale shift : Vec F S1x512 .f32) : Vec F S1000x512 .f32 :=
  View.canon [⟨tileRect, k1_pay1 (View.ld var rowRect) (View.ld h tileRect) (View.ld mean rowRect) (View.ld scale rowRect) (View.ld shift rowRect)⟩]

/-- The one store covers the tile. -/
theorem cover1_5 (p0 : Vec F S1000x512 .f32) (y : S1000x512.Idx) :
    ∃ pc ∈ ([⟨tileRect, p0⟩] : List (View.Piece (Elt F) S1000x512 .f32)), y ∈ pc.1.set :=
  View.cover_of_tiled [⟨tileRect, p0⟩] S1000x512.size (by rfl) y

/-! ## The body's triple -/

set_option maxHeartbeats 1000000 in
/-- The kernel body on whole staging memrefs — the five inputs' at read contents, the output's at anything —
    runs to the continuation holding the inputs' as they were and the output's at `out1_5` of the inputs'.
    (The body also loads the output buffer before it stores into it; the value read is not used.) -/
theorem sound_kernel1 (c : Dev nD) (E : Set ℕ) (i : grid1.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (x0 : Vec F S1000x512 .f32) (x1 x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_affine_kernel i arg1 harg1 arg2 harg2 arg3 harg3 arg4 harg4 arg5 harg5 arg6 harg6) K := by
  simp only [cc1__bn_affine_kernel_eq_skeleton]; unfold cc1__bn_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body
    at point `t` each input's buffer at its block and the output's at `out1_5` of the five input blocks;
    the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's dues, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.R0RunA.lean ====
/-
  The first kernel region (the linear layer, relu and the running column sums), part one: what its body's runs share.
  The body branches once, on the grid position: at the first point it clears the two accumulators (the running column
  sum and the running column sum of squares, kept in scratch between points); at every point it stores the activated
  block, adds the block's column sums to the accumulators and copies them to the two statistics outputs.
-/
import proofs.«130999_j29059748725632_1_alg».proof.Proof.Gen.KernelIdeal.Launch
import proofs.«130999_j29059748725632_1_alg».proof.Proof.Gen.KernelIdeal.Skeleton
import proofs.«130999_j29059748725632_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first point". -/
abbrev cond0_0 (i : grid0.Coords) : Prop := (Scalar.cmpi .ne (Scalar.extui (Scalar.cmpi .eq (BitVec.ofNat 32 (i 0).val) 0#32)) 0#32) = 1#1
/-- It holds at point 0 only, decided over the grid. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the body stores into every output at every point. -/
theorem liveAt0 : ∀ (w : Fin cfg0.W) (t : Fin cfg0.N), cfg0.idle w (grid0.coords t) = false := by decide +kernel

/-- Each window's current staging memref at point `t`, spelled as the pipeline passes it, and its wholeness. -/
abbrev ms0_0 (t : Fin cfg0.N) : Memref sig .tc .vmem S1000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- The two accumulators: whole scoped buffers of the kernel's own, passed beside the windows. -/
abbrev scM0_0 : Memref sig .tc .vmem S1x512 .f32 := Memref.whole cc0_scratch0
abbrev scM0_1 : Memref sig .tc .vmem S1x512 .f32 := Memref.whole cc0_scratch1
/-- Views through which the contents of the accumulators and of the outputs' staging buffers are stated. -/
abbrev VS0_0 : View sig .tc .vmem S1x512 .f32 := scM0_0.view
abbrev VS0_1 : View sig .tc .vmem S1x512 .f32 := scM0_1.view
abbrev VO0_3 : View sig .tc .vmem S1000x512 .f32 := (Memref.whole cc0_stg3_0 : Memref sig .tc .vmem S1000x512 .f32).view
abbrev VO0_4 : View sig .tc .vmem S1x512 .f32 := (Memref.whole cc0_stg4_0 : Memref sig .tc .vmem S1x512 .f32).view
abbrev VO0_5 : View sig .tc .vmem S1x512 .f32 := (Memref.whole cc0_stg5_0 : Memref sig .tc .vmem S1x512 .f32).view

/-- A list of stores into a buffer of shape `S`. -/
abbrev Pcs (S : Shape) : Type := List (View.Piece (Elt F) S .f32)

/-- What the body is handed back with, given the pieces stored into each output and accumulator. -/
abbrev runPost (c : Dev nD) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (x0 : Vec F S1000x512 .f32) (x1 : Vec F S512x512 .bf16) (x2 : Vec F S1x512 .f32)
    (L3 : Pcs (F := F) S1000x512) (L4 L5 LS0 LS1 : Pcs (F := F) S1x512) : sProp 𝕄 :=
  iprop(owns (c : Thread nD τ) arg1 fullShare x0 ∗ owns (c : Thread nD τ) arg2 fullShare x1 ∗ owns (c : Thread nD τ) arg3 fullShare x2
    ∗ (∃ f, arg4.view.loc (c : Thread nD τ) ↦[arg4.view.set]{fullShare} arg4.view.writes (Elt F) f L3)
    ∗ (∃ f, arg5.view.loc (c : Thread nD τ) ↦[arg5.view.set]{fullShare} arg5.view.writes (Elt F) f L4)
    ∗ (∃ f, arg6.view.loc (c : Thread nD τ) ↦[arg6.view.set]{fullShare} arg6.view.writes (Elt F) f L5)
    ∗ (∃ f, arg7.view.loc (c : Thread nD τ) ↦[arg7.view.set]{fullShare} arg7.view.writes (Elt F) f LS0)
    ∗ (∃ f, arg8.view.loc (c : Thread nD τ) ↦[arg8.view.set]{fullShare} arg8.view.writes (Elt F) f LS1))

set_option maxHeartbeats 4000000 in
/-- The body at the FIRST point: on whole staging memrefs, the inputs' at their contents, the outputs' and the accumulators'
    at anything, it runs to the continuation holding the inputs' as they were and every output and accumulator with its
    stores written; the stores are the witness the run finds. -/
noncomputable def kernelRun0_A (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i)
    (x0 : Vec F S1000x512 .f32) (x1 : Vec F S512x512 .bf16) (x2 : Vec F S1x512 .f32) :
    Σ' (L3 : Pcs (F := F) S1000x512) (L4 : Pcs (F := F) S1x512) (L5 : Pcs (F := F) S1x512) (LS0 : Pcs (F := F) S1x512), { LS1 : Pcs (F := F) S1x512 //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (runPost c arg1 harg1 arg2 harg2 arg3 harg3 arg4 harg4 arg5 harg5 arg6 harg6 arg7 harg7 arg8 harg8 x0 x1 x2 L3 L4 L5 LS0 LS1 -∗ K ⟨⟩))
          ⊢ wp frame (wpE (defs₀ (F := F)) Variants.none c none) E (cc0__matmul_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul_relu_stats_kernel_eq_skeleton]; unfold cc0__matmul_relu_stats_kernel_skel
    simp only [k0_part1_eq_skeleton]
    unfold runPost; unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.R0

end
-- ==== Proof.R0RunB.lean ====
/-
  The first kernel region, part two: the body's run at every point after the first, where the two accumulators hold
  what the point before left in them.
-/
import proofs.«130999_j29059748725632_1_alg».proof.Proof.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LATER point: as at the first, but the accumulators are handed over at given contents `xs0`, `xs1`
    (what the point before left) and nothing clears them. -/
noncomputable def kernelRun0_B (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i)
    (x0 : Vec F S1000x512 .f32) (x1 : Vec F S512x512 .bf16) (x2 : Vec F S1x512 .f32) (xs0 xs1 : Vec F S1x512 .f32) :
    Σ' (L3 : Pcs (F := F) S1000x512) (L4 : Pcs (F := F) S1x512) (L5 : Pcs (F := F) S1x512) (LS0 : Pcs (F := F) S1x512), { LS1 : Pcs (F := F) S1x512 //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (runPost c arg1 harg1 arg2 harg2 arg3 harg3 arg4 harg4 arg5 harg5 arg6 harg6 arg7 harg7 arg8 harg8 x0 x1 x2 L3 L4 L5 LS0 LS1 -∗ K ⟨⟩))
          ⊢ wp frame (wpE (defs₀ (F := F)) Variants.none c none) E (cc0__matmul_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul_relu_stats_kernel_eq_skeleton]; unfold cc0__matmul_relu_stats_kernel_skel
    simp only [k0_part1_eq_skeleton]
    unfold runPost; unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.R0

end
-- ==== Proof.R0Frame.lean ====
/-
  The first kernel region, part three: what its outputs and accumulators hold point by point, the proof data of its
  pipeline, and the body's obligation at every point.

  After the body at point t the activated block's staging buffer holds relu(block t · Wᵀ + b); the two accumulators
  hold the running column sums (of the activations, and of their squares) over blocks 0..t, started from zero at
  point 0; the two statistics outputs' staging buffers hold copies of the accumulators. The accumulators are carried
  from one point to the next by the region's invariant.
-/
import proofs.«130999_j29059748725632_1_alg».proof.Proof.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into the activated block's staging buffer at the first point tile it, so they cover it. -/
theorem cov_A_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1000x512.Idx) :
    ∃ pc ∈ (kernelRun0_A (F := F) c i arg1 harg1 arg2 harg2 arg3 harg3 arg4 harg4 arg5 harg5 arg6 harg6 arg7 harg7 arg8 harg8 hc0 x0 x1 x2).1, y ∈ pc.1.set :=
  View.cover_of_tiledL (kernelRun0_A (F := F) c i arg1 harg1 arg2 harg2 arg3 harg3 arg4 harg4 arg5 harg5 arg6 harg6 arg7 harg7 arg8 harg8 hc0 x0 x1 x2).1 S1000x512.size (by sl_kernel_rfl) y
/-- What they leave there: the stores laid over one another. -/
def val_A_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1000x512 .f32 :=
  View.canon (kernelRun0_A (F := F) c i arg1 harg1 arg2 harg2 arg3 harg3 arg4 harg4 arg5 harg5 arg6 harg6 arg7 harg7 arg8 harg8 hc0 x0 x1 x2).1

/-- The stores into the column-sum output's staging buffer at the first point tile it, so they cover it. -/
theorem cov_A_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.1 S1x512.size (by sl_kernel_rfl) y
/-- What they leave there: the stores laid over one another. -/
def val_A_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.1

/-- The stores into the sum-of-squares output's staging buffer at the first point tile it, so they cover it. -/
theorem cov_A_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.2.1 S1x512.size (by sl_kernel_rfl) y
/-- What they leave there: the stores laid over one another. -/
def val_A_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.2.1

/-- The stores into the column-sum accumulator at the first point tile it, so they cover it. -/
theorem cov_A_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.2.2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.2.2.1 S1x512.size (by sl_kernel_rfl) y
/-- What they leave there: the stores laid over one another. -/
def val_A_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.2.2.1

/-- The stores into the sum-of-squares accumulator at the first point tile it, so they cover it. -/
theorem cov_A_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.2.2.2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.2.2.2.1 S1x512.size (by sl_kernel_rfl) y
/-- What they leave there: the stores laid over one another. -/
def val_A_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.2.2.2.1

/-- The stores into the activated block's staging buffer at a later point tile it, so they cover it. -/
theorem cov_B_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1000x512.Idx) :
    ∃ pc ∈ (kernelRun0_B (F := F) c i arg1 harg1 arg2 harg2 arg3 harg3 arg4 harg4 arg5 harg5 arg6 harg6 arg7 harg7 arg8 harg8 hc0 x0 x1 x2 xs0 xs1).1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).1 S1000x512.size (by sl_kernel_rfl) y
/-- What they leave there: the stores laid over one another. -/
def val_B_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1000x512 .f32 :=
  View.canon (kernelRun0_B (F := F) c i arg1 harg1 arg2 harg2 arg3 harg3 arg4 harg4 arg5 harg5 arg6 harg6 arg7 harg7 arg8 harg8 hc0 x0 x1 x2 xs0 xs1).1

/-- The stores into the column-sum output's staging buffer at a later point tile it, so they cover it. -/
theorem cov_B_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.1 S1x512.size (by sl_kernel_rfl) y
/-- What they leave there: the stores laid over one another. -/
def val_B_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.1

/-- The stores into the sum-of-squares output's staging buffer at a later point tile it, so they cover it. -/
theorem cov_B_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.2.1 S1x512.size (by sl_kernel_rfl) y
/-- What they leave there: the stores laid over one another. -/
def val_B_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.2.1

/-- The stores into the column-sum accumulator at a later point tile it, so they cover it. -/
theorem cov_B_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.2.2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.2.2.1 S1x512.size (by sl_kernel_rfl) y
/-- What they leave there: the stores laid over one another. -/
def val_B_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.2.2.1

/-- The stores into the sum-of-squares accumulator at a later point tile it, so they cover it. -/
theorem cov_B_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.2.2.2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.2.2.2.1 S1x512.size (by sl_kernel_rfl) y
/-- What they leave there: the stores laid over one another. -/
def val_B_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.2.2.2.1

/-! ## At the region's entry contents -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the three outputs' staging buffers and the two accumulators hold after the body at position `n` (in that
    order): at the first point the first case's contents; afterwards the later case's, over what the point before
    left in the accumulators. -/
def outsAt0 (c : Dev nD) : (n : ℕ) → n < cfg0.N → Vec F S1000x512 .f32 × Vec F S1x512 .f32 × Vec F S1x512 .f32 × Vec F S1x512 .f32 × Vec F S1x512 .f32
  | 0, hn =>
    (val_A_o3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_o4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_o5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩))
  | n + 1, hn =>
    (val_B_o3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_o4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_o5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (hz : t.val = 0) :
    outsAt0 V c t.val t.isLt = (val_A_o3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_o4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t)) := by
  obtain ⟨n, hn⟩ := t
  cases n with
  | zero => rfl
  | succ n => exact absurd hz (Nat.succ_ne_zero n)

/-- `outsAt0` at a later point: over what the point before left. -/
theorem outsAt0_B (c : Dev nD) (t : Fin cfg0.N) (hz : ¬t.val = 0) :
    outsAt0 V c t.val t.isLt = (val_B_o3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_o4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl hz
  | succ n => rfl

/-- The scoped buffers of the core that belong to neither this region's windows nor its accumulators (the other
    region's staging buffers), each whole at some contents. -/
def restR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant spelled out: both accumulators at some contents, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR (F := F) c) ∗ (∃ r, prngReg c r)) := by
  unfold Pipeline.ΦA restR; rw [scopedRest0_eq]; simp only [scM0_0, scM0_1, owns_whole]; try rfl

/-- The region's invariant before position `n`: before the first point the class's (the accumulators at anything);
    afterwards each accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR (F := F) c) ∗ (∃ r, prngReg c r)) := by
  cases n with
  | zero => exact absurd rfl hz
  | succ n => rfl

/-! ## The pipeline's proof data -/

/-- The proof data of this region's pipeline on core `c`: the arrays as the region finds them; after the body at
    point `t` each input's buffer at its block and each output's at `outsAt0`'s component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.R0

end
-- ==== Proof.R0Body.lean ====
/-
  The first kernel region, part four: the body's obligation at every point. At the first point the invariant hands the
  body the accumulators at anything; at a later point, at what the point before left. Either way the body hands back
  the inputs' buffers untouched, each output's buffer and each accumulator at the point's contents.
-/
import proofs.«130999_j29059748725632_1_alg».proof.Proof.R0Frame

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0 0 t], after0_0]
  rw [show (dat0 V c).leavesExact 1 t = owns (c : Thread nD τ) (ms0_1 t) fullShare ((dat0 V c).after 1 t) from by
    unfold Dat.leavesExact; rw [liveAt0 1 t], after0_1]
  rw [show (dat0 V c).leavesExact 2 t = owns (c : Thread nD τ) (ms0_2 t) fullShare ((dat0 V c).after 2 t) from by
    unfold Dat.leavesExact; rw [liveAt0 2 t], after0_2]
  rw [show (dat0 V c).leavesExact 3 t = owns (c : Thread nD τ) (ms0_3 t) fullShare ((dat0 V c).after 3 t) from by
    unfold Dat.leavesExact; rw [liveAt0 3 t], after0_3]
  rw [show (dat0 V c).leavesExact 4 t = owns (c : Thread nD τ) (ms0_4 t) fullShare ((dat0 V c).after 4 t) from by
    unfold Dat.leavesExact; rw [liveAt0 4 t], after0_4]
  rw [show (dat0 V c).leavesExact 5 t = owns (c : Thread nD τ) (ms0_5 t) fullShare ((dat0 V c).after 5 t) from by
    unfold Dat.leavesExact; rw [liveAt0 5 t], after0_5]
  by_cases hz : t.val = 0
  · rw [outsAt0_A V c t hz]
    unfold val_A_o3 val_A_o4 val_A_o5 val_A_s0 val_A_s1; (try dsimp only)
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr hz) (iblk0 V c 0 t) (iblk0 V c 1 t) (iblk0 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_eq_canon _ _ _ (cov_A_s0 c _ _ _ _ _ _ _ _ _ _ _ _ _ _ _ _ _ _ _ _ _)
        isplitl [HS1]
        · unfold owns; iexists _; isplitr
          swap; · iexact HS1
          ipureintro; exact View.read_writes_eq_canon _ _ _ (cov_A_s1 c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cov_A_o3 c _ _ _ _ _ _ _ _ _ _ _ _ _ _ _ _ _ _ _ _ _)
    isplitl [H4]
    · unfold owns; iexists _; isplitr
      swap; · iexact H4
      ipureintro; exact View.read_writes_eq_canon _ _ _ (cov_A_o4 c _ _ _ _ _ _ _ _ _ _ _ _ _ _ _ _ _ _ _ _ _)
    unfold owns; iexists _; isplitr
    swap; · iexact H5
    ipureintro; exact View.read_writes_eq_canon _ _ _ (cov_A_o5 c _ _ _ _ _ _ _ _ _ _ _ _ _ _ _ _ _ _ _ _ _)
  · rw [outsAt0_B V c t hz]
    unfold val_B_o3 val_B_o4 val_B_o5 val_B_s0 val_B_s1; (try dsimp only)
    rw [PhiS_castSucc V c t, PhiS_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => hz ((hcond0_0 t).mp h)) (iblk0 V c 0 t) (iblk0 V c 1 t) (iblk0 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_eq_canon _ _ _ (cov_B_s0 c _ _ _ _ _ _ _ _ _ _ _ _ _ _ _ _ _ _ _ _ _ _ _)
        isplitl [HS1]
        · unfold owns; iexists _; isplitr
          swap; · iexact HS1
          ipureintro; exact View.read_writes_eq_canon _ _ _ (cov_B_s1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cov_B_o3 c _ _ _ _ _ _ _ _ _ _ _ _ _ _ _ _ _ _ _ _ _ _ _)
    isplitl [H4]
    · unfold owns; iexists _; isplitr
      swap; · iexact H4
      ipureintro; exact View.read_writes_eq_canon _ _ _ (cov_B_o4 c _ _ _ _ _ _ _ _ _ _ _ _ _ _ _ _ _ _ _ _ _ _ _)
    unfold owns; iexists _; isplitr
    swap; · iexact H5
    ipureintro; exact View.read_writes_eq_canon _ _ _ (cov_B_o5 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Cert.KernelIdeal.R0

end
-- ==== Proof.KFrame.lean ====
/-
  The kernel program's run, from the launch to the return, over its two kernel regions.

  The program is six items in a row: three stretches of host operations (the neighbour aggregation and the
  in-degree, the choice between the aggregate and the node's own features, the transposed weight and the bias
  row), the first kernel region (the matrix product with its activation and the two column sums, accumulated
  tile by tile), one more host stretch (the column mean and variance from the sums, the scale and shift rows),
  and the second kernel region (the affine normalisation, tile by tile).

  Between two items the TensorCore's unscoped buffers hold a definite valuation, each computed from the one
  before: a host stretch applies its operations in order; a region leaves each of its arrays at what its
  write-backs fold to and every other buffer as entered. `W0` … `W6` name these seven valuations.
  The run theorem says every weakly fair execution terminates and the final memory is `W6` at every
  unscoped buffer; the lemmas after the chain read `W6` and `W4` back at the buffers that matter:
  the arguments (unchanged), each region's output arrays (what its proof data folds), everything else
  (as it was before the region).
-/
import proofs.«130999_j29059748725632_1_alg».proof.Proof.Region1
import proofs.«130999_j29059748725632_1_alg».proof.Proof.R0Body
import proofs.«130999_j29059748725632_1_alg».proof.Proof.Gen.KernelIdeal.Launch
import proofs.«130999_j29059748725632_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second. -/
abbrev W2 : Dev nD → Valuation τ sig (Elt F) := fun c => StableHlo.after hostOps0_1 (W1 m ρ c)
/-- After the third: what the first kernel region is entered from. -/
abbrev W3 : Dev nD → Valuation τ sig (Elt F) := fun c => StableHlo.after hostOps0_2 (W2 m ρ c)
/-- The same read at the TensorCore's references (what the first region's proof data take). -/
abbrev V3 : (c : Dev nD) → (b : Ref sig .tc) → Buf (Elt F) ((c : Thread nD τ).loc b) := fun c b => W3 m ρ c b
/-- At the first region's exit: its arrays at what the pipeline leaves (the inputs as entered, each output's
    write-backs folded), every other buffer as entered. -/
def W4 (c : Dev nD) : Valuation τ sig (Elt F) :=
  Pipeline.withArrays spec0 c (W3 m ρ c) fun w => (R0.dat0 (V3 m ρ) c).arrAt w cfg0.N
/-- An array of the first region holds, at the exit, what the region's proof data fold. -/
theorem W4_arr (c : Dev nD) (w : Fin cfg0.W) :
    W4 m ρ c (Proc.devRef .tc (Pipeline.arrRef spec0 w)) = (R0.dat0 (V3 m ρ) c).arrAt w cfg0.N := by
  unfold W4; exact Pipeline.withArrays_arr spec0 launch0.win.arr_inj c _ _ w
/-- Any other buffer holds what it held at the entry. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (R0.dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the fourth host stretch: what the second kernel region is entered from. -/
abbrev W5 : Dev nD → Valuation τ sig (Elt F) := fun c => StableHlo.after hostOps1 (W4 m ρ c)
/-- The same read at the TensorCore's references (what the second region's proof data take). -/
abbrev V5 : (c : Dev nD) → (b : Ref sig .tc) → Buf (Elt F) ((c : Thread nD τ).loc b) := fun c b => W5 m ρ c b
/-- At the second region's exit, which is the end of the program. -/
def W6 (c : Dev nD) : Valuation τ sig (Elt F) :=
  Pipeline.withArrays spec1 c (W5 m ρ c) fun w => (R1.dat1 (V5 m ρ) c).arrAt w cfg1.N
theorem W6_arr (c : Dev nD) (w : Fin cfg1.W) :
    W6 m ρ c (Proc.devRef .tc (Pipeline.arrRef spec1 w)) = (R1.dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (R1.dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The regions' outputs, read off the chain -/

/-- The activation matrix, the column sums and the column sums of squares after the first region. -/
theorem W4_out0 (c : Dev nD) : W4 m ρ c (Proc.devRef .tc main_v21_0) = (R0.dat0 (V3 m ρ) c).arrAt 3 cfg0.N := W4_arr m ρ c 3
theorem W4_out1 (c : Dev nD) : W4 m ρ c (Proc.devRef .tc main_v21_1) = (R0.dat0 (V3 m ρ) c).arrAt 4 cfg0.N := W4_arr m ρ c 4
theorem W4_out2 (c : Dev nD) : W4 m ρ c (Proc.devRef .tc main_v21_2) = (R0.dat0 (V3 m ρ) c).arrAt 5 cfg0.N := W4_arr m ρ c 5
/-- The normalised matrix after the second region: the program's result. -/
theorem W6_out (c : Dev nD) : W6 m ρ c (Proc.devRef .tc main_v30) = (R1.dat1 (V5 m ρ) c).arrAt 5 cfg1.N := W6_arr m ρ c 5

/-! ## The arguments end as launched -/

/-- Argument 0 ends as launched: no host stretch writes it and it is no array of either region. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
/-- Argument 1 ends as launched: no host stretch writes it and it is no array of either region. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
/-- Argument 2 ends as launched: no host stretch writes it and it is no array of either region. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
/-- Argument 3 ends as launched: no host stretch writes it and it is no array of either region. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
/-- Argument 4 ends as launched: no host stretch writes it and it is no array of either region. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
/-- Argument 5 ends as launched: no host stretch writes it and it is no array of either region. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
/-- Argument 6 ends as launched: no host stretch writes it and it is no array of either region. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (V3 m ρ) c
  | ⟨1, _⟩ => fun c => R1.dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (V3 m ρ) c)
    unfold Pipeline.ΦA
    iintro ⟨Hp, -, Hr⟩
    isplitl [Hr]; · iexact Hr
    iexact Hp
  hout c := by
    rw [Pipeline.ownSems0_none]
    refine BIBase.Entails.trans (R0.hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- The program is the run of the six items. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and in every final state every unscoped buffer of every core holds `W6`. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.KF

end
-- ==== Proof.BRegion1.lean ====
/-
  The second kernel region of the program — the launch that applies the batch-norm affine map
  tile by tile — at an arbitrary TensorCore buffer contents `V` found when the region is entered.

  The region has a grid of 20 points. Window 0 is the activation matrix, cut into 20 blocks of 1000 rows
  (block `t` is rows 1000·t … 1000·t + 999, all 512 columns); windows 1–4 are the four 1×512 rows
  (column mean, column variance, scale, shift), each a single block with a constant index map, so the
  same row is in place at every point; window 5 is the output matrix, cut like window 0.

  At a point the body reads the five input blocks whole and overwrites the whole output block with
      ((h − mean) · rsqrt (var + ε)) · scale + shift,
  the rows broadcast down the 1000 rows of the tile. So after the body the output buffer is a function
  of the five input blocks alone (`out1_5`), and each input buffer still holds its block. This file
  states that as the pipeline's proof data `dat1` and proves the body obligation at every point,
  for any float instance.
-/
import proofs.«130999_j29059748725632_1_alg».proof.Proof.Gen.Kernel.Launch
import proofs.«130999_j29059748725632_1_alg».proof.Proof.Gen.Kernel.Skeleton
import proofs.«130999_j29059748725632_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 × 512 entries: the structural check recurses once per coordinate
set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window's
    index map selects at `t` (rows 1000·t … 1000·t + 999 for the two matrices, the whole row for the rest). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation tile is in its staging buffer at every point (it is fetched at every point), for any proof
    data over the arrays `V` whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The mean row is in its staging buffer at every point: fetched at the first point, and at a later point
    the index map has not moved (it is constant), so the buffer still holds the row the body left in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The variance row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scale row likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The shift row likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

/-- The whole 1000 × 512 tile. -/
abbrev tileRect : Rect S1000x512 := Rect.unit (s := S1000x512) ![0, 0] S1000x512.size inb_S1000x512_S1000x512_0_0
/-- The whole 1 × 512 row. -/
abbrev rowRect : Rect S1x512 := Rect.unit (s := S1x512) ![0, 0] S1x512.size inb_S1x512_S1x512_0_0

/-! ## What the body leaves in the output window's buffer -/

/-- The output tile after the body, from the five input blocks (`h` the activation tile, then the mean,
    variance, scale and shift rows): its one store, of the affine payload, over the whole tile. The payload
    takes the variance row first, then the tile, then the mean, scale and shift rows — the order in which the
    body reads them. -/
def out1_5 (h : Vec F S1000x512 .f32) (mean var scale shift : Vec F S1x512 .f32) : Vec F S1000x512 .f32 :=
  View.canon [⟨tileRect, k1_pay1 (View.ld var rowRect) (View.ld h tileRect) (View.ld mean rowRect) (View.ld scale rowRect) (View.ld shift rowRect)⟩]

/-- The one store covers the tile. -/
theorem cover1_5 (p0 : Vec F S1000x512 .f32) (y : S1000x512.Idx) :
    ∃ pc ∈ ([⟨tileRect, p0⟩] : List (View.Piece (Elt F) S1000x512 .f32)), y ∈ pc.1.set :=
  View.cover_of_tiled [⟨tileRect, p0⟩] S1000x512.size (by rfl) y

/-! ## The body's triple -/

set_option maxHeartbeats 1000000 in
/-- The kernel body on whole staging memrefs — the five inputs' at read contents, the output's at anything —
    runs to the continuation holding the inputs' as they were and the output's at `out1_5` of the inputs'.
    (The body also loads the output buffer before it stores into it; the value read is not used.) -/
theorem sound_kernel1 (c : Dev nD) (E : Set ℕ) (i : grid1.Coords)
    (arg1 : Memref sig .tc .vmem S1000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1000x512 .f32) (harg6 : arg6.IsWhole)
    (x0 : Vec F S1000x512 .f32) (x1 x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_affine_kernel i arg1 harg1 arg2 harg2 arg3 harg3 arg4 harg4 arg5 harg5 arg6 harg6) K := by
  simp only [cc1__bn_affine_kernel_eq_skeleton]; unfold cc1__bn_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body
    at point `t` each input's buffer at its block and the output's at `out1_5` of the five input blocks;
    the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's dues, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.BR0RunA.lean ====
/-
  The first kernel region (the linear layer, relu and the running column sums), part one: what its body's runs share.
  The body branches once, on the grid position: at the first point it clears the two accumulators (the running column
  sum and the running column sum of squares, kept in scratch between points); at every point it stores the activated
  block, adds the block's column sums to the accumulators and copies them to the two statistics outputs.
-/
import proofs.«130999_j29059748725632_1_alg».proof.Proof.Gen.Kernel.Launch
import proofs.«130999_j29059748725632_1_alg».proof.Proof.Gen.Kernel.Skeleton
import proofs.«130999_j29059748725632_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first point". -/
abbrev cond0_0 (i : grid0.Coords) : Prop := (Scalar.cmpi .ne (Scalar.extui (Scalar.cmpi .eq (BitVec.ofNat 32 (i 0).val) 0#32)) 0#32) = 1#1
/-- It holds at point 0 only, decided over the grid. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the body stores into every output at every point. -/
theorem liveAt0 : ∀ (w : Fin cfg0.W) (t : Fin cfg0.N), cfg0.idle w (grid0.coords t) = false := by decide +kernel

/-- Each window's current staging memref at point `t`, spelled as the pipeline passes it, and its wholeness. -/
abbrev ms0_0 (t : Fin cfg0.N) : Memref sig .tc .vmem S1000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- The two accumulators: whole scoped buffers of the kernel's own, passed beside the windows. -/
abbrev scM0_0 : Memref sig .tc .vmem S1x512 .f32 := Memref.whole cc0_scratch0
abbrev scM0_1 : Memref sig .tc .vmem S1x512 .f32 := Memref.whole cc0_scratch1
/-- Views through which the contents of the accumulators and of the outputs' staging buffers are stated. -/
abbrev VS0_0 : View sig .tc .vmem S1x512 .f32 := scM0_0.view
abbrev VS0_1 : View sig .tc .vmem S1x512 .f32 := scM0_1.view
abbrev VO0_3 : View sig .tc .vmem S1000x512 .f32 := (Memref.whole cc0_stg3_0 : Memref sig .tc .vmem S1000x512 .f32).view
abbrev VO0_4 : View sig .tc .vmem S1x512 .f32 := (Memref.whole cc0_stg4_0 : Memref sig .tc .vmem S1x512 .f32).view
abbrev VO0_5 : View sig .tc .vmem S1x512 .f32 := (Memref.whole cc0_stg5_0 : Memref sig .tc .vmem S1x512 .f32).view

/-- A list of stores into a buffer of shape `S`. -/
abbrev Pcs (S : Shape) : Type := List (View.Piece (Elt F) S .f32)

/-- What the body is handed back with, given the pieces stored into each output and accumulator. -/
abbrev runPost (c : Dev nD) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole)
    (x0 : Vec F S1000x512 .f32) (x1 : Vec F S512x512 .bf16) (x2 : Vec F S1x512 .f32)
    (L3 : Pcs (F := F) S1000x512) (L4 L5 LS0 LS1 : Pcs (F := F) S1x512) : sProp 𝕄 :=
  iprop(owns (c : Thread nD τ) arg1 fullShare x0 ∗ owns (c : Thread nD τ) arg2 fullShare x1 ∗ owns (c : Thread nD τ) arg3 fullShare x2
    ∗ (∃ f, arg4.view.loc (c : Thread nD τ) ↦[arg4.view.set]{fullShare} arg4.view.writes (Elt F) f L3)
    ∗ (∃ f, arg5.view.loc (c : Thread nD τ) ↦[arg5.view.set]{fullShare} arg5.view.writes (Elt F) f L4)
    ∗ (∃ f, arg6.view.loc (c : Thread nD τ) ↦[arg6.view.set]{fullShare} arg6.view.writes (Elt F) f L5)
    ∗ (∃ f, arg7.view.loc (c : Thread nD τ) ↦[arg7.view.set]{fullShare} arg7.view.writes (Elt F) f LS0)
    ∗ (∃ f, arg8.view.loc (c : Thread nD τ) ↦[arg8.view.set]{fullShare} arg8.view.writes (Elt F) f LS1))

set_option maxHeartbeats 4000000 in
/-- The body at the FIRST point: on whole staging memrefs, the inputs' at their contents, the outputs' and the accumulators'
    at anything, it runs to the continuation holding the inputs' as they were and every output and accumulator with its
    stores written; the stores are the witness the run finds. -/
noncomputable def kernelRun0_A (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i)
    (x0 : Vec F S1000x512 .f32) (x1 : Vec F S512x512 .bf16) (x2 : Vec F S1x512 .f32) :
    Σ' (L3 : Pcs (F := F) S1000x512) (L4 : Pcs (F := F) S1x512) (L5 : Pcs (F := F) S1x512) (LS0 : Pcs (F := F) S1x512), { LS1 : Pcs (F := F) S1x512 //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (runPost c arg1 harg1 arg2 harg2 arg3 harg3 arg4 harg4 arg5 harg5 arg6 harg6 arg7 harg7 arg8 harg8 x0 x1 x2 L3 L4 L5 LS0 LS1 -∗ K ⟨⟩))
          ⊢ wp frame (wpE (defs₀ (F := F)) Variants.none c none) E (cc0__matmul_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul_relu_stats_kernel_eq_skeleton]; unfold cc0__matmul_relu_stats_kernel_skel
    simp only [k0_part1_eq_skeleton]
    unfold runPost; unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.R0

end
-- ==== Proof.BR0RunB.lean ====
/-
  The first kernel region, part two: the body's run at every point after the first, where the two accumulators hold
  what the point before left in them.
-/
import proofs.«130999_j29059748725632_1_alg».proof.Proof.BR0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LATER point: as at the first, but the accumulators are handed over at given contents `xs0`, `xs1`
    (what the point before left) and nothing clears them. -/
noncomputable def kernelRun0_B (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i)
    (x0 : Vec F S1000x512 .f32) (x1 : Vec F S512x512 .bf16) (x2 : Vec F S1x512 .f32) (xs0 xs1 : Vec F S1x512 .f32) :
    Σ' (L3 : Pcs (F := F) S1000x512) (L4 : Pcs (F := F) S1x512) (L5 : Pcs (F := F) S1x512) (LS0 : Pcs (F := F) S1x512), { LS1 : Pcs (F := F) S1x512 //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (runPost c arg1 harg1 arg2 harg2 arg3 harg3 arg4 harg4 arg5 harg5 arg6 harg6 arg7 harg7 arg8 harg8 x0 x1 x2 L3 L4 L5 LS0 LS1 -∗ K ⟨⟩))
          ⊢ wp frame (wpE (defs₀ (F := F)) Variants.none c none) E (cc0__matmul_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul_relu_stats_kernel_eq_skeleton]; unfold cc0__matmul_relu_stats_kernel_skel
    simp only [k0_part1_eq_skeleton]
    unfold runPost; unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.R0

end
-- ==== Proof.BR0Frame.lean ====
/-
  The first kernel region, part three: what its outputs and accumulators hold point by point, the proof data of its
  pipeline, and the body's obligation at every point.

  After the body at point t the activated block's staging buffer holds relu(block t · Wᵀ + b); the two accumulators
  hold the running column sums (of the activations, and of their squares) over blocks 0..t, started from zero at
  point 0; the two statistics outputs' staging buffers hold copies of the accumulators. The accumulators are carried
  from one point to the next by the region's invariant.
-/
import proofs.«130999_j29059748725632_1_alg».proof.Proof.BR0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into the activated block's staging buffer at the first point tile it, so they cover it. -/
theorem cov_A_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1000x512.Idx) :
    ∃ pc ∈ (kernelRun0_A (F := F) c i arg1 harg1 arg2 harg2 arg3 harg3 arg4 harg4 arg5 harg5 arg6 harg6 arg7 harg7 arg8 harg8 hc0 x0 x1 x2).1, y ∈ pc.1.set :=
  View.cover_of_tiledL (kernelRun0_A (F := F) c i arg1 harg1 arg2 harg2 arg3 harg3 arg4 harg4 arg5 harg5 arg6 harg6 arg7 harg7 arg8 harg8 hc0 x0 x1 x2).1 S1000x512.size (by sl_kernel_rfl) y
/-- What they leave there: the stores laid over one another. -/
def val_A_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1000x512 .f32 :=
  View.canon (kernelRun0_A (F := F) c i arg1 harg1 arg2 harg2 arg3 harg3 arg4 harg4 arg5 harg5 arg6 harg6 arg7 harg7 arg8 harg8 hc0 x0 x1 x2).1

/-- The stores into the column-sum output's staging buffer at the first point tile it, so they cover it. -/
theorem cov_A_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.1 S1x512.size (by sl_kernel_rfl) y
/-- What they leave there: the stores laid over one another. -/
def val_A_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.1

/-- The stores into the sum-of-squares output's staging buffer at the first point tile it, so they cover it. -/
theorem cov_A_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.2.1 S1x512.size (by sl_kernel_rfl) y
/-- What they leave there: the stores laid over one another. -/
def val_A_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.2.1

/-- The stores into the column-sum accumulator at the first point tile it, so they cover it. -/
theorem cov_A_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.2.2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.2.2.1 S1x512.size (by sl_kernel_rfl) y
/-- What they leave there: the stores laid over one another. -/
def val_A_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.2.2.1

/-- The stores into the sum-of-squares accumulator at the first point tile it, so they cover it. -/
theorem cov_A_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) (y : S1x512.Idx) :
    ∃ pc ∈ (kernelRun0_A (F := F) c i arg1 harg1 arg2 harg2 arg3 harg3 arg4 harg4 arg5 harg5 arg6 harg6 arg7 harg7 arg8 harg8 hc0 x0 x1 x2).2.2.2.2.1, y ∈ pc.1.set :=
  View.cover_of_tiledL (kernelRun0_A (F := F) c i arg1 harg1 arg2 harg2 arg3 harg3 arg4 harg4 arg5 harg5 arg6 harg6 arg7 harg7 arg8 harg8 hc0 x0 x1 x2).2.2.2.2.1 S1x512.size (by sl_kernel_rfl) y
/-- What they leave there: the stores laid over one another. -/
def val_A_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) : Vec F S1x512 .f32 :=
  View.canon (kernelRun0_A (F := F) c i arg1 harg1 arg2 harg2 arg3 harg3 arg4 harg4 arg5 harg5 arg6 harg6 arg7 harg7 arg8 harg8 hc0 x0 x1 x2).2.2.2.2.1

/-- The stores into the activated block's staging buffer at a later point tile it, so they cover it. -/
theorem cov_B_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1000x512.Idx) :
    ∃ pc ∈ (kernelRun0_B (F := F) c i arg1 harg1 arg2 harg2 arg3 harg3 arg4 harg4 arg5 harg5 arg6 harg6 arg7 harg7 arg8 harg8 hc0 x0 x1 x2 xs0 xs1).1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).1 S1000x512.size (by sl_kernel_rfl) y
/-- What they leave there: the stores laid over one another. -/
def val_B_o3 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1000x512 .f32 :=
  View.canon (kernelRun0_B (F := F) c i arg1 harg1 arg2 harg2 arg3 harg3 arg4 harg4 arg5 harg5 arg6 harg6 arg7 harg7 arg8 harg8 hc0 x0 x1 x2 xs0 xs1).1

/-- The stores into the column-sum output's staging buffer at a later point tile it, so they cover it. -/
theorem cov_B_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.1 S1x512.size (by sl_kernel_rfl) y
/-- What they leave there: the stores laid over one another. -/
def val_B_o4 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.1

/-- The stores into the sum-of-squares output's staging buffer at a later point tile it, so they cover it. -/
theorem cov_B_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.2.1 S1x512.size (by sl_kernel_rfl) y
/-- What they leave there: the stores laid over one another. -/
def val_B_o5 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.2.1

/-- The stores into the column-sum accumulator at a later point tile it, so they cover it. -/
theorem cov_B_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.2.2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.2.2.1 S1x512.size (by sl_kernel_rfl) y
/-- What they leave there: the stores laid over one another. -/
def val_B_s0 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.2.2.1

/-- The stores into the sum-of-squares accumulator at a later point tile it, so they cover it. -/
theorem cov_B_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) (y : S1x512.Idx) :
    ∃ pc ∈ (kernelRun0_B (F := F) c i arg1 harg1 arg2 harg2 arg3 harg3 arg4 harg4 arg5 harg5 arg6 harg6 arg7 harg7 arg8 harg8 hc0 x0 x1 x2 xs0 xs1).2.2.2.2.1, y ∈ pc.1.set :=
  View.cover_of_tiledL (kernelRun0_B (F := F) c i arg1 harg1 arg2 harg2 arg3 harg3 arg4 harg4 arg5 harg5 arg6 harg6 arg7 harg7 arg8 harg8 hc0 x0 x1 x2 xs0 xs1).2.2.2.2.1 S1x512.size (by sl_kernel_rfl) y
/-- What they leave there: the stores laid over one another. -/
def val_B_s1 (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) : Vec F S1x512 .f32 :=
  View.canon (kernelRun0_B (F := F) c i arg1 harg1 arg2 harg2 arg3 harg3 arg4 harg4 arg5 harg5 arg6 harg6 arg7 harg7 arg8 harg8 hc0 x0 x1 x2 xs0 xs1).2.2.2.2.1

/-! ## At the region's entry contents -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the three outputs' staging buffers and the two accumulators hold after the body at position `n` (in that
    order): at the first point the first case's contents; afterwards the later case's, over what the point before
    left in the accumulators. -/
def outsAt0 (c : Dev nD) : (n : ℕ) → n < cfg0.N → Vec F S1000x512 .f32 × Vec F S1x512 .f32 × Vec F S1x512 .f32 × Vec F S1x512 .f32 × Vec F S1x512 .f32
  | 0, hn =>
    (val_A_o3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_o4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_o5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩),
      val_A_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩))
  | n + 1, hn =>
    (val_B_o3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_o4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_o5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2,
      val_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (hz : t.val = 0) :
    outsAt0 V c t.val t.isLt = (val_A_o3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_o4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t),
      val_A_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr hz) (iblk0 V c 0 t) (iblk0 V c 1 t) (iblk0 V c 2 t)) := by
  obtain ⟨n, hn⟩ := t
  cases n with
  | zero => rfl
  | succ n => exact absurd hz (Nat.succ_ne_zero n)

/-- `outsAt0` at a later point: over what the point before left. -/
theorem outsAt0_B (c : Dev nD) (t : Fin cfg0.N) (hz : ¬t.val = 0) :
    outsAt0 V c t.val t.isLt = (val_B_o3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_o4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_o5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_s0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      val_B_s1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => hz ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl hz
  | succ n => rfl

/-- The scoped buffers of the core that belong to neither this region's windows nor its accumulators (the other
    region's staging buffers), each whole at some contents. -/
def restR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant spelled out: both accumulators at some contents, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR (F := F) c) ∗ (∃ r, prngReg c r)) := by
  unfold Pipeline.ΦA restR; rw [scopedRest0_eq]; simp only [scM0_0, scM0_1, owns_whole]; try rfl

/-- The region's invariant before position `n`: before the first point the class's (the accumulators at anything);
    afterwards each accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR (F := F) c) ∗ (∃ r, prngReg c r)) := by
  cases n with
  | zero => exact absurd rfl hz
  | succ n => rfl

/-! ## The pipeline's proof data -/

/-- The proof data of this region's pipeline on core `c`: the arrays as the region finds them; after the body at
    point `t` each input's buffer at its block and each output's at `outsAt0`'s component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.R0

end
-- ==== Proof.BR0Body.lean ====
/-
  The first kernel region, part four: the body's obligation at every point. At the first point the invariant hands the
  body the accumulators at anything; at a later point, at what the point before left. Either way the body hands back
  the inputs' buffers untouched, each output's buffer and each accumulator at the point's contents.
-/
import proofs.«130999_j29059748725632_1_alg».proof.Proof.BR0Frame

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0 0 t], after0_0]
  rw [show (dat0 V c).leavesExact 1 t = owns (c : Thread nD τ) (ms0_1 t) fullShare ((dat0 V c).after 1 t) from by
    unfold Dat.leavesExact; rw [liveAt0 1 t], after0_1]
  rw [show (dat0 V c).leavesExact 2 t = owns (c : Thread nD τ) (ms0_2 t) fullShare ((dat0 V c).after 2 t) from by
    unfold Dat.leavesExact; rw [liveAt0 2 t], after0_2]
  rw [show (dat0 V c).leavesExact 3 t = owns (c : Thread nD τ) (ms0_3 t) fullShare ((dat0 V c).after 3 t) from by
    unfold Dat.leavesExact; rw [liveAt0 3 t], after0_3]
  rw [show (dat0 V c).leavesExact 4 t = owns (c : Thread nD τ) (ms0_4 t) fullShare ((dat0 V c).after 4 t) from by
    unfold Dat.leavesExact; rw [liveAt0 4 t], after0_4]
  rw [show (dat0 V c).leavesExact 5 t = owns (c : Thread nD τ) (ms0_5 t) fullShare ((dat0 V c).after 5 t) from by
    unfold Dat.leavesExact; rw [liveAt0 5 t], after0_5]
  by_cases hz : t.val = 0
  · rw [outsAt0_A V c t hz]
    unfold val_A_o3 val_A_o4 val_A_o5 val_A_s0 val_A_s1; (try dsimp only)
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr hz) (iblk0 V c 0 t) (iblk0 V c 1 t) (iblk0 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_eq_canon _ _ _ (cov_A_s0 c _ _ _ _ _ _ _ _ _ _ _ _ _ _ _ _ _ _ _ _ _)
        isplitl [HS1]
        · unfold owns; iexists _; isplitr
          swap; · iexact HS1
          ipureintro; exact View.read_writes_eq_canon _ _ _ (cov_A_s1 c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cov_A_o3 c _ _ _ _ _ _ _ _ _ _ _ _ _ _ _ _ _ _ _ _ _)
    isplitl [H4]
    · unfold owns; iexists _; isplitr
      swap; · iexact H4
      ipureintro; exact View.read_writes_eq_canon _ _ _ (cov_A_o4 c _ _ _ _ _ _ _ _ _ _ _ _ _ _ _ _ _ _ _ _ _)
    unfold owns; iexists _; isplitr
    swap; · iexact H5
    ipureintro; exact View.read_writes_eq_canon _ _ _ (cov_A_o5 c _ _ _ _ _ _ _ _ _ _ _ _ _ _ _ _ _ _ _ _ _)
  · rw [outsAt0_B V c t hz]
    unfold val_B_o3 val_B_o4 val_B_o5 val_B_s0 val_B_s1; (try dsimp only)
    rw [PhiS_castSucc V c t, PhiS_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => hz ((hcond0_0 t).mp h)) (iblk0 V c 0 t) (iblk0 V c 1 t) (iblk0 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_eq_canon _ _ _ (cov_B_s0 c _ _ _ _ _ _ _ _ _ _ _ _ _ _ _ _ _ _ _ _ _ _ _)
        isplitl [HS1]
        · unfold owns; iexists _; isplitr
          swap; · iexact HS1
          ipureintro; exact View.read_writes_eq_canon _ _ _ (cov_B_s1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cov_B_o3 c _ _ _ _ _ _ _ _ _ _ _ _ _ _ _ _ _ _ _ _ _ _ _)
    isplitl [H4]
    · unfold owns; iexists _; isplitr
      swap; · iexact H4
      ipureintro; exact View.read_writes_eq_canon _ _ _ (cov_B_o4 c _ _ _ _ _ _ _ _ _ _ _ _ _ _ _ _ _ _ _ _ _ _ _)
    unfold owns; iexists _; isplitr
    swap; · iexact H5
    ipureintro; exact View.read_writes_eq_canon _ _ _ (cov_B_o5 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Cert.Kernel.R0

end
-- ==== Proof.BKFrame.lean ====
/-
  The kernel program's run, from the launch to the return, over its two kernel regions.

  The program is six items in a row: three stretches of host operations (the neighbour aggregation and the
  in-degree, the choice between the aggregate and the node's own features, the transposed weight and the bias
  row), the first kernel region (the matrix product with its activation and the two column sums, accumulated
  tile by tile), one more host stretch (the column mean and variance from the sums, the scale and shift rows),
  and the second kernel region (the affine normalisation, tile by tile).

  Between two items the TensorCore's unscoped buffers hold a definite valuation, each computed from the one
  before: a host stretch applies its operations in order; a region leaves each of its arrays at what its
  write-backs fold to and every other buffer as entered. `W0` … `W6` name these seven valuations.
  The run theorem says every weakly fair execution terminates and the final memory is `W6` at every
  unscoped buffer; the lemmas after the chain read `W6` and `W4` back at the buffers that matter:
  the arguments (unchanged), each region's output arrays (what its proof data folds), everything else
  (as it was before the region).
-/
import proofs.«130999_j29059748725632_1_alg».proof.Proof.BRegion1
import proofs.«130999_j29059748725632_1_alg».proof.Proof.BR0Body
import proofs.«130999_j29059748725632_1_alg».proof.Proof.Gen.Kernel.Launch
import proofs.«130999_j29059748725632_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second. -/
abbrev W2 : Dev nD → Valuation τ sig (Elt F) := fun c => StableHlo.after hostOps0_1 (W1 m ρ c)
/-- After the third: what the first kernel region is entered from. -/
abbrev W3 : Dev nD → Valuation τ sig (Elt F) := fun c => StableHlo.after hostOps0_2 (W2 m ρ c)
/-- The same read at the TensorCore's references (what the first region's proof data take). -/
abbrev V3 : (c : Dev nD) → (b : Ref sig .tc) → Buf (Elt F) ((c : Thread nD τ).loc b) := fun c b => W3 m ρ c b
/-- At the first region's exit: its arrays at what the pipeline leaves (the inputs as entered, each output's
    write-backs folded), every other buffer as entered. -/
def W4 (c : Dev nD) : Valuation τ sig (Elt F) :=
  Pipeline.withArrays spec0 c (W3 m ρ c) fun w => (R0.dat0 (V3 m ρ) c).arrAt w cfg0.N
/-- An array of the first region holds, at the exit, what the region's proof data fold. -/
theorem W4_arr (c : Dev nD) (w : Fin cfg0.W) :
    W4 m ρ c (Proc.devRef .tc (Pipeline.arrRef spec0 w)) = (R0.dat0 (V3 m ρ) c).arrAt w cfg0.N := by
  unfold W4; exact Pipeline.withArrays_arr spec0 launch0.win.arr_inj c _ _ w
/-- Any other buffer holds what it held at the entry. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (R0.dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the fourth host stretch: what the second kernel region is entered from. -/
abbrev W5 : Dev nD → Valuation τ sig (Elt F) := fun c => StableHlo.after hostOps1 (W4 m ρ c)
/-- The same read at the TensorCore's references (what the second region's proof data take). -/
abbrev V5 : (c : Dev nD) → (b : Ref sig .tc) → Buf (Elt F) ((c : Thread nD τ).loc b) := fun c b => W5 m ρ c b
/-- At the second region's exit, which is the end of the program. -/
def W6 (c : Dev nD) : Valuation τ sig (Elt F) :=
  Pipeline.withArrays spec1 c (W5 m ρ c) fun w => (R1.dat1 (V5 m ρ) c).arrAt w cfg1.N
theorem W6_arr (c : Dev nD) (w : Fin cfg1.W) :
    W6 m ρ c (Proc.devRef .tc (Pipeline.arrRef spec1 w)) = (R1.dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (R1.dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The regions' outputs, read off the chain -/

/-- The activation matrix, the column sums and the column sums of squares after the first region. -/
theorem W4_out0 (c : Dev nD) : W4 m ρ c (Proc.devRef .tc main_v21_0) = (R0.dat0 (V3 m ρ) c).arrAt 3 cfg0.N := W4_arr m ρ c 3
theorem W4_out1 (c : Dev nD) : W4 m ρ c (Proc.devRef .tc main_v21_1) = (R0.dat0 (V3 m ρ) c).arrAt 4 cfg0.N := W4_arr m ρ c 4
theorem W4_out2 (c : Dev nD) : W4 m ρ c (Proc.devRef .tc main_v21_2) = (R0.dat0 (V3 m ρ) c).arrAt 5 cfg0.N := W4_arr m ρ c 5
/-- The normalised matrix after the second region: the program's result. -/
theorem W6_out (c : Dev nD) : W6 m ρ c (Proc.devRef .tc main_v30) = (R1.dat1 (V5 m ρ) c).arrAt 5 cfg1.N := W6_arr m ρ c 5

/-! ## The arguments end as launched -/

/-- Argument 0 ends as launched: no host stretch writes it and it is no array of either region. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
/-- Argument 1 ends as launched: no host stretch writes it and it is no array of either region. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
/-- Argument 2 ends as launched: no host stretch writes it and it is no array of either region. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
/-- Argument 3 ends as launched: no host stretch writes it and it is no array of either region. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
/-- Argument 4 ends as launched: no host stretch writes it and it is no array of either region. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
/-- Argument 5 ends as launched: no host stretch writes it and it is no array of either region. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
/-- Argument 6 ends as launched: no host stretch writes it and it is no array of either region. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (V3 m ρ) c
  | ⟨1, _⟩ => fun c => R1.dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (V3 m ρ) c)
    unfold Pipeline.ΦA
    iintro ⟨Hp, -, Hr⟩
    isplitl [Hr]; · iexact Hr
    iexact Hp
  hout c := by
    rw [Pipeline.ownSems0_none]
    refine BIBase.Entails.trans (R0.hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- The program is the run of the six items. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and in every final state every unscoped buffer of every core holds `W6`. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.KF

end
-- ==== Proof.RefRun.lean ====
/-
  The reference program's run and its value. @main is a straight line of 76 host operations — the four outlined functions
  (the two selects, relu, the variance) listed inline at their call sites over each call's own buffers —, and every weakly
  fair execution ends with the result buffer at one composed term of the seven argument arrays, cut here into named stages:
    aggT, indegT   the two segment sums (features gathered along the edges and scattered to their targets; the in-degrees)
    hpre           the aggregated row where the in-degree is positive, the input row elsewhere
    actT           the linear layer and relu
    meanT, devT, dofT, varT, normT   the batch statistics and the normalization with its affine map.
-/
import proofs.«130999_j29059748725632_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- The aggregated features: row `d` is the sum of the rows `x[src e]` over the edges `e` with `dst e = d` (a negative source index counts from the end, as `jnp` indexing does). -/
def aggT (x : FVec F S20000x512 .f32) (src : IVec S150000 32) (dst : IVec S150000 32) : FVec F S20000x512 .f32 :=
  Host.scatterAdd (F := F) scatter_S20000x512_S150000x1_S150000x512_1_0_0_1 (broadcastInDim S20000x512 ![] bcast_S_S20000x512 (constant (F := F) S_ .f32 0x00000000#32)) (broadcastInDim S150000x1 ![0] bcast_S150000_S150000x1_0 dst) (Host.gather gather_S20000x512_S150000x1_S150000x512_1_0_n_n_0_1_1512 x (broadcastInDim S150000x1 ![0] bcast_S150000_S150000x1_0 (select (cmpi .slt src (broadcastInDim S150000 ![] bcast_S_S150000 (constantI S_ 32 0#32))) (addi src (broadcastInDim S150000 ![] bcast_S_S150000 (constantI S_ 32 20000#32))) src)))

/-- The in-degree of every row: the number of edges `e` with `dst e = d`, as a float sum of ones. -/
def indegT (dst : IVec S150000 32) : FVec F S20000 .f32 :=
  Host.scatterAdd (F := F) scatter_S20000_S150000x1_S150000_n_0_0_1 (broadcastInDim S20000 ![] bcast_S_S20000 (constant (F := F) S_ .f32 0x00000000#32)) (broadcastInDim S150000x1 ![0] bcast_S150000_S150000x1_0 dst) (broadcastInDim S150000 ![] bcast_S_S150000 (constant (F := F) S_ .f32 0x3F800000#32))

/-- The features entering the linear layer: the aggregated row where the in-degree is positive, the row of `x` itself elsewhere. -/
def hpre (x : FVec F S20000x512 .f32) (src : IVec S150000 32) (dst : IVec S150000 32) : FVec F S20000x512 .f32 :=
  select (broadcastInDim S20000x512 ![0, 1] bcast_S20000x1_S20000x512_0_1 (cmpf (F := F) .ogt (broadcastInDim S20000x1 ![0] bcast_S20000_S20000x1_0 (indegT dst)) (broadcastInDim S20000x1 ![] bcast_S_S20000x1 (constant (F := F) S_ .f32 0x00000000#32)))) (aggT x src dst) x

/-- The linear layer followed by relu: `max (hp · Wᵀ + b) 0`. -/
def actT (hp : FVec F S20000x512 .f32) (W : FVec F S512x512 .f32) (b : FVec F S512 .f32) : FVec F S20000x512 .f32 :=
  maximumf (F := F) (addf (F := F) (Host.dotGeneral (F := F) dot_S20000x512_S512x512_S20000x512_1_1_0_0_n_n none hp W) (broadcastInDim S20000x512 ![0, 1] bcast_S1x512_S20000x512_0_1 (broadcastInDim S1x512 ![1] bcast_S512_S1x512_1 b))) (broadcastInDim S20000x512 ![] bcast_S_S20000x512 (constant (F := F) S_ .f32 0x00000000#32))

/-- The column means of `h`: the column sums divided by the number of rows. -/
def meanT (h : FVec F S20000x512 .f32) : FVec F S512 .f32 :=
  Host.divf (F := F) (Host.reduceAdd (F := F) h (constant (F := F) S_ .f32 0x00000000#32) reducesTo_S20000x512_S512_d0 h_S_) (broadcastInDim S512 ![] bcast_S_S512 (constant (F := F) S_ .f32 0x469C4000#32))

/-- The deviations of `h` from its column means (the means recomputed inside `jnp.var`: column sums divided by the number of rows). -/
def devT (h : FVec F S20000x512 .f32) : FVec F S20000x512 .f32 :=
  subf (F := F) h (broadcastInDim S20000x512 ![0, 1] bcast_S1x512_S20000x512_0_1 (Host.divf (F := F) (broadcastInDim S1x512 ![1] bcast_S512_S1x512_1 (Host.reduceAdd (F := F) h (constant (F := F) S_ .f32 0x00000000#32) reducesTo_S20000x512_S512_d0 h_S_)) (broadcastInDim S1x512 ![] bcast_S_S1x512 (constant (F := F) S_ .f32 0x469C4000#32))))

/-- The divisor of `jnp.var`: the number of rows minus the delta degrees of freedom, here the integer zero converted to a float. -/
def dofT : FVec F S_ .f32 :=
  subf (F := F) (constant (F := F) S_ .f32 0x469C4000#32) (sitofp (F := F) .f32 (constantI S_ 32 0#32))

/-- The column variances of `h` as `jnp.var` computes them: the column sums of the squared deviations divided by the divisor, selected against the not-a-number word when the divisor is not positive. -/
def varT (h : FVec F S20000x512 .f32) : FVec F S512 .f32 :=
  select (broadcastInDim S512 ![] bcast_S_S512 (cmpf (F := F) .ogt (dofT (F := F)) (constant (F := F) S_ .f32 0x00000000#32))) (Host.divf (F := F) (Host.reduceAdd (F := F) (mulf (F := F) (devT h) (devT h)) (constant (F := F) S_ .f32 0x00000000#32) reducesTo_S20000x512_S512_d0 h_S_) (broadcastInDim S512 ![] bcast_S_S512 (dofT (F := F)))) (broadcastInDim S512 ![] bcast_S_S512 ((constant (F := F) S_ .f32 0x7FC00000#32)))

/-- Batch normalization of `h` over its rows, then the affine map: `(h - mean) · rsqrt (var + ε) · g + bt`. -/
def normT (h : FVec F S20000x512 .f32) (g : FVec F S512 .f32) (bt : FVec F S512 .f32) : FVec F S20000x512 .f32 :=
  addf (F := F) (mulf (F := F) (mulf (F := F) (subf (F := F) h (broadcastInDim S20000x512 ![0, 1] bcast_S1x512_S20000x512_0_1 (broadcastInDim S1x512 ![1] bcast_S512_S1x512_1 (meanT h)))) (broadcastInDim S20000x512 ![0, 1] bcast_S1x512_S20000x512_0_1 (broadcastInDim S1x512 ![1] bcast_S512_S1x512_1 (Host.rsqrt (F := F) (addf (F := F) (varT h) (broadcastInDim S512 ![] bcast_S_S512 (constant (F := F) S_ .f32 0x3727C5AC#32))))))) (broadcastInDim S20000x512 ![0, 1] bcast_S1x512_S20000x512_0_1 (broadcastInDim S1x512 ![1] bcast_S512_S1x512_1 g))) (broadcastInDim S20000x512 ![0, 1] bcast_S1x512_S20000x512_0_1 (broadcastInDim S1x512 ![1] bcast_S512_S1x512_1 bt))

/-- The whole reference: batch normalization of the activations of the aggregated features. -/
def result (x : FVec F S20000x512 .f32) (src dst : IVec S150000 32) (W : FVec F S512x512 .f32) (b g bt : FVec F S512 .f32) : FVec F S20000x512 .f32 :=
  normT (actT (hpre x src dst) W b) g bt

/-! ## The program as a list of operations -/

/-- @main's 76 operations, in order, the calls unfolded: the select of the aggregated rows is two (the condition's
    broadcast along the columns, the select), relu three (the zero, its broadcast, the maximum), the variance twenty-two
    (nineteen of its own and the three of the select against the not-a-number word it ends with). -/
abbrev ops : List (HloOp τ sig (Elt F)) :=
  [
    StableHlo.nullary main_c (constantI S_ 32 0#32),
    StableHlo.unary main_c main_v0 (broadcastInDim S150000 ![] bcast_S_S150000 : (⟨S_, .i32⟩ : BufTy).Contents (Elt F) → (⟨S150000, .i32⟩ : BufTy).Contents (Elt F)),
    StableHlo.binary main_arg1 main_v0 main_v1 (cmpi .slt : (⟨S150000, .i32⟩ : BufTy).Contents (Elt F) → (⟨S150000, .i32⟩ : BufTy).Contents (Elt F) → (⟨S150000, .i1⟩ : BufTy).Contents (Elt F)),
    StableHlo.nullary main_c_0 (constantI S_ 32 20000#32),
    StableHlo.unary main_c_0 main_v2 (broadcastInDim S150000 ![] bcast_S_S150000 : (⟨S_, .i32⟩ : BufTy).Contents (Elt F) → (⟨S150000, .i32⟩ : BufTy).Contents (Elt F)),
    StableHlo.binary main_arg1 main_v2 main_v3 (addi : (⟨S150000, .i32⟩ : BufTy).Contents (Elt F) → (⟨S150000, .i32⟩ : BufTy).Contents (Elt F) → (⟨S150000, .i32⟩ : BufTy).Contents (Elt F)),
    StableHlo.ternary main_v1 main_v3 main_arg1 main_v4 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v4 main_v5 (broadcastInDim S150000x1 ![0] bcast_S150000_S150000x1_0 : (⟨S150000, .i32⟩ : BufTy).Contents (Elt F) → (⟨S150000x1, .i32⟩ : BufTy).Contents (Elt F)),
    StableHlo.binary main_arg0 main_v5 main_v6 ((fun x i => Host.gather gather_S20000x512_S150000x1_S150000x512_1_0_n_n_0_1_1512 x i) : (⟨S20000x512, .f32⟩ : BufTy).Contents (Elt F) → (⟨S150000x1, .i32⟩ : BufTy).Contents (Elt F) → (⟨S150000x512, .f32⟩ : BufTy).Contents (Elt F)),
    StableHlo.nullary main_cst (constant S_ .f32 0x00000000#32),
    StableHlo.unary main_cst main_v7 (broadcastInDim S20000x512 ![] bcast_S_S20000x512 : (⟨S_, .f32⟩ : BufTy).Contents (Elt F) → (⟨S20000x512, .f32⟩ : BufTy).Contents (Elt F)),
    StableHlo.unary main_arg2 main_v8 (broadcastInDim S150000x1 ![0] bcast_S150000_S150000x1_0 : (⟨S150000, .i32⟩ : BufTy).Contents (Elt F) → (⟨S150000x1, .i32⟩ : BufTy).Contents (Elt F)),
    StableHlo.ternary main_v7 main_v8 main_v6 main_v9 ((fun x i u => Host.scatterAdd scatter_S20000x512_S150000x1_S150000x512_1_0_0_1 x i u) : (⟨S20000x512, .f32⟩ : BufTy).Contents (Elt F) → (⟨S150000x1, .i32⟩ : BufTy).Contents (Elt F) → (⟨S150000x512, .f32⟩ : BufTy).Contents (Elt F) → (⟨S20000x512, .f32⟩ : BufTy).Contents (Elt F)),
    StableHlo.nullary main_cst_1 (constant S_ .f32 0x3F800000#32),
    StableHlo.unary main_cst_1 main_v10 (broadcastInDim S150000 ![] bcast_S_S150000 : (⟨S_, .f32⟩ : BufTy).Contents (Elt F) → (⟨S150000, .f32⟩ : BufTy).Contents (Elt F)),
    StableHlo.nullary main_cst_2 (constant S_ .f32 0x00000000#32),
    StableHlo.unary main_cst_2 main_v11 (broadcastInDim S20000 ![] bcast_S_S20000 : (⟨S_, .f32⟩ : BufTy).Contents (Elt F) → (⟨S20000, .f32⟩ : BufTy).Contents (Elt F)),
    StableHlo.unary main_arg2 main_v12 (broadcastInDim S150000x1 ![0] bcast_S150000_S150000x1_0 : (⟨S150000, .i32⟩ : BufTy).Contents (Elt F) → (⟨S150000x1, .i32⟩ : BufTy).Contents (Elt F)),
    StableHlo.ternary main_v11 main_v12 main_v10 main_v13 ((fun x i u => Host.scatterAdd scatter_S20000_S150000x1_S150000_n_0_0_1 x i u) : (⟨S20000, .f32⟩ : BufTy).Contents (Elt F) → (⟨S150000x1, .i32⟩ : BufTy).Contents (Elt F) → (⟨S150000, .f32⟩ : BufTy).Contents (Elt F) → (⟨S20000, .f32⟩ : BufTy).Contents (Elt F)),
    StableHlo.unary main_v13 main_v14 (broadcastInDim S20000x1 ![0] bcast_S20000_S20000x1_0 : (⟨S20000, .f32⟩ : BufTy).Contents (Elt F) → (⟨S20000x1, .f32⟩ : BufTy).Contents (Elt F)),
    StableHlo.nullary main_cst_3 (constant S_ .f32 0x00000000#32),
    StableHlo.unary main_cst_3 main_v15 (broadcastInDim S20000x1 ![] bcast_S_S20000x1 : (⟨S_, .f32⟩ : BufTy).Contents (Elt F) → (⟨S20000x1, .f32⟩ : BufTy).Contents (Elt F)),
    StableHlo.binary main_v14 main_v15 main_v16 (cmpf .ogt : (⟨S20000x1, .f32⟩ : BufTy).Contents (Elt F) → (⟨S20000x1, .f32⟩ : BufTy).Contents (Elt F) → (⟨S20000x1, .i1⟩ : BufTy).Contents (Elt F)),
    StableHlo.TRef.unary (TRef.of main_v16 : TRef sig ⟨S20000x1, .i1⟩) main_call0.v0 (broadcastInDim S20000x512 ![0, 1] bcast_S20000x1_S20000x512_0_1),
    StableHlo.TRef.ternary main_call0.v0 (TRef.of main_v9 : TRef sig ⟨S20000x512, .f32⟩) (TRef.of main_arg0 : TRef sig ⟨S20000x512, .f32⟩) main_call0.v1 select,
    StableHlo.binary main_v17 main_arg3 main_v18 ((fun l r => Host.dotGeneral dot_S20000x512_S512x512_S20000x512_1_1_0_0_n_n none l r) : (⟨S20000x512, .f32⟩ : BufTy).Contents (Elt F) → (⟨S512x512, .f32⟩ : BufTy).Contents (Elt F) → (⟨S20000x512, .f32⟩ : BufTy).Contents (Elt F)),
    StableHlo.unary main_arg4 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S20000x512 ![0, 1] bcast_S1x512_S20000x512_0_1 : (⟨S1x512, .f32⟩ : BufTy).Contents (Elt F) → (⟨S20000x512, .f32⟩ : BufTy).Contents (Elt F)),
    StableHlo.binary main_v18 main_v20 main_v21 (addf : (⟨S20000x512, .f32⟩ : BufTy).Contents (Elt F) → (⟨S20000x512, .f32⟩ : BufTy).Contents (Elt F) → (⟨S20000x512, .f32⟩ : BufTy).Contents (Elt F)),
    StableHlo.TRef.nullary main_call1.cst (constant S_ .f32 0x00000000#32),
    StableHlo.TRef.unary main_call1.cst main_call1.v0 (broadcastInDim S20000x512 ![] bcast_S_S20000x512),
    StableHlo.TRef.binary (TRef.of main_v21 : TRef sig ⟨S20000x512, .f32⟩) main_call1.v0 main_call1.v1 maximumf,
    StableHlo.nullary main_cst_4 (constant S_ .f32 0x00000000#32),
    StableHlo.binary main_v22 main_cst_4 main_v23 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_5 (constant S_ .f32 0x469C4000#32),
    StableHlo.unary main_cst_5 main_v24 (broadcastInDim S512 ![] bcast_S_S512 : (⟨S_, .f32⟩ : BufTy).Contents (Elt F) → (⟨S512, .f32⟩ : BufTy).Contents (Elt F)),
    StableHlo.binary main_v23 main_v24 main_v25 (Host.divf : (⟨S512, .f32⟩ : BufTy).Contents (Elt F) → (⟨S512, .f32⟩ : BufTy).Contents (Elt F) → (⟨S512, .f32⟩ : BufTy).Contents (Elt F)),
    StableHlo.nullary main_c_6 (constantI S_ 32 0#32),
    StableHlo.TRef.nullary main_call2.cst (constant S_ .f32 0x00000000#32),
    StableHlo.TRef.binary (TRef.of main_v22 : TRef sig ⟨S20000x512, .f32⟩) main_call2.cst main_call2.v0 (fun x v => Host.reduceAdd x v reducesTo_S20000x512_S512_d0 h_S_),
    StableHlo.TRef.unary main_call2.v0 main_call2.v1 (broadcastInDim S1x512 ![1] bcast_S512_S1x512_1),
    StableHlo.TRef.nullary main_call2.cst_0 (constant S_ .f32 0x469C4000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S20000x512 ![0, 1] bcast_S1x512_S20000x512_0_1),
    StableHlo.TRef.binary (TRef.of main_v22 : TRef sig ⟨S20000x512, .f32⟩) main_call2.v4 main_call2.v5 subf,
    StableHlo.TRef.binary main_call2.v5 main_call2.v5 main_call2.v6 mulf,
    StableHlo.TRef.unary (TRef.of main_c_6 : TRef sig ⟨S_, .i32⟩) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v25 main_v27 (broadcastInDim S1x512 ![1] bcast_S512_S1x512_1 : (⟨S512, .f32⟩ : BufTy).Contents (Elt F) → (⟨S1x512, .f32⟩ : BufTy).Contents (Elt F)),
    StableHlo.unary main_v27 main_v28 (broadcastInDim S20000x512 ![0, 1] bcast_S1x512_S20000x512_0_1 : (⟨S1x512, .f32⟩ : BufTy).Contents (Elt F) → (⟨S20000x512, .f32⟩ : BufTy).Contents (Elt F)),
    StableHlo.binary main_v22 main_v28 main_v29 (subf : (⟨S20000x512, .f32⟩ : BufTy).Contents (Elt F) → (⟨S20000x512, .f32⟩ : BufTy).Contents (Elt F) → (⟨S20000x512, .f32⟩ : BufTy).Contents (Elt F)),
    StableHlo.nullary main_cst_7 (constant S_ .f32 0x3727C5AC#32),
    StableHlo.unary main_cst_7 main_v30 (broadcastInDim S512 ![] bcast_S_S512 : (⟨S_, .f32⟩ : BufTy).Contents (Elt F) → (⟨S512, .f32⟩ : BufTy).Contents (Elt F)),
    StableHlo.binary main_v26 main_v30 main_v31 (addf : (⟨S512, .f32⟩ : BufTy).Contents (Elt F) → (⟨S512, .f32⟩ : BufTy).Contents (Elt F) → (⟨S512, .f32⟩ : BufTy).Contents (Elt F)),
    StableHlo.unary main_v31 main_v32 (Host.rsqrt : (⟨S512, .f32⟩ : BufTy).Contents (Elt F) → (⟨S512, .f32⟩ : BufTy).Contents (Elt F)),
    StableHlo.unary main_v32 main_v33 (broadcastInDim S1x512 ![1] bcast_S512_S1x512_1 : (⟨S512, .f32⟩ : BufTy).Contents (Elt F) → (⟨S1x512, .f32⟩ : BufTy).Contents (Elt F)),
    StableHlo.unary main_v33 main_v34 (broadcastInDim S20000x512 ![0, 1] bcast_S1x512_S20000x512_0_1 : (⟨S1x512, .f32⟩ : BufTy).Contents (Elt F) → (⟨S20000x512, .f32⟩ : BufTy).Contents (Elt F)),
    StableHlo.binary main_v29 main_v34 main_v35 (mulf : (⟨S20000x512, .f32⟩ : BufTy).Contents (Elt F) → (⟨S20000x512, .f32⟩ : BufTy).Contents (Elt F) → (⟨S20000x512, .f32⟩ : BufTy).Contents (Elt F)),
    StableHlo.unary main_arg5 main_v36 (broadcastInDim S1x512 ![1] bcast_S512_S1x512_1 : (⟨S512, .f32⟩ : BufTy).Contents (Elt F) → (⟨S1x512, .f32⟩ : BufTy).Contents (Elt F)),
    StableHlo.unary main_v36 main_v37 (broadcastInDim S20000x512 ![0, 1] bcast_S1x512_S20000x512_0_1 : (⟨S1x512, .f32⟩ : BufTy).Contents (Elt F) → (⟨S20000x512, .f32⟩ : BufTy).Contents (Elt F)),
    StableHlo.binary main_v35 main_v37 main_v38 (mulf : (⟨S20000x512, .f32⟩ : BufTy).Contents (Elt F) → (⟨S20000x512, .f32⟩ : BufTy).Contents (Elt F) → (⟨S20000x512, .f32⟩ : BufTy).Contents (Elt F)),
    StableHlo.unary main_arg6 main_v39 (broadcastInDim S1x512 ![1] bcast_S512_S1x512_1 : (⟨S512, .f32⟩ : BufTy).Contents (Elt F) → (⟨S1x512, .f32⟩ : BufTy).Contents (Elt F)),
    StableHlo.unary main_v39 main_v40 (broadcastInDim S20000x512 ![0, 1] bcast_S1x512_S20000x512_0_1 : (⟨S1x512, .f32⟩ : BufTy).Contents (Elt F) → (⟨S20000x512, .f32⟩ : BufTy).Contents (Elt F)),
    StableHlo.binary main_v38 main_v40 main_v41 (addf : (⟨S20000x512, .f32⟩ : BufTy).Contents (Elt F) → (⟨S20000x512, .f32⟩ : BufTy).Contents (Elt F) → (⟨S20000x512, .f32⟩ : BufTy).Contents (Elt F)) ]

/-- @main is that straight line: with the functions' definitions unfolded at their calls and sequencing reassociated,
    both sides are the same chain of steps, by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., unary_bufs_sub ..,
    ternary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

/-! ## What the buffers hold after the line -/

/-- The result buffer holds the composed term of the argument arrays. -/
theorem out_eq (V : Valuation τ sig (Elt F)) :
    after ops V (main_v41 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp

/-- On every device, for any float values, from any memory with zero counters: every weakly fair execution of @main
    terminates with the result buffer at `result` of the argument arrays, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v41) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v41).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.Frames.lean ====
/-
  The three frame conjuncts and the idealization conjunct of the claim, each in the claim's own spelling.

  A frame conjunct says: from any memory satisfying the precondition, every weakly fair execution of the
  program terminates without a fault and each of the seven argument arrays ends holding what it held at
  launch. For the two kernel programs this is read off the run over the two kernel regions, whose final
  memory is a named valuation that agrees with the launch memory at every argument (no host operation and
  no region writes an argument); the precondition is not used. For the reference, a host program, it is
  its run with the result dropped. The kernel's idealization rewrote no operation, so that conjunct is
  the trivial proposition.
-/
import proofs.«130999_j29059748725632_1_alg».proof.Defs
import proofs.«130999_j29059748725632_1_alg».proof.Proof.Gen.Kernel
import proofs.«130999_j29059748725632_1_alg».proof.Proof.Gen.KernelIdeal
import proofs.«130999_j29059748725632_1_alg».proof.Proof.Gen.ReferenceIdeal
import proofs.«130999_j29059748725632_1_alg».proof.Proof.Gen.Pre_finite_inputs
import proofs.«130999_j29059748725632_1_alg».proof.Proof.KFrame
import proofs.«130999_j29059748725632_1_alg».proof.Proof.BKFrame
import proofs.«130999_j29059748725632_1_alg».proof.Proof.RefRun

noncomputable section

namespace Cert.Proof.Frames

open Idealize.ShloMosaic Idealize.SL.Sem

/-- The word-level kernel program runs and leaves its seven arguments as launched. -/
theorem frame_k : Cert.frame_Kernel := fun m ρ _ =>
  (θ_run (Cert.Kernel.defs (F := Bits)) _ _).mono (fun r h c =>
    ⟨(h c _ (Cert.Kernel.KF.mem_uc Cert.Kernel.main_arg0 (by decide))).trans (Cert.Kernel.KF.W6_main_arg0 m ρ c),
      (h c _ (Cert.Kernel.KF.mem_uc Cert.Kernel.main_arg1 (by decide))).trans (Cert.Kernel.KF.W6_main_arg1 m ρ c),
      (h c _ (Cert.Kernel.KF.mem_uc Cert.Kernel.main_arg2 (by decide))).trans (Cert.Kernel.KF.W6_main_arg2 m ρ c),
      (h c _ (Cert.Kernel.KF.mem_uc Cert.Kernel.main_arg3 (by decide))).trans (Cert.Kernel.KF.W6_main_arg3 m ρ c),
      (h c _ (Cert.Kernel.KF.mem_uc Cert.Kernel.main_arg4 (by decide))).trans (Cert.Kernel.KF.W6_main_arg4 m ρ c),
      (h c _ (Cert.Kernel.KF.mem_uc Cert.Kernel.main_arg5 (by decide))).trans (Cert.Kernel.KF.W6_main_arg5 m ρ c),
      (h c _ (Cert.Kernel.KF.mem_uc Cert.Kernel.main_arg6 (by decide))).trans (Cert.Kernel.KF.W6_main_arg6 m ρ c)⟩)
    (Cert.Kernel.KF.run_full (F := Bits) m ρ)

/-- The idealized kernel program runs and leaves its seven arguments as launched. -/
theorem frame_ki : Cert.frame_KernelIdeal := fun m ρ _ =>
  (θ_run (Cert.KernelIdeal.defs (F := Ideal)) _ _).mono (fun r h c =>
    ⟨(h c _ (Cert.KernelIdeal.KF.mem_uc Cert.KernelIdeal.main_arg0 (by decide))).trans (Cert.KernelIdeal.KF.W6_main_arg0 m ρ c),
      (h c _ (Cert.KernelIdeal.KF.mem_uc Cert.KernelIdeal.main_arg1 (by decide))).trans (Cert.KernelIdeal.KF.W6_main_arg1 m ρ c),
      (h c _ (Cert.KernelIdeal.KF.mem_uc Cert.KernelIdeal.main_arg2 (by decide))).trans (Cert.KernelIdeal.KF.W6_main_arg2 m ρ c),
      (h c _ (Cert.KernelIdeal.KF.mem_uc Cert.KernelIdeal.main_arg3 (by decide))).trans (Cert.KernelIdeal.KF.W6_main_arg3 m ρ c),
      (h c _ (Cert.KernelIdeal.KF.mem_uc Cert.KernelIdeal.main_arg4 (by decide))).trans (Cert.KernelIdeal.KF.W6_main_arg4 m ρ c),
      (h c _ (Cert.KernelIdeal.KF.mem_uc Cert.KernelIdeal.main_arg5 (by decide))).trans (Cert.KernelIdeal.KF.W6_main_arg5 m ρ c),
      (h c _ (Cert.KernelIdeal.KF.mem_uc Cert.KernelIdeal.main_arg6 (by decide))).trans (Cert.KernelIdeal.KF.W6_main_arg6 m ρ c)⟩)
    (Cert.KernelIdeal.KF.run_full (F := Ideal) m ρ)

/-- The idealized reference runs and leaves its seven arguments as launched: its run, the result dropped. -/
theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The idealization rewrote no operation of the kernel: nothing to preserve. -/
theorem preserves : Cert.preserves_Kernel_KernelIdeal := trivial

end Cert.Proof.Frames

end
-- ==== Proof.KBlocks.lean ====
/-
  The first kernel region's input blocks read at an index: block t of the aggregated features is rows 1000·t … 1000·t + 999
  of the array; the weights' and the bias's windows are the whole arrays at every point.
-/
import proofs.«130999_j29059748725632_1_alg».proof.Proof.R0Frame
import Idealize.ShloMosaic.Lib.ValueIdx
import Idealize.ShloMosaic.Lib.Pipeline.Value

set_option maxRecDepth 16384

noncomputable section

namespace Cert.KernelIdeal.KB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The index maps of the first region's windows, decided once over the grid: the row-blocked windows move with the
    point, the others stay at the origin. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = t.val ∧ win0_3.index t 1 = 0 :=
  (by decide +kernel : ∀ t : Fin grid0.N, win0_3.index t 0 = t.val ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)

/-- Block `t` of the aggregated features, at row `p` and column `k`, is the array at row 1000·t + p. -/
theorem iblk0_0_apply (c : Dev nD) (t : Fin cfg0.N) (x : S1000x512.Idx) (j : S20000x512.Idx)
    (h0 : (j 0).val = 1000 * t.val + (x 0).val) (h1 : (j 1).val = (x 1).val) :
    (R0.iblk0 V c 0 t : Vec F S1000x512 .f32) x = (V c main_v17 : S20000x512.Idx → Elt F .f32) j := by
  have hi := idx0_0 t
  unfold R0.iblk0
  rw [View.read_apply]
  show (V c main_v17 : S20000x512.Idx → Elt F .f32) _ = (V c main_v17 : S20000x512.Idx → Elt F .f32) j
  refine congrArg (V c main_v17 : S20000x512.Idx → Elt F .f32) (funext fun a => Fin.ext ?_)
  match a with
  | ⟨0, _⟩ => show win0_0.index t 0 * 1000 + 1 * (x 0).val = (j 0).val; rw [hi.1, h0]; omega
  | ⟨1, _⟩ => show win0_0.index t 1 * 512 + 1 * (x 1).val = (j 1).val; rw [hi.2, h1]; omega

/-- The weights' window is the whole array at every point. -/
theorem iblk0_1_apply (c : Dev nD) (t : Fin cfg0.N) (x : S512x512.Idx) :
    (R0.iblk0 V c 1 t : Vec F S512x512 .bf16) x = (V c main_v19 : S512x512.Idx → Elt F .bf16) x := by
  have hi := idx0_1 t
  unfold R0.iblk0
  rw [View.read_apply]
  show (V c main_v19 : S512x512.Idx → Elt F .bf16) _ = (V c main_v19 : S512x512.Idx → Elt F .bf16) x
  refine congrArg (V c main_v19 : S512x512.Idx → Elt F .bf16) (funext fun a => Fin.ext ?_)
  match a with
  | ⟨0, _⟩ => show win0_1.index t 0 * 512 + 1 * (x 0).val = (x 0).val; rw [hi.1]; omega
  | ⟨1, _⟩ => show win0_1.index t 1 * 512 + 1 * (x 1).val = (x 1).val; rw [hi.2]; omega

/-- The bias row's window is the whole array at every point. -/
theorem iblk0_2_apply (c : Dev nD) (t : Fin cfg0.N) (x : S1x512.Idx) :
    (R0.iblk0 V c 2 t : Vec F S1x512 .f32) x = (V c main_v20 : S1x512.Idx → Elt F .f32) x := by
  have hi := idx0_2 t
  unfold R0.iblk0
  rw [View.read_apply]
  show (V c main_v20 : S1x512.Idx → Elt F .f32) _ = (V c main_v20 : S1x512.Idx → Elt F .f32) x
  refine congrArg (V c main_v20 : S1x512.Idx → Elt F .f32) (funext fun a => Fin.ext ?_)
  match a with
  | ⟨0, _⟩ => show win0_2.index t 0 * 1 + 1 * (x 0).val = (x 0).val; rw [hi.1]; omega
  | ⟨1, _⟩ => show win0_2.index t 1 * 512 + 1 * (x 1).val = (x 1).val; rw [hi.2]; omega

end Cert.KernelIdeal.KB

end
-- ==== Proof.KArr0.lean ====
/-
  The first kernel region's three result arrays after its last point. The activation array is written back block by
  block, one block of 1000 rows per point, and the blocks tile it; each statistics row is one block, written back once,
  after the last point, so it ends holding what the last point left in its staging buffer.
-/
import proofs.«130999_j29059748725632_1_alg».proof.Proof.KBlocks

set_option maxRecDepth 16384

noncomputable section

namespace Cert.KernelIdeal.KA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The last grid point. -/
def tLast : Fin cfg0.N := ⟨19, by have : cfg0.N = 20 := N_0; omega⟩

/-! ## The activation array (window 3) -/

/-- An index of the array is in point `t`'s block iff each coordinate is in the block's range on its axis. -/
theorem mem_blk0_3 (t : Fin cfg0.N) (i : S20000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v21_0).slice (win0_3.rect t)).set ↔ _
  rw [View.set_slice_whole, Rect.mem_set_unit]
  exact Iff.rfl

/-- Row r of the array is in the block of point r / 1000, which is written back. -/
theorem cover0_3 (i : S20000x512.Idx) : ∃ t : Fin cfg0.N, (cfg0.win 3).flush t = true ∧ i ∈ ((cfg0.win 3).blk t).view.set := by
  have hi0 : (i 0).val < 20000 := (i 0).isLt
  have hi1 : (i 1).val < 512 := (i 1).isLt
  have hN : cfg0.N = 20 := N_0
  refine ⟨⟨(i 0).val / 1000, by omega⟩, flush0_3 _, ?_⟩
  rw [mem_blk0_3]
  obtain ⟨e0, e1⟩ := KB.idx0_3 ⟨(i 0).val / 1000, by omega⟩
  intro a
  match a with
  | ⟨0, _⟩ =>
    show win0_3.index ⟨(i 0).val / 1000, _⟩ (0 : Fin 2) * 1000 ≤ (i 0).val ∧ (i 0).val < win0_3.index ⟨(i 0).val / 1000, _⟩ (0 : Fin 2) * 1000 + 1000
    rw [e0]; show (i 0).val / 1000 * 1000 ≤ (i 0).val ∧ (i 0).val < (i 0).val / 1000 * 1000 + 1000; omega
  | ⟨1, _⟩ =>
    show win0_3.index ⟨(i 0).val / 1000, _⟩ (1 : Fin 2) * 512 ≤ (i 1).val ∧ (i 1).val < win0_3.index ⟨(i 0).val / 1000, _⟩ (1 : Fin 2) * 512 + 512
    rw [e1]; omega

/-- If what each point leaves in the activation block's buffer is rows 1000·t … of one whole-array function `G`,
    then what the point writes back is block `t` of `G`. -/
theorem flushed0_3_eq (c : Dev nD) (G : S20000x512.Idx → Elt F .f32)
    (hG : ∀ (t : Fin cfg0.N) (x : S1000x512.Idx) (j : S20000x512.Idx), (j 0).val = 1000 * t.val + (x 0).val → (j 1).val = (x 1).val →
      ((R0.outsAt0 V c t.val t.isLt).1 : Vec F S1000x512 .f32) x = G j) (t : Fin cfg0.N) :
    (R0.dat0 V c).flushed 3 t = ((cfg0.win 3).blk t).view.read (Elt F) G := by
  show (cfg0.win 3).cut (grid0.coords t) ((R0.dat0 V c).after 3 t) = _
  rw [R0.after0_3]
  obtain ⟨e0, e1⟩ := KB.idx0_3 t
  funext x
  rw [View.read_apply]
  show ((R0.outsAt0 V c t.val t.isLt).1 : Vec F S1000x512 .f32) x = G (((cfg0.win 3).blk t).view.emb x)
  refine hG t x _ ?_ ?_
  · show win0_3.index t (0 : Fin 2) * 1000 + 1 * (x 0).val = 1000 * t.val + (x 0).val; rw [e0]; omega
  · show win0_3.index t (1 : Fin 2) * 512 + 1 * (x 1).val = (x 1).val; rw [e1]; omega

/-- So the activation array ends holding `G`. -/
theorem arr0_3 (c : Dev nD) (G : S20000x512.Idx → Elt F .f32)
    (hG : ∀ (t : Fin cfg0.N) (x : S1000x512.Idx) (j : S20000x512.Idx), (j 0).val = 1000 * t.val + (x 0).val → (j 1).val = (x 1).val →
      ((R0.outsAt0 V c t.val t.isLt).1 : Vec F S1000x512 .f32) x = G j) :
    (R0.dat0 V c).arrAt 3 cfg0.N = G :=
  (R0.dat0 V c).arrAt_eq_of_cover 3 G (fun t _ => flushed0_3_eq V c G hG t) cover0_3

/-! ## The two statistics rows (windows 4 and 5) -/

theorem mem_blk0_4 (t : Fin cfg0.N) (i : S1x512.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v21_1).slice (win0_4.rect t)).set ↔ _
  rw [View.set_slice_whole, Rect.mem_set_unit]
  exact Iff.rfl

theorem mem_blk0_5 (t : Fin cfg0.N) (i : S1x512.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v21_2).slice (win0_5.rect t)).set ↔ _
  rw [View.set_slice_whole, Rect.mem_set_unit]
  exact Iff.rfl

/-- The one write-back of the column-sum row, after the last point, writes what that point left. -/
theorem flushed0_4_eq (c : Dev nD) (t : Fin cfg0.N) (hf : (cfg0.win 4).flush t = true) :
    (R0.dat0 V c).flushed 4 t = ((cfg0.win 4).blk t).view.read (Elt F) ((R0.outsAt0 V c tLast.val tLast.isLt).2.1) := by
  have hN : cfg0.N = 20 := N_0
  have h1 : t.val = 19 := by have := (flush0_4 t).mp hf; have := t.isLt; omega
  obtain rfl : t = tLast := Fin.ext h1
  show (cfg0.win 4).cut (grid0.coords tLast) ((R0.dat0 V c).after 4 tLast) = _
  rw [R0.after0_4]
  obtain ⟨e0, e1⟩ := KB.idx0_4 tLast
  funext x
  rw [View.read_apply]
  show ((R0.outsAt0 V c tLast.val tLast.isLt).2.1 : Vec F S1x512 .f32) x = ((R0.outsAt0 V c tLast.val tLast.isLt).2.1 : Vec F S1x512 .f32) (((cfg0.win 4).blk tLast).view.emb x)
  refine congrArg ((R0.outsAt0 V c tLast.val tLast.isLt).2.1 : S1x512.Idx → Elt F .f32) (funext fun a => Fin.ext ?_)
  match a with
  | ⟨0, _⟩ => show (x 0).val = win0_4.index tLast (0 : Fin 2) * 1 + 1 * (x 0).val; rw [e0]; omega
  | ⟨1, _⟩ => show (x 1).val = win0_4.index tLast (1 : Fin 2) * 512 + 1 * (x 1).val; rw [e1]; omega

theorem flushed0_5_eq (c : Dev nD) (t : Fin cfg0.N) (hf : (cfg0.win 5).flush t = true) :
    (R0.dat0 V c).flushed 5 t = ((cfg0.win 5).blk t).view.read (Elt F) ((R0.outsAt0 V c tLast.val tLast.isLt).2.2.1) := by
  have hN : cfg0.N = 20 := N_0
  have h1 : t.val = 19 := by have := (flush0_5 t).mp hf; have := t.isLt; omega
  obtain rfl : t = tLast := Fin.ext h1
  show (cfg0.win 5).cut (grid0.coords tLast) ((R0.dat0 V c).after 5 tLast) = _
  rw [R0.after0_5]
  obtain ⟨e0, e1⟩ := KB.idx0_5 tLast
  funext x
  rw [View.read_apply]
  show ((R0.outsAt0 V c tLast.val tLast.isLt).2.2.1 : Vec F S1x512 .f32) x = ((R0.outsAt0 V c tLast.val tLast.isLt).2.2.1 : Vec F S1x512 .f32) (((cfg0.win 5).blk tLast).view.emb x)
  refine congrArg ((R0.outsAt0 V c tLast.val tLast.isLt).2.2.1 : S1x512.Idx → Elt F .f32) (funext fun a => Fin.ext ?_)
  match a with
  | ⟨0, _⟩ => show (x 0).val = win0_5.index tLast (0 : Fin 2) * 1 + 1 * (x 0).val; rw [e0]; omega
  | ⟨1, _⟩ => show (x 1).val = win0_5.index tLast (1 : Fin 2) * 512 + 1 * (x 1).val; rw [e1]; omega

/-- The last point's block is the whole row. -/
theorem cover0_4 (i : S1x512.Idx) : ∃ t : Fin cfg0.N, (cfg0.win 4).flush t = true ∧ i ∈ ((cfg0.win 4).blk t).view.set := by
  have hi0 : (i 0).val < 1 := (i 0).isLt
  have hi1 : (i 1).val < 512 := (i 1).isLt
  refine ⟨tLast, (flush0_4 tLast).mpr rfl, ?_⟩
  rw [mem_blk0_4]
  obtain ⟨e0, e1⟩ := KB.idx0_4 tLast
  intro a
  match a with
  | ⟨0, _⟩ => show win0_4.index tLast (0 : Fin 2) * 1 ≤ (i 0).val ∧ (i 0).val < win0_4.index tLast (0 : Fin 2) * 1 + 1; rw [e0]; omega
  | ⟨1, _⟩ => show win0_4.index tLast (1 : Fin 2) * 512 ≤ (i 1).val ∧ (i 1).val < win0_4.index tLast (1 : Fin 2) * 512 + 512; rw [e1]; omega

theorem cover0_5 (i : S1x512.Idx) : ∃ t : Fin cfg0.N, (cfg0.win 5).flush t = true ∧ i ∈ ((cfg0.win 5).blk t).view.set := by
  have hi0 : (i 0).val < 1 := (i 0).isLt
  have hi1 : (i 1).val < 512 := (i 1).isLt
  refine ⟨tLast, (flush0_5 tLast).mpr rfl, ?_⟩
  rw [mem_blk0_5]
  obtain ⟨e0, e1⟩ := KB.idx0_5 tLast
  intro a
  match a with
  | ⟨0, _⟩ => show win0_5.index tLast (0 : Fin 2) * 1 ≤ (i 0).val ∧ (i 0).val < win0_5.index tLast (0 : Fin 2) * 1 + 1; rw [e0]; omega
  | ⟨1, _⟩ => show win0_5.index tLast (1 : Fin 2) * 512 ≤ (i 1).val ∧ (i 1).val < win0_5.index tLast (1 : Fin 2) * 512 + 512; rw [e1]; omega

/-- The column-sum row ends holding what the last point left in its staging buffer, -/
theorem arr0_4 (c : Dev nD) : (R0.dat0 V c).arrAt 4 cfg0.N = (R0.outsAt0 V c tLast.val tLast.isLt).2.1 :=
  (R0.dat0 V c).arrAt_eq_of_cover 4 _ (flushed0_4_eq V c) cover0_4
/-- and the sum-of-squares row likewise. -/
theorem arr0_5 (c : Dev nD) : (R0.dat0 V c).arrAt 5 cfg0.N = (R0.outsAt0 V c tLast.val tLast.isLt).2.2.1 :=
  (R0.dat0 V c).arrAt_eq_of_cover 5 _ (flushed0_5_eq V c) cover0_5

end Cert.KernelIdeal.KA

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KPayload.lean ====
/-
  The two kernels' stored values, read entry by entry over the extended reals.

  First kernel, one tile of 1000 rows (x : [1000, 512] the tile of aggregated features, w : [512, 512] the
  weights already transposed, b : [1, 512] the bias, s and s2 : [1, 512] the running column sums):
    h[p, q]   = max (Σ_k x[p, k] · w[k, q] + b[0, q]) 0        the linear layer followed by relu
    s'[0, q]  = s[0, q]  + Σ_p h[p, q]                          the column sums, accumulated tile by tile
    s2'[0, q] = s2[0, q] + Σ_p h[p, q] · h[p, q]                the column sums of squares
  and on the first tile both running sums start from 0.
  Second kernel, one tile (v, m, g, bt : [1, 512] the variance, mean, scale and shift; h : [1000, 512]):
    y[p, q] = (h[p, q] − m[0, q]) · rsqrt (v[0, q] + ε) · g[0, q] + bt[0, q].
  A change of float format is the identity on extended reals, so the bf16 operands of the product are the
  f32 values themselves.
-/
import proofs.«130999_j29059748725632_1_alg».proof.Proof.Gen.KernelIdeal.Skeleton
import proofs.«130999_j29059748725632_1_alg».proof.Proof.LibSplitContraction
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx Cert.KernelIdeal

/-! ## The running sums' initial value -/

/-- On the first tile the running column sum is set to zero everywhere. -/
theorem pay1_apply (j : S1x512.Idx) : Gen.k0_pay1 (F := Ideal) j = 0 := by
  unfold Gen.k0_pay1
  refine (congrFun (shapeCast_self _ _) j).trans ?_
  exact Ideal.ofBits_zero_f32

/-- On the first tile the running column sum of squares is set to zero everywhere. -/
theorem pay2_apply (j : S1x512.Idx) : Gen.k0_pay2 (F := Ideal) j = 0 := by
  unfold Gen.k0_pay2
  refine (congrFun (shapeCast_self _ _) j).trans ?_
  exact Ideal.ofBits_zero_f32

/-! ## The linear layer followed by relu -/

/-- The contraction of the first kernel's product: row `p` of the tile against column `q` of the weights. -/
theorem matmul_apply (x : FVec Ideal S1000x512 .bf16) (w : FVec Ideal S512x512 .bf16) (p : Fin 1000) (q : Fin 512) :
    matmul dot_S1000x512_S512x512_S1000x512_1_0_0_1_n_n none x w (constant (F := Ideal) S1000x512 .f32 0x00000000#32) (ix2 p q)
      = ∑ k : Fin 512, x (ix2 p k) * w (ix2 k q) :=
  Cert.Lib.SplitContraction.matmul_zero_at dot_S1000x512_S512x512_S1000x512_1_0_0_1_n_n rfl rfl
    (fun _ _ => rfl)
    (fun j c => dot_S1000x512_S512x512_S1000x512_1_0_0_1_n_n.lhsIdx_val_of_single (cl := 1) rfl j c)
    (fun j c => dot_S1000x512_S512x512_S1000x512_1_0_0_1_n_n.rhsIdx_val_of_single (cr := 0) rfl j c)
    (fun _ _ => rfl) none x w p q

/-- The first kernel's activation at row `p`, column `q` of the tile. -/
theorem pay3_apply (v3 : Vec Ideal S1000x512 .f32) (v6 : Vec Ideal S512x512 .bf16) (v9 : Vec Ideal S1x512 .f32)
    (p : Fin 1000) (q : Fin 512) :
    Gen.k0_pay3 (F := Ideal) v3 v6 v9 (ix2 p q)
      = max ((∑ k : Fin 512, v3 (ix2 p k) * v6 (ix2 k q)) + v9 (ix2 0 q)) 0 := by
  unfold Gen.k0_pay3
  refine congrArg₂ max (congrArg₂ (· + ·) ?_ ?_) Ideal.ofBits_zero_f32
  · refine (matmul_apply _ _ p q).trans ?_
    refine Finset.sum_congr rfl fun k _ => ?_
    rw [shapeCast_self, shapeCast_self]
    rfl
  · refine (broadcastTo_1b_ab_apply _ _ p q).trans ?_
    rw [shapeCast_self]

/-! ## The column sums over a tile -/

/-- A sum over the rows of a tile, read at column `q`: the `Fin 1000`-indexed sum of that column's entries. -/
theorem colsum_apply (src : FVec Ideal S1000x512 .f32) (q : Fin 512) :
    multiReduction (F := Ideal) .add [0] S512 src 0x00000000#32 Gen.reduces_S1000x512_S512 (.inl rfl) rfl (ix1 q)
      = ∑ p : Fin 1000, src (ix2 p q) := by
  refine (Ideal.multiReduction_add_single src 0x00000000#32 Gen.reduces_S1000x512_S512 (.inl rfl) rfl (ix1 q)).trans ?_
  show ∑ p : Fin 1000, src (Gen.reduces_S1000x512_S512.lift (ix1 q) p) = _
  refine Finset.sum_congr rfl fun p _ => congrArg src ?_
  funext a
  match a with
  | ⟨0, _⟩ => rfl
  | ⟨1, _⟩ => rfl

/-- The running column sum after a tile: what it was plus the tile's column sum of activations. -/
theorem pay4_apply (v3 : Vec Ideal S1000x512 .f32) (v6 : Vec Ideal S512x512 .bf16) (v9 : Vec Ideal S1x512 .f32)
    (v16 : Vec Ideal S1x512 .f32) (q : Fin 512) :
    Gen.k0_pay4 (F := Ideal) v3 v6 v9 v16 (ix2 0 q)
      = v16 (ix2 0 q) + ∑ p : Fin 1000, Gen.k0_pay3 (F := Ideal) v3 v6 v9 (ix2 p q) := by
  unfold Gen.k0_pay4
  refine (congrFun (shapeCast_self _ _) _).trans ?_
  refine congrArg (v16 (ix2 0 q) + ·) ?_
  refine (shapeCast_a_1a_apply _ _ 0 q).trans ?_
  exact colsum_apply _ q

/-- The running column sum of squares after a tile: what it was plus the tile's column sum of squared activations. -/
theorem pay5_apply (v3 : Vec Ideal S1000x512 .f32) (v6 : Vec Ideal S512x512 .bf16) (v9 : Vec Ideal S1x512 .f32)
    (v23 : Vec Ideal S1x512 .f32) (q : Fin 512) :
    Gen.k0_pay5 (F := Ideal) v3 v6 v9 v23 (ix2 0 q)
      = v23 (ix2 0 q) + ∑ p : Fin 1000, Gen.k0_pay3 (F := Ideal) v3 v6 v9 (ix2 p q) * Gen.k0_pay3 (F := Ideal) v3 v6 v9 (ix2 p q) := by
  unfold Gen.k0_pay5
  refine (congrFun (shapeCast_self _ _) _).trans ?_
  refine congrArg (v23 (ix2 0 q) + ·) ?_
  refine (shapeCast_a_1a_apply _ _ 0 q).trans ?_
  exact colsum_apply _ q

/-! ## The normalization and the affine map -/

/-- The second kernel's result at row `p`, column `q` of the tile: the activation less the mean, times the
    inverse square root of the stabilized variance, times the scale, plus the shift. -/
theorem k1_pay1_apply (v0 : Vec Ideal S1x512 .f32) (v5 : Vec Ideal S1000x512 .f32) (v7 v13 v17 : Vec Ideal S1x512 .f32)
    (p : Fin 1000) (q : Fin 512) :
    Gen.k1_pay1 (F := Ideal) v0 v5 v7 v13 v17 (ix2 p q)
      = (v5 (ix2 p q) - v7 (ix2 0 q)) * Ideal.rsqrt (v0 (ix2 0 q) + Ideal.ofBits .f32 0x3727C5AC#32) * v13 (ix2 0 q)
        + v17 (ix2 0 q) := by
  unfold Gen.k1_pay1
  refine congrArg₂ (· + ·) (congrArg₂ (· * ·) (congrArg₂ (· * ·) (congrArg₂ (· - ·) ?_ ?_) ?_) ?_) ?_
  · exact congrFun (shapeCast_self _ _) _
  · exact (broadcastTo_1b_ab_apply _ _ p q).trans (congrFun (shapeCast_self _ _) _)
  · refine (broadcastTo_1b_ab_apply _ _ p q).trans ?_
    exact congrArg Ideal.rsqrt (congrArg (· + Ideal.ofBits .f32 0x3727C5AC#32) (congrFun (shapeCast_self _ _) _))
  · exact (broadcastTo_1b_ab_apply _ _ p q).trans (congrFun (shapeCast_self _ _) _)
  · exact (broadcastTo_1b_ab_apply _ _ p q).trans (congrFun (shapeCast_self _ _) _)

end Cert.KernelIdeal.KPay

end
-- ==== Proof.KArr1.lean ====
/-
  The second kernel region's result array after its last point.

  Its grid has 20 points. The activation matrix (window 0) and the result matrix (window 5) are cut into blocks of 1000
  rows, block t being rows 1000·t … 1000·t + 999; the mean, variance, scale and shift rows (windows 1 to 4) are single
  blocks, the whole row at every point. At a point the body overwrites the result tile with
      (h − mean) · rsqrt (var + ε) · scale + shift,
  each row broadcast down the tile. Every point's tile is written back and the tiles cover the matrix, so the result
  array ends holding that expression of the five arrays as the region found them, entry by entry.
-/
import proofs.«130999_j29059748725632_1_alg».proof.Proof.Region1
import proofs.«130999_j29059748725632_1_alg».proof.Proof.KPayload
import Idealize.ShloMosaic.Lib.ValueIdx
import Idealize.ShloMosaic.Lib.Pipeline.Value

set_option maxRecDepth 16384

noncomputable section

namespace Cert.KernelIdeal.KA1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The index maps, and the input blocks read at an index (any float instance) -/

section Blocks

variable {F : FTy → Type} [FloatOps F]

variable (V : (c : Dev nD) → (b : Ref sig .tc) → Buf (Elt F) ((c : Thread nD τ).loc b))

/-- The index maps of the region's windows, decided once over the grid: the two row-blocked windows move with the
    point, the four rows stay at the origin. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = t.val ∧ win1_5.index t 1 = 0 :=
  (by decide +kernel : ∀ t : Fin grid1.N, win1_5.index t 0 = t.val ∧ win1_5.index t 1 = 0)

/-- Block `t` of the activation matrix, at row `p` and column `q`, is the matrix at row 1000·t + p. -/
theorem iblk1_0_apply (c : Dev nD) (t : Fin cfg1.N) (x : S1000x512.Idx) (j : S20000x512.Idx)
    (h0 : (j 0).val = 1000 * t.val + (x 0).val) (h1 : (j 1).val = (x 1).val) :
    (R1.iblk1 V c 0 t : Vec F S1000x512 .f32) x = (V c main_v21_0 : S20000x512.Idx → Elt F .f32) j := by
  have hi := idx1_0 t
  unfold R1.iblk1
  rw [View.read_apply]
  show (V c main_v21_0 : S20000x512.Idx → Elt F .f32) _ = (V c main_v21_0 : S20000x512.Idx → Elt F .f32) j
  refine congrArg (V c main_v21_0 : S20000x512.Idx → Elt F .f32) (funext fun a => Fin.ext ?_)
  match a with
  | ⟨0, _⟩ => show win1_0.index t 0 * 1000 + 1 * (x 0).val = (j 0).val; rw [hi.1, h0]; omega
  | ⟨1, _⟩ => show win1_0.index t 1 * 512 + 1 * (x 1).val = (j 1).val; rw [hi.2, h1]; omega

/-- The mean row's window is the whole row at every point. -/
theorem iblk1_1_apply (c : Dev nD) (t : Fin cfg1.N) (x : S1x512.Idx) :
    (R1.iblk1 V c 1 t : Vec F S1x512 .f32) x = (V c main_v23 : S1x512.Idx → Elt F .f32) x := by
  have hi := idx1_1 t
  unfold R1.iblk1
  rw [View.read_apply]
  show (V c main_v23 : S1x512.Idx → Elt F .f32) _ = (V c main_v23 : S1x512.Idx → Elt F .f32) x
  refine congrArg (V c main_v23 : S1x512.Idx → Elt F .f32) (funext fun a => Fin.ext ?_)
  match a with
  | ⟨0, _⟩ => show win1_1.index t 0 * 1 + 1 * (x 0).val = (x 0).val; rw [hi.1]; omega
  | ⟨1, _⟩ => show win1_1.index t 1 * 512 + 1 * (x 1).val = (x 1).val; rw [hi.2]; omega

/-- The variance row's window is the whole row at every point. -/
theorem iblk1_2_apply (c : Dev nD) (t : Fin cfg1.N) (x : S1x512.Idx) :
    (R1.iblk1 V c 2 t : Vec F S1x512 .f32) x = (V c main_v27 : S1x512.Idx → Elt F .f32) x := by
  have hi := idx1_2 t
  unfold R1.iblk1
  rw [View.read_apply]
  show (V c main_v27 : S1x512.Idx → Elt F .f32) _ = (V c main_v27 : S1x512.Idx → Elt F .f32) x
  refine congrArg (V c main_v27 : S1x512.Idx → Elt F .f32) (funext fun a => Fin.ext ?_)
  match a with
  | ⟨0, _⟩ => show win1_2.index t 0 * 1 + 1 * (x 0).val = (x 0).val; rw [hi.1]; omega
  | ⟨1, _⟩ => show win1_2.index t 1 * 512 + 1 * (x 1).val = (x 1).val; rw [hi.2]; omega

/-- The scale row's window is the whole row at every point. -/
theorem iblk1_3_apply (c : Dev nD) (t : Fin cfg1.N) (x : S1x512.Idx) :
    (R1.iblk1 V c 3 t : Vec F S1x512 .f32) x = (V c main_v28 : S1x512.Idx → Elt F .f32) x := by
  have hi := idx1_3 t
  unfold R1.iblk1
  rw [View.read_apply]
  show (V c main_v28 : S1x512.Idx → Elt F .f32) _ = (V c main_v28 : S1x512.Idx → Elt F .f32) x
  refine congrArg (V c main_v28 : S1x512.Idx → Elt F .f32) (funext fun a => Fin.ext ?_)
  match a with
  | ⟨0, _⟩ => show win1_3.index t 0 * 1 + 1 * (x 0).val = (x 0).val; rw [hi.1]; omega
  | ⟨1, _⟩ => show win1_3.index t 1 * 512 + 1 * (x 1).val = (x 1).val; rw [hi.2]; omega

/-- The shift row's window is the whole row at every point. -/
theorem iblk1_4_apply (c : Dev nD) (t : Fin cfg1.N) (x : S1x512.Idx) :
    (R1.iblk1 V c 4 t : Vec F S1x512 .f32) x = (V c main_v29 : S1x512.Idx → Elt F .f32) x := by
  have hi := idx1_4 t
  unfold R1.iblk1
  rw [View.read_apply]
  show (V c main_v29 : S1x512.Idx → Elt F .f32) _ = (V c main_v29 : S1x512.Idx → Elt F .f32) x
  refine congrArg (V c main_v29 : S1x512.Idx → Elt F .f32) (funext fun a => Fin.ext ?_)
  match a with
  | ⟨0, _⟩ => show win1_4.index t 0 * 1 + 1 * (x 0).val = (x 0).val; rw [hi.1]; omega
  | ⟨1, _⟩ => show win1_4.index t 1 * 512 + 1 * (x 1).val = (x 1).val; rw [hi.2]; omega

/-! ## The result matrix's blocks -/

/-- An index of the result matrix is in point `t`'s block iff each coordinate is in the block's range on its axis. -/
theorem mem_blk1_5 (t : Fin cfg1.N) (i : S20000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v30).slice (win1_5.rect t)).set ↔ _
  rw [View.set_slice_whole, Rect.mem_set_unit]
  exact Iff.rfl

/-- Row r of the result matrix is in the block of point r / 1000, which is written back. -/
theorem cover1_5arr (i : S20000x512.Idx) : ∃ t : Fin cfg1.N, (cfg1.win 5).flush t = true ∧ i ∈ ((cfg1.win 5).blk t).view.set := by
  have hi0 : (i 0).val < 20000 := (i 0).isLt
  have hi1 : (i 1).val < 512 := (i 1).isLt
  have hN : cfg1.N = 20 := N_1
  refine ⟨⟨(i 0).val / 1000, by omega⟩, flush1_5 _, ?_⟩
  rw [mem_blk1_5]
  obtain ⟨e0, e1⟩ := idx1_5 ⟨(i 0).val / 1000, by omega⟩
  intro a
  match a with
  | ⟨0, _⟩ =>
    show win1_5.index ⟨(i 0).val / 1000, _⟩ (0 : Fin 2) * 1000 ≤ (i 0).val ∧ (i 0).val < win1_5.index ⟨(i 0).val / 1000, _⟩ (0 : Fin 2) * 1000 + 1000
    rw [e0]; show (i 0).val / 1000 * 1000 ≤ (i 0).val ∧ (i 0).val < (i 0).val / 1000 * 1000 + 1000; omega
  | ⟨1, _⟩ =>
    show win1_5.index ⟨(i 0).val / 1000, _⟩ (1 : Fin 2) * 512 ≤ (i 1).val ∧ (i 1).val < win1_5.index ⟨(i 0).val / 1000, _⟩ (1 : Fin 2) * 512 + 512
    rw [e1]; omega

end Blocks

/-! ## The result tile at an index, and the result matrix, over the extended reals -/

section AtIdeal

variable (V : (c : Dev nD) → (b : Ref sig .tc) → Buf (Elt Ideal) ((c : Thread nD τ).loc b))

/-- The result tile at row `p`, column `q`: the activation less the mean, times the inverse square root of the
    stabilized variance, times the scale, plus the shift. Each access of the body takes a whole buffer, so the one
    store is the payload itself and each load is the block itself. -/
theorem out1_5_apply (h : Vec Ideal S1000x512 .f32) (mean var scale shift : Vec Ideal S1x512 .f32) (p : Fin 1000) (q : Fin 512) :
    R1.out1_5 h mean var scale shift (ix2 p q)
      = (h (ix2 p q) - mean (ix2 0 q)) * Ideal.rsqrt (var (ix2 0 q) + Ideal.ofBits .f32 0x3727C5AC#32) * scale (ix2 0 q)
        + shift (ix2 0 q) := by
  have hz2 : (![0, 0] : Fin S1000x512.rank → Nat) = fun _ => 0 := funext fun a => by match a with | ⟨0, _⟩ => rfl | ⟨1, _⟩ => rfl
  have hz1 : (![0, 0] : Fin S1x512.rank → Nat) = fun _ => 0 := funext fun a => by match a with | ⟨0, _⟩ => rfl | ⟨1, _⟩ => rfl
  unfold R1.out1_5
  rw [View.canon_unit_zero hz2]
  simp only [View.ld_unit_zero (S := S1000x512) hz2, View.ld_unit_zero (S := S1x512) hz1]
  exact KPay.k1_pay1_apply var h mean scale shift p q

/-- The normalization and the affine map as one function of five arrays: an activation matrix `h` and the mean, variance,
    scale and shift rows. At (r, c): the activation less the column's mean, times the inverse square root of the column's
    stabilized variance, times the column's scale, plus the column's shift. -/
def affine (h : S20000x512.Idx → EReal) (mean var scale shift : S1x512.Idx → EReal) : S20000x512.Idx → EReal := fun i =>
  (h i - mean (ix2 0 (i 1))) * Ideal.rsqrt (var (ix2 0 (i 1)) + Ideal.ofBits .f32 0x3727C5AC#32) * scale (ix2 0 (i 1))
    + shift (ix2 0 (i 1))

/-- That function of the five arrays as the region finds them. -/
def G1 (c : Dev nD) : S20000x512.Idx → EReal :=
  affine (V c main_v21_0) (V c main_v23) (V c main_v27) (V c main_v28) (V c main_v29)

/-- What point `t` leaves in the result block's buffer is rows 1000·t … of that function. -/
theorem tile1_5_eq (c : Dev nD) (t : Fin cfg1.N) (x : S1000x512.Idx) (j : S20000x512.Idx)
    (h0 : (j 0).val = 1000 * t.val + (x 0).val) (h1 : (j 1).val = (x 1).val) :
    (R1.out1_5 (R1.iblk1 V c 0 t) (R1.iblk1 V c 1 t) (R1.iblk1 V c 2 t) (R1.iblk1 V c 3 t) (R1.iblk1 V c 4 t) : Vec Ideal S1000x512 .f32) x
      = G1 V c j := by
  obtain ⟨p, q, rfl⟩ : ∃ (p : Fin 1000) (q : Fin 512), x = ix2 p q := ⟨x 0, x 1, eq_ix2 x⟩
  obtain ⟨r, q', rfl⟩ : ∃ (r : Fin 20000) (q' : Fin 512), j = ix2 r q' := ⟨j 0, j 1, eq_ix2 j⟩
  obtain rfl : q' = q := Fin.ext h1
  refine (out1_5_apply (R1.iblk1 V c 0 t) (R1.iblk1 V c 1 t) (R1.iblk1 V c 2 t) (R1.iblk1 V c 3 t) (R1.iblk1 V c 4 t) p q').trans ?_
  rw [iblk1_0_apply V c t (ix2 p q') (ix2 r q') h0 h1, iblk1_1_apply V c t, iblk1_2_apply V c t, iblk1_3_apply V c t, iblk1_4_apply V c t]
  rfl

/-- So what the point writes back is block `t` of that function. -/
theorem flushed1_5_eq (c : Dev nD) (t : Fin cfg1.N) :
    (R1.dat1 V c).flushed 5 t = ((cfg1.win 5).blk t).view.read (Elt Ideal) (G1 V c) := by
  show (cfg1.win 5).cut (grid1.coords t) ((R1.dat1 V c).after 5 t) = _
  rw [R1.after1_5]
  obtain ⟨e0, e1⟩ := idx1_5 t
  funext x
  rw [View.read_apply]
  show (R1.out1_5 (R1.iblk1 V c 0 t) (R1.iblk1 V c 1 t) (R1.iblk1 V c 2 t) (R1.iblk1 V c 3 t) (R1.iblk1 V c 4 t) : Vec Ideal S1000x512 .f32) x
    = G1 V c (((cfg1.win 5).blk t).view.emb x)
  refine tile1_5_eq V c t x _ ?_ ?_
  · show win1_5.index t (0 : Fin 2) * 1000 + 1 * (x 0).val = 1000 * t.val + (x 0).val; rw [e0]; omega
  · show win1_5.index t (1 : Fin 2) * 512 + 1 * (x 1).val = (x 1).val; rw [e1]; omega

/-- The result matrix after the region: the normalization and the affine map of the five arrays the region found. -/
theorem arr1_5 (c : Dev nD) :
    (R1.dat1 V c).arrAt 5 cfg1.N = affine (V c main_v21_0) (V c main_v23) (V c main_v27) (V c main_v28) (V c main_v29) :=
  (R1.dat1 V c).arrAt_eq_of_cover 5 (G1 V c) (fun t _ => flushed1_5_eq V c t) cover1_5arr

end AtIdeal

end Cert.KernelIdeal.KA1

end
-- ==== Proof.R0Value.lean ====
/-
  The first kernel region: what the body's stores leave at one grid point, as the kernel's stored values.

  At the first point the two accumulators are cleared and then added to; at a later point they are added to over what
  the point before left. In both cases the activated block's buffer holds the activation of the point's blocks, each
  accumulator holds its previous contents (zero at the first point) plus the block's column sums of the activations,
  or of their squares, and each statistics output's buffer holds a copy of its accumulator. Each buffer is written
  through its whole rectangle, so the last store into it decides its contents, and a load after a store reads what
  was stored.
-/
import proofs.«130999_j29059748725632_1_alg».proof.Proof.R0Frame
import Idealize.ShloMosaic.Lib.Pipeline.Value

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One point: what the stores leave -/

theorem hz : (![0, 0] : Fin 2 → Nat) = fun _ => 0 := funext fun a => by fin_cases a <;> rfl

/-- A load through the whole-shape rectangle of what a list of stores left, when the LAST store went through the whole
    shape, reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem val_A_o3_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) :
    val_A_o3 c i arg1 harg1 arg2 harg2 arg3 harg3 arg4 harg4 arg5 harg5 arg6 harg6 arg7 harg7 arg8 harg8 hc0 x0 x1 x2 = Gen.k0_pay3 x0 x1 x2 := by
  unfold val_A_o3 kernelRun0_A
  dsimp only
  rw [View.canon_unit_zero hz]
  simp only [View.readAt_eq_ld, harg1.read_unread, harg2.read_unread, harg3.read_unread,
    View.ld_unit_zero (S := S1000x512) hz, View.ld_unit_zero (S := S512x512) hz, View.ld_unit_zero (S := S1x512) hz]

theorem val_A_s0_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) :
    val_A_s0 c i arg1 harg1 arg2 harg2 arg3 harg3 arg4 harg4 arg5 harg5 arg6 harg6 arg7 harg7 arg8 harg8 hc0 x0 x1 x2 = Gen.k0_pay4 x0 x1 x2 Gen.k0_pay1 := by
  unfold val_A_s0 kernelRun0_A
  dsimp only
  sl_unfold_words
  rw [View.canon_cons_unit_zero (S := S1x512) hz, View.readCov_unit_zero (S := S1x512) _ hz]
  simp only [View.readAt_eq_ld, harg1.read_unread, harg2.read_unread, harg3.read_unread,
    View.ld_unit_zero (S := S1000x512) hz, View.ld_unit_zero (S := S512x512) hz, View.ld_unit_zero (S := S1x512) hz]

theorem val_A_s1_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) :
    val_A_s1 c i arg1 harg1 arg2 harg2 arg3 harg3 arg4 harg4 arg5 harg5 arg6 harg6 arg7 harg7 arg8 harg8 hc0 x0 x1 x2 = Gen.k0_pay5 x0 x1 x2 Gen.k0_pay2 := by
  unfold val_A_s1 kernelRun0_A
  dsimp only
  sl_unfold_words
  rw [View.canon_cons_unit_zero (S := S1x512) hz, View.readCov_unit_zero (S := S1x512) _ hz]
  simp only [View.readAt_eq_ld, harg1.read_unread, harg2.read_unread, harg3.read_unread,
    View.ld_unit_zero (S := S1000x512) hz, View.ld_unit_zero (S := S512x512) hz, View.ld_unit_zero (S := S1x512) hz]

theorem val_A_o4_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) :
    val_A_o4 c i arg1 harg1 arg2 harg2 arg3 harg3 arg4 harg4 arg5 harg5 arg6 harg6 arg7 harg7 arg8 harg8 hc0 x0 x1 x2 = Gen.k0_pay4 x0 x1 x2 Gen.k0_pay1 := by
  unfold val_A_o4 kernelRun0_A
  dsimp only
  sl_unfold_words
  rw [View.canon_unit_zero hz, readCov_cons_unit_zero (S := S1x512) _ hz, View.readCov_unit_zero (S := S1x512) _ hz]
  simp only [View.readAt_eq_ld, harg1.read_unread, harg2.read_unread, harg3.read_unread,
    View.ld_unit_zero (S := S1000x512) hz, View.ld_unit_zero (S := S512x512) hz, View.ld_unit_zero (S := S1x512) hz]

theorem val_A_o5_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0_0 i) (x0 : Vec F S1000x512 .f32) (x1 : Vec F S512x512 .bf16) (x2 : Vec F S1x512 .f32) :
    val_A_o5 c i arg1 harg1 arg2 harg2 arg3 harg3 arg4 harg4 arg5 harg5 arg6 harg6 arg7 harg7 arg8 harg8 hc0 x0 x1 x2 = Gen.k0_pay5 x0 x1 x2 Gen.k0_pay2 := by
  unfold val_A_o5 kernelRun0_A
  dsimp only
  sl_unfold_words
  rw [View.canon_unit_zero hz, readCov_cons_unit_zero (S := S1x512) _ hz, View.readCov_unit_zero (S := S1x512) _ hz]
  simp only [View.readAt_eq_ld, harg1.read_unread, harg2.read_unread, harg3.read_unread,
    View.ld_unit_zero (S := S1000x512) hz, View.ld_unit_zero (S := S512x512) hz, View.ld_unit_zero (S := S1x512) hz]

theorem val_B_o3_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) :
    val_B_o3 c i arg1 harg1 arg2 harg2 arg3 harg3 arg4 harg4 arg5 harg5 arg6 harg6 arg7 harg7 arg8 harg8 hc0 x0 x1 x2 xs0 xs1 = Gen.k0_pay3 x0 x1 x2 := by
  unfold val_B_o3 kernelRun0_B
  dsimp only
  try sl_unfold_words
  rw [View.canon_unit_zero hz]
  simp only [View.readAt_eq_ld, harg1.read_unread, harg2.read_unread, harg3.read_unread, harg7.read_unread, harg8.read_unread,
    View.ld_unit_zero (S := S1000x512) hz, View.ld_unit_zero (S := S512x512) hz, View.ld_unit_zero (S := S1x512) hz]

theorem val_B_s0_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) :
    val_B_s0 c i arg1 harg1 arg2 harg2 arg3 harg3 arg4 harg4 arg5 harg5 arg6 harg6 arg7 harg7 arg8 harg8 hc0 x0 x1 x2 xs0 xs1 = Gen.k0_pay4 x0 x1 x2 xs0 := by
  unfold val_B_s0 kernelRun0_B
  dsimp only
  try sl_unfold_words
  rw [View.canon_unit_zero hz]
  simp only [View.readAt_eq_ld, harg1.read_unread, harg2.read_unread, harg3.read_unread, harg7.read_unread, harg8.read_unread,
    View.ld_unit_zero (S := S1000x512) hz, View.ld_unit_zero (S := S512x512) hz, View.ld_unit_zero (S := S1x512) hz]

theorem val_B_s1_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) :
    val_B_s1 c i arg1 harg1 arg2 harg2 arg3 harg3 arg4 harg4 arg5 harg5 arg6 harg6 arg7 harg7 arg8 harg8 hc0 x0 x1 x2 xs0 xs1 = Gen.k0_pay5 x0 x1 x2 xs1 := by
  unfold val_B_s1 kernelRun0_B
  dsimp only
  try sl_unfold_words
  rw [View.canon_unit_zero hz]
  simp only [View.readAt_eq_ld, harg1.read_unread, harg2.read_unread, harg3.read_unread, harg7.read_unread, harg8.read_unread,
    View.ld_unit_zero (S := S1000x512) hz, View.ld_unit_zero (S := S512x512) hz, View.ld_unit_zero (S := S1x512) hz]

theorem val_B_o4_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) :
    val_B_o4 c i arg1 harg1 arg2 harg2 arg3 harg3 arg4 harg4 arg5 harg5 arg6 harg6 arg7 harg7 arg8 harg8 hc0 x0 x1 x2 xs0 xs1 = Gen.k0_pay4 x0 x1 x2 xs0 := by
  unfold val_B_o4 kernelRun0_B
  dsimp only
  try sl_unfold_words
  rw [View.canon_unit_zero hz, View.readCov_unit_zero (S := S1x512) _ hz]
  simp only [View.readAt_eq_ld, harg1.read_unread, harg2.read_unread, harg3.read_unread, harg7.read_unread, harg8.read_unread,
    View.ld_unit_zero (S := S1000x512) hz, View.ld_unit_zero (S := S512x512) hz, View.ld_unit_zero (S := S1x512) hz]

theorem val_B_o5_eq (c : Dev nD) (i : grid0.Coords) (arg1 : Memref sig .tc .vmem S1000x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0_0 i) (x0 : Vec F S1000x512 .f32) (x1 : Vec F S512x512 .bf16) (x2 : Vec F S1x512 .f32) (xs0 xs1 : Vec F S1x512 .f32) :
    val_B_o5 c i arg1 harg1 arg2 harg2 arg3 harg3 arg4 harg4 arg5 harg5 arg6 harg6 arg7 harg7 arg8 harg8 hc0 x0 x1 x2 xs0 xs1 = Gen.k0_pay5 x0 x1 x2 xs1 := by
  unfold val_B_o5 kernelRun0_B
  dsimp only
  try sl_unfold_words
  rw [View.canon_unit_zero hz, View.readCov_unit_zero (S := S1x512) _ hz]
  simp only [View.readAt_eq_ld, harg1.read_unread, harg2.read_unread, harg3.read_unread, harg7.read_unread, harg8.read_unread,
    View.ld_unit_zero (S := S1000x512) hz, View.ld_unit_zero (S := S512x512) hz, View.ld_unit_zero (S := S1x512) hz]

end Cert.KernelIdeal.R0V
end
-- ==== Proof.R0Sums.lean ====
/-
  The first kernel region's accumulators in closed form. After point n the column-sum accumulator holds the column sums
  of the activated blocks 0..n added up in order from zero, and the sum-of-squares accumulator the same of their squares;
  the two statistics outputs' buffers hold copies of the accumulators, and the activated block's buffer the activation
  of the point's own blocks.
-/
import proofs.«130999_j29059748725632_1_alg».proof.Proof.R0Value
import proofs.«130999_j29059748725632_1_alg».proof.Proof.KPayload

set_option maxRecDepth 16384

noncomputable section

namespace Cert.KernelIdeal.R0S

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.R0 Cert.KernelIdeal.R0V Idealize.ShloMosaic.ValueIdx

section Generic
variable (V : (c : Dev nD) → (b : Ref sig .tc) → Buf (Elt F) ((c : Thread nD τ).loc b))

set_option maxHeartbeats 400000 in
/-- After any point the activated block's buffer holds the kernel's activation of that point's blocks. -/
theorem out3_eq (c : Dev nD) (t : Fin cfg0.N) :
    (R0.outsAt0 V c t.val t.isLt).1 = Gen.k0_pay3 (R0.iblk0 V c 0 t) (R0.iblk0 V c 1 t) (R0.iblk0 V c 2 t) := by
  by_cases hz : t.val = 0
  · rw [R0.outsAt0_A V c t hz]; dsimp only; exact val_A_o3_eq _ _ _ _ _ _ _ _ _ _ _ _ _ _ _ _ _ _ _ _ _ _
  · rw [R0.outsAt0_B V c t hz]; dsimp only; exact val_B_o3_eq _ _ _ _ _ _ _ _ _ _ _ _ _ _ _ _ _ _ _ _ _ _ _ _

set_option maxHeartbeats 400000 in
/-- The column-sum accumulator after the first point: cleared, then the first block's column sums added. -/
theorem acc0_A (c : Dev nD) (t : Fin cfg0.N) (hz : t.val = 0) :
    (R0.outsAt0 V c t.val t.isLt).2.2.2.1 = Gen.k0_pay4 (R0.iblk0 V c 0 t) (R0.iblk0 V c 1 t) (R0.iblk0 V c 2 t) Gen.k0_pay1 := by
  rw [R0.outsAt0_A V c t hz]; dsimp only; exact val_A_s0_eq _ _ _ _ _ _ _ _ _ _ _ _ _ _ _ _ _ _ _ _ _ _

set_option maxHeartbeats 400000 in
/-- After a later point: what the point before left, plus this block's column sums. -/
theorem acc0_B (c : Dev nD) (t : Fin cfg0.N) (hz : ¬t.val = 0) :
    (R0.outsAt0 V c t.val t.isLt).2.2.2.1 = Gen.k0_pay4 (R0.iblk0 V c 0 t) (R0.iblk0 V c 1 t) (R0.iblk0 V c 2 t) (R0.outsAt0 V c (t.val - 1) (Nat.lt_of_le_of_lt (Nat.sub_le _ _) t.isLt)).2.2.2.1 := by
  rw [R0.outsAt0_B V c t hz]; dsimp only; exact val_B_s0_eq _ _ _ _ _ _ _ _ _ _ _ _ _ _ _ _ _ _ _ _ _ _ _ _

set_option maxHeartbeats 400000 in
theorem acc1_A (c : Dev nD) (t : Fin cfg0.N) (hz : t.val = 0) :
    (R0.outsAt0 V c t.val t.isLt).2.2.2.2 = Gen.k0_pay5 (R0.iblk0 V c 0 t) (R0.iblk0 V c 1 t) (R0.iblk0 V c 2 t) Gen.k0_pay2 := by
  rw [R0.outsAt0_A V c t hz]; dsimp only; exact val_A_s1_eq _ _ _ _ _ _ _ _ _ _ _ _ _ _ _ _ _ _ _ _ _ _

set_option maxHeartbeats 400000 in
theorem acc1_B (c : Dev nD) (t : Fin cfg0.N) (hz : ¬t.val = 0) :
    (R0.outsAt0 V c t.val t.isLt).2.2.2.2 = Gen.k0_pay5 (R0.iblk0 V c 0 t) (R0.iblk0 V c 1 t) (R0.iblk0 V c 2 t) (R0.outsAt0 V c (t.val - 1) (Nat.lt_of_le_of_lt (Nat.sub_le _ _) t.isLt)).2.2.2.2 := by
  rw [R0.outsAt0_B V c t hz]; dsimp only; exact val_B_s1_eq _ _ _ _ _ _ _ _ _ _ _ _ _ _ _ _ _ _ _ _ _ _ _ _

set_option maxHeartbeats 400000 in
/-- After any point the column-sum output's buffer holds what the column-sum accumulator holds, -/
theorem out4_eq (c : Dev nD) (t : Fin cfg0.N) :
    (R0.outsAt0 V c t.val t.isLt).2.1 = (R0.outsAt0 V c t.val t.isLt).2.2.2.1 := by
  by_cases hz : t.val = 0
  · rw [R0.outsAt0_A V c t hz]; dsimp only; exact (val_A_o4_eq _ _ _ _ _ _ _ _ _ _ _ _ _ _ _ _ _ _ _ _ _ _).trans (val_A_s0_eq _ _ _ _ _ _ _ _ _ _ _ _ _ _ _ _ _ _ _ _ _ _).symm
  · rw [R0.outsAt0_B V c t hz]; dsimp only; exact (val_B_o4_eq _ _ _ _ _ _ _ _ _ _ _ _ _ _ _ _ _ _ _ _ _ _ _ _).trans (val_B_s0_eq _ _ _ _ _ _ _ _ _ _ _ _ _ _ _ _ _ _ _ _ _ _ _ _).symm

set_option maxHeartbeats 400000 in
/-- and the sum-of-squares output's buffer what the sum-of-squares accumulator holds. -/
theorem out5_eq (c : Dev nD) (t : Fin cfg0.N) :
    (R0.outsAt0 V c t.val t.isLt).2.2.1 = (R0.outsAt0 V c t.val t.isLt).2.2.2.2 := by
  by_cases hz : t.val = 0
  · rw [R0.outsAt0_A V c t hz]; dsimp only; exact (val_A_o5_eq _ _ _ _ _ _ _ _ _ _ _ _ _ _ _ _ _ _ _ _ _ _).trans (val_A_s1_eq _ _ _ _ _ _ _ _ _ _ _ _ _ _ _ _ _ _ _ _ _ _).symm
  · rw [R0.outsAt0_B V c t hz]; dsimp only; exact (val_B_o5_eq _ _ _ _ _ _ _ _ _ _ _ _ _ _ _ _ _ _ _ _ _ _ _ _).trans (val_B_s1_eq _ _ _ _ _ _ _ _ _ _ _ _ _ _ _ _ _ _ _ _ _ _ _ _).symm

end Generic

section AtIdeal
variable (V : (c : Dev nD) → (b : Ref sig .tc) → Buf (Elt Ideal) ((c : Thread nD τ).loc b))

/-- The kernel's activation of block s at local row p and column q (zero past the last point). -/
def payAt (c : Dev nD) (s : ℕ) (p : Fin 1000) (q : Fin 512) : EReal :=
  if h : s < cfg0.N then Gen.k0_pay3 (F := Ideal) (R0.iblk0 V c 0 ⟨s, h⟩) (R0.iblk0 V c 1 ⟨s, h⟩) (R0.iblk0 V c 2 ⟨s, h⟩) (ix2 p q) else 0

theorem payAt_pos (c : Dev nD) (t : Fin cfg0.N) (p : Fin 1000) (q : Fin 512) :
    payAt V c t.val p q = Gen.k0_pay3 (F := Ideal) (R0.iblk0 V c 0 t) (R0.iblk0 V c 1 t) (R0.iblk0 V c 2 t) (ix2 p q) := by
  unfold payAt; rw [dif_pos t.isLt]

/-- The column-sum accumulator after point n: the column sums of blocks 0..n. -/
theorem acc0_closed (c : Dev nD) : ∀ (n : ℕ) (hn : n < cfg0.N) (q : Fin 512),
    ((R0.outsAt0 V c n hn).2.2.2.1 : S1x512.Idx → EReal) (ix2 (0 : Fin 1) q) = ∑ s ∈ Finset.range (n + 1), ∑ p : Fin 1000, payAt V c s p q
  | 0, hn, q => by
    refine (congrFun (acc0_A V c ⟨0, hn⟩ rfl) _).trans ?_
    rw [KPay.pay4_apply, KPay.pay1_apply, zero_add, Finset.sum_range_one]
    exact Finset.sum_congr rfl fun p _ => (payAt_pos V c ⟨0, hn⟩ p q).symm
  | n + 1, hn, q => by
    refine (congrFun (acc0_B V c ⟨n + 1, hn⟩ (Nat.succ_ne_zero n)) _).trans ?_
    rw [KPay.pay4_apply, Finset.sum_range_succ]
    refine congrArg₂ (· + ·) (acc0_closed c n (Nat.lt_of_succ_lt hn) q) ?_
    exact Finset.sum_congr rfl fun p _ => (payAt_pos V c ⟨n + 1, hn⟩ p q).symm

/-- The sum-of-squares accumulator after point n. -/
theorem acc1_closed (c : Dev nD) : ∀ (n : ℕ) (hn : n < cfg0.N) (q : Fin 512),
    ((R0.outsAt0 V c n hn).2.2.2.2 : S1x512.Idx → EReal) (ix2 (0 : Fin 1) q) = ∑ s ∈ Finset.range (n + 1), ∑ p : Fin 1000, payAt V c s p q * payAt V c s p q
  | 0, hn, q => by
    refine (congrFun (acc1_A V c ⟨0, hn⟩ rfl) _).trans ?_
    rw [KPay.pay5_apply, KPay.pay2_apply, zero_add, Finset.sum_range_one]
    exact Finset.sum_congr rfl fun p _ => by rw [payAt_pos V c ⟨0, hn⟩ p q]
  | n + 1, hn, q => by
    refine (congrFun (acc1_B V c ⟨n + 1, hn⟩ (Nat.succ_ne_zero n)) _).trans ?_
    rw [KPay.pay5_apply, Finset.sum_range_succ]
    refine congrArg₂ (· + ·) (acc1_closed c n (Nat.lt_of_succ_lt hn) q) ?_
    exact Finset.sum_congr rfl fun p _ => by rw [payAt_pos V c ⟨n + 1, hn⟩ p q]

end AtIdeal

end Cert.KernelIdeal.R0S

end
-- ==== Proof.LibScatterAddReal.lean ====
/-
  Finiteness through an accumulating scatter, over the extended reals.

  At the exact (extended-real) reading, an accumulating float scatter returns, at every index, the operand's
  element plus the finite sum of the update elements that land there. A finite sum of real numbers is a real
  number, so when every operand element and every update element is real, so is every result element.
-/
import Idealize.ShloMosaic.PureOps.Ideal

namespace Cert.LibScatterAddReal

open Idealize.ShloMosaic

/-- The sum of two real numbers, taken in the extended reals, is a real number. -/
theorem add_real {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, taken in the extended reals, is a real number. -/
theorem sum_real {ι : Type*} (s : Finset ι) (f : ι → EReal) (hf : ∀ j, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    rw [Finset.sum_insert ha]
    exact add_real (hf a) ih

/-- An accumulating scatter of real updates into a real operand is real at every index. -/
theorem scatterAdd_real {s si su : Shape} (d : ScatterDims s si su) {w : Nat} {φ : FTy}
    (x : FVec Ideal s φ) (idx : IVec si w) (upd : FVec Ideal su φ)
    (hx : ∀ i, ∃ r : ℝ, x i = (r : EReal)) (hu : ∀ j, ∃ r : ℝ, upd j = (r : EReal)) :
    ∀ i, ∃ r : ℝ, Host.scatterAdd d x idx upd i = (r : EReal) := by
  intro i
  unfold Host.scatterAdd
  rw [Ideal.hostScatterAdd_def]
  unfold Ideal.hostScatterAdd
  exact add_real (hx i) (sum_real _ _ hu)

end Cert.LibScatterAddReal
-- ==== Proof.AggFinite.lean ====
/-
  The aggregated node features, as a function of the arguments, and their finiteness.

  The host code before the first kernel computes, from the node features `x` ([20000, 512]), the edge sources
  `src` and the edge targets `dst` (150000 each):
    * the sources with a negative index wrapped by the number of rows;
    * the gather of `x`'s rows at the wrapped sources ([150000, 512]);
    * the accumulating scatter of those rows into zeros at the targets (the neighbour sum, [20000, 512]);
    * the accumulating scatter of ones into zeros at the targets (the in-degree, [20000]);
    * the comparison "in-degree > 0", broadcast along the features;
    * the selection of the neighbour sum where it holds and of `x` itself elsewhere.
  Each definition below is one of these stages, written with the operations and the shape records of the
  printed program, in its order, at the extended reals.

  Finiteness: a gathered element is an element of `x`; an accumulating scatter of real updates into zeros is a
  finite sum of reals; a selection between two real arrays is real. So when every element of `x` is real,
  every element of the result is.
-/
import proofs.«130999_j29059748725632_1_alg».proof.KernelIdeal
import proofs.«130999_j29059748725632_1_alg».proof.Proof.LibScatterAddReal
import Idealize.ShloMosaic.PureOps.Ideal.Laws

noncomputable section

namespace Cert.KernelIdeal.Agg

open Idealize.ShloMosaic Cert.KernelIdeal Cert.KernelIdeal.Facts₀

variable [Facts₀]

/-- The zero index constant, broadcast over the edges. -/
def v0 : (⟨S150000, .i32⟩ : BufTy).Contents (Elt Ideal) :=
  (broadcastInDim S150000 ![] bcast_S_S150000 : (⟨S_, .i32⟩ : BufTy).Contents (Elt Ideal) → (⟨S150000, .i32⟩ : BufTy).Contents (Elt Ideal))
    (constantI S_ 32 0#32)

/-- Which sources are negative. -/
def v1 (src : (⟨S150000, .i32⟩ : BufTy).Contents (Elt Ideal)) : (⟨S150000, .i1⟩ : BufTy).Contents (Elt Ideal) :=
  (cmpi .slt : (⟨S150000, .i32⟩ : BufTy).Contents (Elt Ideal) → (⟨S150000, .i32⟩ : BufTy).Contents (Elt Ideal) → (⟨S150000, .i1⟩ : BufTy).Contents (Elt Ideal))
    src v0

/-- The number of rows, broadcast over the edges. -/
def v2 : (⟨S150000, .i32⟩ : BufTy).Contents (Elt Ideal) :=
  (broadcastInDim S150000 ![] bcast_S_S150000 : (⟨S_, .i32⟩ : BufTy).Contents (Elt Ideal) → (⟨S150000, .i32⟩ : BufTy).Contents (Elt Ideal))
    (constantI S_ 32 20000#32)

/-- The sources plus the number of rows. -/
def v3 (src : (⟨S150000, .i32⟩ : BufTy).Contents (Elt Ideal)) : (⟨S150000, .i32⟩ : BufTy).Contents (Elt Ideal) :=
  (addi : (⟨S150000, .i32⟩ : BufTy).Contents (Elt Ideal) → (⟨S150000, .i32⟩ : BufTy).Contents (Elt Ideal) → (⟨S150000, .i32⟩ : BufTy).Contents (Elt Ideal))
    src v2

/-- The sources with a negative index wrapped by the number of rows. -/
def v4 (src : (⟨S150000, .i32⟩ : BufTy).Contents (Elt Ideal)) : (⟨S150000, .i32⟩ : BufTy).Contents (Elt Ideal) :=
  (select : (⟨S150000, .i1⟩ : BufTy).Contents (Elt Ideal) → (⟨S150000, .i32⟩ : BufTy).Contents (Elt Ideal) → (⟨S150000, .i32⟩ : BufTy).Contents (Elt Ideal) → (⟨S150000, .i32⟩ : BufTy).Contents (Elt Ideal))
    (v1 src) (v3 src) src

/-- The wrapped sources as a column of index vectors. -/
def v5 (src : (⟨S150000, .i32⟩ : BufTy).Contents (Elt Ideal)) : (⟨S150000x1, .i32⟩ : BufTy).Contents (Elt Ideal) :=
  (broadcastInDim S150000x1 ![0] bcast_S150000_S150000x1_0 : (⟨S150000, .i32⟩ : BufTy).Contents (Elt Ideal) → (⟨S150000x1, .i32⟩ : BufTy).Contents (Elt Ideal))
    (v4 src)

/-- The rows of `x` at the wrapped sources. -/
def v6 (x : (⟨S20000x512, .f32⟩ : BufTy).Contents (Elt Ideal)) (src : (⟨S150000, .i32⟩ : BufTy).Contents (Elt Ideal)) :
    (⟨S150000x512, .f32⟩ : BufTy).Contents (Elt Ideal) :=
  ((fun x i => Host.gather gather_S20000x512_S150000x1_S150000x512_1_0_n_n_0_1_1512 x i) : (⟨S20000x512, .f32⟩ : BufTy).Contents (Elt Ideal) → (⟨S150000x1, .i32⟩ : BufTy).Contents (Elt Ideal) → (⟨S150000x512, .f32⟩ : BufTy).Contents (Elt Ideal))
    x (v5 src)

/-- Zeros, [20000, 512]. -/
def v7 : (⟨S20000x512, .f32⟩ : BufTy).Contents (Elt Ideal) :=
  (broadcastInDim S20000x512 ![] bcast_S_S20000x512 : (⟨S_, .f32⟩ : BufTy).Contents (Elt Ideal) → (⟨S20000x512, .f32⟩ : BufTy).Contents (Elt Ideal))
    (constant (F := Ideal) S_ .f32 0x00000000#32)

/-- The targets as a column of index vectors. -/
def v8 (dst : (⟨S150000, .i32⟩ : BufTy).Contents (Elt Ideal)) : (⟨S150000x1, .i32⟩ : BufTy).Contents (Elt Ideal) :=
  (broadcastInDim S150000x1 ![0] bcast_S150000_S150000x1_0 : (⟨S150000, .i32⟩ : BufTy).Contents (Elt Ideal) → (⟨S150000x1, .i32⟩ : BufTy).Contents (Elt Ideal))
    dst

/-- The neighbour sum: the gathered rows accumulated into zeros at the targets. -/
def v9 (x : (⟨S20000x512, .f32⟩ : BufTy).Contents (Elt Ideal)) (src dst : (⟨S150000, .i32⟩ : BufTy).Contents (Elt Ideal)) :
    (⟨S20000x512, .f32⟩ : BufTy).Contents (Elt Ideal) :=
  ((fun x i u => Host.scatterAdd (F := Ideal) (φ := .f32) scatter_S20000x512_S150000x1_S150000x512_1_0_0_1 x i u) : (⟨S20000x512, .f32⟩ : BufTy).Contents (Elt Ideal) → (⟨S150000x1, .i32⟩ : BufTy).Contents (Elt Ideal) → (⟨S150000x512, .f32⟩ : BufTy).Contents (Elt Ideal) → (⟨S20000x512, .f32⟩ : BufTy).Contents (Elt Ideal))
    v7 (v8 dst) (v6 x src)

/-- Ones, one per edge. -/
def v10 : (⟨S150000, .f32⟩ : BufTy).Contents (Elt Ideal) :=
  (broadcastInDim S150000 ![] bcast_S_S150000 : (⟨S_, .f32⟩ : BufTy).Contents (Elt Ideal) → (⟨S150000, .f32⟩ : BufTy).Contents (Elt Ideal))
    (constant (F := Ideal) S_ .f32 0x3F800000#32)

/-- Zeros, [20000]. -/
def v11 : (⟨S20000, .f32⟩ : BufTy).Contents (Elt Ideal) :=
  (broadcastInDim S20000 ![] bcast_S_S20000 : (⟨S_, .f32⟩ : BufTy).Contents (Elt Ideal) → (⟨S20000, .f32⟩ : BufTy).Contents (Elt Ideal))
    (constant (F := Ideal) S_ .f32 0x00000000#32)

/-- The in-degree: ones accumulated into zeros at the targets. -/
def v13 (dst : (⟨S150000, .i32⟩ : BufTy).Contents (Elt Ideal)) : (⟨S20000, .f32⟩ : BufTy).Contents (Elt Ideal) :=
  ((fun x i u => Host.scatterAdd (F := Ideal) (φ := .f32) scatter_S20000_S150000x1_S150000_n_0_0_1 x i u) : (⟨S20000, .f32⟩ : BufTy).Contents (Elt Ideal) → (⟨S150000x1, .i32⟩ : BufTy).Contents (Elt Ideal) → (⟨S150000, .f32⟩ : BufTy).Contents (Elt Ideal) → (⟨S20000, .f32⟩ : BufTy).Contents (Elt Ideal))
    v11 (v8 dst) v10

/-- The in-degree as a column. -/
def v14 (dst : (⟨S150000, .i32⟩ : BufTy).Contents (Elt Ideal)) : (⟨S20000x1, .f32⟩ : BufTy).Contents (Elt Ideal) :=
  (broadcastInDim S20000x1 ![0] bcast_S20000_S20000x1_0 : (⟨S20000, .f32⟩ : BufTy).Contents (Elt Ideal) → (⟨S20000x1, .f32⟩ : BufTy).Contents (Elt Ideal))
    (v13 dst)

/-- Zeros, as a column. -/
def v15 : (⟨S20000x1, .f32⟩ : BufTy).Contents (Elt Ideal) :=
  (broadcastInDim S20000x1 ![] bcast_S_S20000x1 : (⟨S_, .f32⟩ : BufTy).Contents (Elt Ideal) → (⟨S20000x1, .f32⟩ : BufTy).Contents (Elt Ideal))
    (constant (F := Ideal) S_ .f32 0x00000000#32)

/-- Which rows have a positive in-degree. -/
def v16 (dst : (⟨S150000, .i32⟩ : BufTy).Contents (Elt Ideal)) : (⟨S20000x1, .i1⟩ : BufTy).Contents (Elt Ideal) :=
  (cmpf (F := Ideal) (φ := .f32) .ogt : (⟨S20000x1, .f32⟩ : BufTy).Contents (Elt Ideal) → (⟨S20000x1, .f32⟩ : BufTy).Contents (Elt Ideal) → (⟨S20000x1, .i1⟩ : BufTy).Contents (Elt Ideal))
    (v14 dst) v15

/-- That condition, broadcast along the features. -/
def call0_v0 (dst : (⟨S150000, .i32⟩ : BufTy).Contents (Elt Ideal)) : (⟨S20000x512, .i1⟩ : BufTy).Contents (Elt Ideal) :=
  broadcastInDim S20000x512 ![0, 1] bcast_S20000x1_S20000x512_0_1 (v16 dst)

/-- The aggregated features: the neighbour sum where the in-degree is positive, `x` itself elsewhere. -/
def hpre (x : (⟨S20000x512, .f32⟩ : BufTy).Contents (Elt Ideal)) (src dst : (⟨S150000, .i32⟩ : BufTy).Contents (Elt Ideal)) :
    (⟨S20000x512, .f32⟩ : BufTy).Contents (Elt Ideal) :=
  select (call0_v0 dst) (v9 x src dst) x

/-- The zeros the neighbour sum starts from are real. -/
theorem v7_real : ∀ i, ∃ r : ℝ, v7 i = (r : EReal) := fun _ =>
  ⟨0, (Ideal.ofBits_zero_f32).trans EReal.coe_zero.symm⟩

/-- A gathered element is an element of `x`. -/
theorem v6_real (x : (⟨S20000x512, .f32⟩ : BufTy).Contents (Elt Ideal)) (src : (⟨S150000, .i32⟩ : BufTy).Contents (Elt Ideal))
    (hx : ∀ i, ∃ r : ℝ, x i = (r : EReal)) : ∀ j, ∃ r : ℝ, v6 x src j = (r : EReal) := by
  intro j
  show ∃ r : ℝ, x (gather_S20000x512_S150000x1_S150000x512_1_0_n_n_0_1_1512.operandIdx j (v5 src)) = (r : EReal)
  exact hx _

/-- The neighbour sum of real features is real. -/
theorem v9_real (x : (⟨S20000x512, .f32⟩ : BufTy).Contents (Elt Ideal)) (src dst : (⟨S150000, .i32⟩ : BufTy).Contents (Elt Ideal))
    (hx : ∀ i, ∃ r : ℝ, x i = (r : EReal)) : ∀ i, ∃ r : ℝ, v9 x src dst i = (r : EReal) :=
  Cert.LibScatterAddReal.scatterAdd_real (φ := .f32) scatter_S20000x512_S150000x1_S150000x512_1_0_0_1 v7 (v8 dst) (v6 x src)
    v7_real (v6_real x src hx)

/-- The aggregated features of real node features are real. -/
theorem hpre_real (x : (⟨S20000x512, .f32⟩ : BufTy).Contents (Elt Ideal)) (src dst : (⟨S150000, .i32⟩ : BufTy).Contents (Elt Ideal))
    (hx : ∀ i, ∃ r : ℝ, x i = (r : EReal)) : ∀ i, ∃ r : ℝ, hpre x src dst i = (r : EReal) := by
  intro i
  show ∃ r : ℝ, Scalar.select (call0_v0 dst i) (v9 x src dst i) (x i) = (r : EReal)
  unfold Scalar.select
  split
  · exact v9_real x src dst hx i
  · exact hx i

end Cert.KernelIdeal.Agg

end
-- ==== Proof.Spec.lean ====
/-
  The mathematics both programs compute, stated once over the extended reals, index by index.

  From the aggregated node features `hp` (a [20000, 512] array), the weights `W` ([512, 512], row `c` holding output
  feature `c`'s coefficients), the bias `b`, and the affine parameters `g`, `bt` (all [512]):
    act r c   = max (Σ_k hp[r,k] · W[c,k] + b[c]) 0                      the linear layer followed by relu
    mean c    = (Σ_r act r c) / 20000
    varK c    = (Σ_r act r c · act r c) / 20000 − mean c · mean c        second moment minus squared mean
    varR c    = (Σ_r (act r c − mean c) · (act r c − mean c)) / 20000    mean squared deviation
    out v r c = (act r c − mean c) · rsqrt (v c + ε) · g[c] + bt[c]       batch normalization with variance `v`
  The two variances agree whenever every `act r c` is a real number (the expansion of the square needs finiteness:
  distributivity fails at the infinities of the extended reals).
-/
import Idealize.ShloMosaic.PureOps.Ideal
import Idealize.ShloMosaic.Lib.ValueIdx

noncomputable section

namespace Cert.Spec

open Idealize.ShloMosaic Idealize.ShloMosaic.ValueIdx

/-- Arrays as functions of their indices, at the extended reals. -/
abbrev Arr2 (a b : Nat) : Type := (⟨2, ![a, b]⟩ : Shape).Idx → EReal
abbrev Arr1 (a : Nat) : Type := (⟨1, ![a]⟩ : Shape).Idx → EReal

/-- The number of rows, as an extended real. -/
def nRows : EReal := ((20000 : ℝ) : EReal)

/-- The variance's stabilizer: the float word both programs add before the inverse square root (never evaluated). -/
def eps : EReal := Ideal.ofBits .f32 0x3727C5AC#32

/-- The linear layer followed by relu at row `r`, output feature `c`. -/
def act (hp : Arr2 20000 512) (W : Arr2 512 512) (b : Arr1 512) (r : Fin 20000) (c : Fin 512) : EReal :=
  max ((∑ k : Fin 512, hp (ix2 r k) * W (ix2 c k)) + b (ix1 c)) 0

/-- A column's sum over all rows. -/
def colSum (h : Fin 20000 → Fin 512 → EReal) (c : Fin 512) : EReal := ∑ r : Fin 20000, h r c

/-- A column's sum of squares over all rows. -/
def colSumSq (h : Fin 20000 → Fin 512 → EReal) (c : Fin 512) : EReal := ∑ r : Fin 20000, h r c * h r c

/-- A column's mean. -/
def mean (h : Fin 20000 → Fin 512 → EReal) (c : Fin 512) : EReal := Ideal.div (colSum h c) nRows

/-- The variance as the second moment minus the squared mean. -/
def varK (h : Fin 20000 → Fin 512 → EReal) (c : Fin 512) : EReal :=
  Ideal.div (colSumSq h c) nRows - mean h c * mean h c

/-- The variance as the mean squared deviation from the mean. -/
def varR (h : Fin 20000 → Fin 512 → EReal) (c : Fin 512) : EReal :=
  Ideal.div (∑ r : Fin 20000, (h r c - mean h c) * (h r c - mean h c)) nRows

/-- Batch normalization of `h` with a given per-column variance `v`, then the affine map. -/
def out (h : Fin 20000 → Fin 512 → EReal) (v : Fin 512 → EReal) (g bt : Arr1 512) (r : Fin 20000) (c : Fin 512) : EReal :=
  (h r c - mean h c) * Ideal.rsqrt (v c + eps) * g (ix1 c) + bt (ix1 c)

end Cert.Spec

end
-- ==== Proof.KHost.lean ====
/-
  The host operations of the kernel program, read back over an arbitrary valuation of the buffers, at the
  extended reals.

  Before the first kernel: the aggregated features (the neighbour sum where the in-degree is positive, the node
  features elsewhere), the transposed weights (the change of float format is the identity over the extended
  reals), and the bias as a row. Between the two kernels: the column means (the column sums divided by the
  number of rows, the float word 0x469C4000 being the real number 20000), the variance as the mean of squares
  minus the squared mean, and the two affine parameters as rows. Each buffer is read as the composed term of
  the operations that wrote it; a buffer no operation of a stretch writes keeps its contents.
-/
import proofs.«130999_j29059748725632_1_alg».proof.Proof.Gen.KernelIdeal.Regions
import proofs.«130999_j29059748725632_1_alg».proof.Proof.AggFinite
import proofs.«130999_j29059748725632_1_alg».proof.Proof.Spec
import Idealize.ShloMosaic.Lib.Pipeline.Value

noncomputable section

namespace Cert.KernelIdeal.KHost

open Idealize.ShloMosaic Idealize.ShloMosaic.TcCoe Idealize.ShloMosaic.ValueIdx
open Cert.KernelIdeal Cert.KernelIdeal.Facts₀ Cert.KernelIdeal.Facts

variable [Facts]

/-! ## Before the first kernel: the aggregated features -/

/-- The neighbour sum, after the first stretch. -/
theorem v9_eq (W : Valuation τ sig (Elt Ideal)) :
    StableHlo.after (Gen.hostOps0 (F := Ideal)) W (Proc.devRef .tc main_v9)
      = Agg.v9 (W (Proc.devRef .tc main_arg0)) (W (Proc.devRef .tc main_arg1)) (W (Proc.devRef .tc main_arg2)) := by
  dsimp only [Gen.hostOps0]
  after_results_simp
  rfl

/-- Which rows have a positive in-degree, after the first stretch. -/
theorem v16_eq (W : Valuation τ sig (Elt Ideal)) :
    StableHlo.after (Gen.hostOps0 (F := Ideal)) W (Proc.devRef .tc main_v16)
      = Agg.v16 (W (Proc.devRef .tc main_arg2)) := by
  dsimp only [Gen.hostOps0]
  after_results_simp
  rfl

/-- The first stretch does not write the node features. -/
theorem arg0_keep0 (W : Valuation τ sig (Elt Ideal)) :
    StableHlo.after (Gen.hostOps0 (F := Ideal)) W (Proc.devRef .tc main_arg0) = W (Proc.devRef .tc main_arg0) :=
  StableHlo.after_of_writes_sub (Gen.hostOps0 (F := Ideal)) W Gen.hostOps0_writes (by decide)

/-- The selection, over any valuation. -/
theorem where_eq (V : Valuation τ sig (Elt Ideal)) :
    StableHlo.after (Gen.hostOps0_1 (F := Ideal)) V (Proc.devRef .tc main_v17)
      = select (broadcastInDim S20000x512 ![0, 1] bcast_S20000x1_S20000x512_0_1 (V (Proc.devRef .tc main_v16)))
          (V (Proc.devRef .tc main_v9)) (V (Proc.devRef .tc main_arg0)) := by
  dsimp only [Gen.hostOps0_1]
  after_results
  rfl

/-- The aggregated features, after the first two stretches. -/
theorem v17_eq (W : Valuation τ sig (Elt Ideal)) :
    StableHlo.after (Gen.hostOps0_1 (F := Ideal)) (StableHlo.after (Gen.hostOps0 (F := Ideal)) W) (Proc.devRef .tc main_v17)
      = Agg.hpre (W (Proc.devRef .tc main_arg0)) (W (Proc.devRef .tc main_arg1)) (W (Proc.devRef .tc main_arg2)) := by
  refine (where_eq _).trans ?_
  rw [v9_eq W, v16_eq W, arg0_keep0 W]
  rfl

/-- The aggregated features, at the first kernel's launch: the third stretch does not write them. -/
theorem v17_launch (W : Valuation τ sig (Elt Ideal)) :
    StableHlo.after (Gen.hostOps0_2 (F := Ideal))
        (StableHlo.after (Gen.hostOps0_1 (F := Ideal)) (StableHlo.after (Gen.hostOps0 (F := Ideal)) W)) (Proc.devRef .tc main_v17)
      = Agg.hpre (W (Proc.devRef .tc main_arg0)) (W (Proc.devRef .tc main_arg1)) (W (Proc.devRef .tc main_arg2)) :=
  (StableHlo.after_of_writes_sub (Gen.hostOps0_2 (F := Ideal)) _ Gen.hostOps0_2_writes (by decide)).trans (v17_eq W)

/-! ## Before the first kernel: the weights and the bias -/

/-- The transposed weights, over any valuation: entry (k, q) is the weights' entry (q, k). -/
theorem v19_apply (V : Valuation τ sig (Elt Ideal)) (k q : Fin 512) :
    (StableHlo.after (Gen.hostOps0_2 (F := Ideal)) V (Proc.devRef .tc main_v19) : S512x512.Idx → EReal) (ix2 k q)
      = (V (Proc.devRef .tc main_arg3) : S512x512.Idx → EReal) (ix2 q k) := by
  have e : (StableHlo.after (Gen.hostOps0_2 (F := Ideal)) V (Proc.devRef .tc main_v19) : S512x512.Idx → EReal)
      = truncf (F := Ideal) (φ := .f32) .bf16
          (transpose S512x512 [1, 0] (V (Proc.devRef .tc main_arg3) : S512x512.Idx → EReal) transposes_S512x512_S512x512_1_0)
          bitsLt_bf16_f32 := by
    dsimp only [Gen.hostOps0_2]
    after_results <;> rfl
  rw [e]
  show transpose S512x512 [1, 0] (V (Proc.devRef .tc main_arg3) : S512x512.Idx → EReal) transposes_S512x512_S512x512_1_0 (ix2 k q) = _
  exact transpose_apply [1, 0] _ _ (ix2 k q) (ix2 q k) (fun b => match b with | ⟨0, _⟩ => rfl | ⟨1, _⟩ => rfl)

/-- The bias as a row, over any valuation. -/
theorem v20_apply (V : Valuation τ sig (Elt Ideal)) (q : Fin 512) :
    (StableHlo.after (Gen.hostOps0_2 (F := Ideal)) V (Proc.devRef .tc main_v20) : S1x512.Idx → EReal) (ix2 (0 : Fin 1) q)
      = (V (Proc.devRef .tc main_arg4) : S512.Idx → EReal) (ix1 q) := by
  have e : (StableHlo.after (Gen.hostOps0_2 (F := Ideal)) V (Proc.devRef .tc main_v20) : S1x512.Idx → EReal)
      = shapeCast S1x512 (V (Proc.devRef .tc main_arg4) : S512.Idx → EReal) shapeCasts_S512_S1x512 := by
    dsimp only [Gen.hostOps0_2]
    after_results <;> rfl
  rw [e]
  refine shapeCast_apply _ _ (ix2 (0 : Fin 1) q) (ix1 q) ?_
  rw [Shape.rowMajor_val_one, Shape.rowMajor_val_two]
  simp

/-- The first two stretches write neither the weights nor the bias. -/
theorem arg3_keep (W : Valuation τ sig (Elt Ideal)) :
    StableHlo.after (Gen.hostOps0_1 (F := Ideal)) (StableHlo.after (Gen.hostOps0 (F := Ideal)) W) (Proc.devRef .tc main_arg3)
      = W (Proc.devRef .tc main_arg3) :=
  (StableHlo.after_of_writes_sub (Gen.hostOps0_1 (F := Ideal)) _ Gen.hostOps0_1_writes (by decide)).trans
    (StableHlo.after_of_writes_sub (Gen.hostOps0 (F := Ideal)) W Gen.hostOps0_writes (by decide))
theorem arg4_keep (W : Valuation τ sig (Elt Ideal)) :
    StableHlo.after (Gen.hostOps0_1 (F := Ideal)) (StableHlo.after (Gen.hostOps0 (F := Ideal)) W) (Proc.devRef .tc main_arg4)
      = W (Proc.devRef .tc main_arg4) :=
  (StableHlo.after_of_writes_sub (Gen.hostOps0_1 (F := Ideal)) _ Gen.hostOps0_1_writes (by decide)).trans
    (StableHlo.after_of_writes_sub (Gen.hostOps0 (F := Ideal)) W Gen.hostOps0_writes (by decide))

/-- The transposed weights at the first kernel's launch, from the launch valuation. -/
theorem v19_launch (W : Valuation τ sig (Elt Ideal)) (k q : Fin 512) :
    (StableHlo.after (Gen.hostOps0_2 (F := Ideal))
        (StableHlo.after (Gen.hostOps0_1 (F := Ideal)) (StableHlo.after (Gen.hostOps0 (F := Ideal)) W))
        (Proc.devRef .tc main_v19) : S512x512.Idx → EReal) (ix2 k q)
      = (W (Proc.devRef .tc main_arg3) : S512x512.Idx → EReal) (ix2 q k) := by
  rw [v19_apply, arg3_keep]

/-- The bias row at the first kernel's launch, from the launch valuation. -/
theorem v20_launch (W : Valuation τ sig (Elt Ideal)) (q : Fin 512) :
    (StableHlo.after (Gen.hostOps0_2 (F := Ideal))
        (StableHlo.after (Gen.hostOps0_1 (F := Ideal)) (StableHlo.after (Gen.hostOps0 (F := Ideal)) W))
        (Proc.devRef .tc main_v20) : S1x512.Idx → EReal) (ix2 (0 : Fin 1) q)
      = (W (Proc.devRef .tc main_arg4) : S512.Idx → EReal) (ix1 q) := by
  rw [v20_apply, arg4_keep]

/-! ## Between the two kernels -/

/-- The float word 0x469C4000 is the real number 20000. -/
theorem ofBits_nRows : Ideal.ofBits .f32 0x469C4000#32 = Cert.Spec.nRows := by
  unfold Cert.Spec.nRows
  simp [Ideal.ofBits, Ideal.ieee, -EReal.coe_mul]
  norm_num

/-- The column means: the first kernel's column sums divided by the number of rows. -/
theorem v23_apply (V : Valuation τ sig (Elt Ideal)) (j : S1x512.Idx) :
    (StableHlo.after (Gen.hostOps1 (F := Ideal)) V (Proc.devRef .tc main_v23) : S1x512.Idx → EReal) j
      = Ideal.div ((V (Proc.devRef .tc main_v21_1) : S1x512.Idx → EReal) j) Cert.Spec.nRows := by
  have e : (StableHlo.after (Gen.hostOps1 (F := Ideal)) V (Proc.devRef .tc main_v23) : S1x512.Idx → EReal)
      = Host.divf (F := Ideal) (φ := .f32) (V (Proc.devRef .tc main_v21_1))
          (broadcastInDim S1x512 ![] bcast_S_S1x512 (constant (F := Ideal) S_ .f32 0x469C4000#32)) := by
    dsimp only [Gen.hostOps1]
    after_results_simp <;> rfl
  rw [e, ← ofBits_nRows]
  rfl

/-- The variance: the mean of squares minus the squared mean. -/
theorem v27_apply (V : Valuation τ sig (Elt Ideal)) (j : S1x512.Idx) :
    (StableHlo.after (Gen.hostOps1 (F := Ideal)) V (Proc.devRef .tc main_v27) : S1x512.Idx → EReal) j
      = Ideal.div ((V (Proc.devRef .tc main_v21_2) : S1x512.Idx → EReal) j) Cert.Spec.nRows
        - Ideal.div ((V (Proc.devRef .tc main_v21_1) : S1x512.Idx → EReal) j) Cert.Spec.nRows
          * Ideal.div ((V (Proc.devRef .tc main_v21_1) : S1x512.Idx → EReal) j) Cert.Spec.nRows := by
  have e : (StableHlo.after (Gen.hostOps1 (F := Ideal)) V (Proc.devRef .tc main_v27) : S1x512.Idx → EReal)
      = subf (F := Ideal) (φ := .f32)
          (Host.divf (F := Ideal) (φ := .f32) (V (Proc.devRef .tc main_v21_2))
            (broadcastInDim S1x512 ![] bcast_S_S1x512 (constant (F := Ideal) S_ .f32 0x469C4000#32)))
          (mulf (F := Ideal) (φ := .f32)
            (Host.divf (F := Ideal) (φ := .f32) (V (Proc.devRef .tc main_v21_1))
              (broadcastInDim S1x512 ![] bcast_S_S1x512 (constant (F := Ideal) S_ .f32 0x469C4000#32)))
            (Host.divf (F := Ideal) (φ := .f32) (V (Proc.devRef .tc main_v21_1))
              (broadcastInDim S1x512 ![] bcast_S_S1x512 (constant (F := Ideal) S_ .f32 0x469C4000#32)))) := by
    dsimp only [Gen.hostOps1]
    after_results_simp <;> rfl
  rw [e, ← ofBits_nRows]
  rfl

/-- The scale as a row. -/
theorem v28_apply (V : Valuation τ sig (Elt Ideal)) (q : Fin 512) :
    (StableHlo.after (Gen.hostOps1 (F := Ideal)) V (Proc.devRef .tc main_v28) : S1x512.Idx → EReal) (ix2 (0 : Fin 1) q)
      = (V (Proc.devRef .tc main_arg5) : S512.Idx → EReal) (ix1 q) := by
  have e : (StableHlo.after (Gen.hostOps1 (F := Ideal)) V (Proc.devRef .tc main_v28) : S1x512.Idx → EReal)
      = shapeCast S1x512 (V (Proc.devRef .tc main_arg5) : S512.Idx → EReal) shapeCasts_S512_S1x512 := by
    dsimp only [Gen.hostOps1]
    after_results_simp <;> rfl
  rw [e]
  refine shapeCast_apply _ _ (ix2 (0 : Fin 1) q) (ix1 q) ?_
  rw [Shape.rowMajor_val_one, Shape.rowMajor_val_two]
  simp

/-- The shift as a row. -/
theorem v29_apply (V : Valuation τ sig (Elt Ideal)) (q : Fin 512) :
    (StableHlo.after (Gen.hostOps1 (F := Ideal)) V (Proc.devRef .tc main_v29) : S1x512.Idx → EReal) (ix2 (0 : Fin 1) q)
      = (V (Proc.devRef .tc main_arg6) : S512.Idx → EReal) (ix1 q) := by
  have e : (StableHlo.after (Gen.hostOps1 (F := Ideal)) V (Proc.devRef .tc main_v29) : S1x512.Idx → EReal)
      = shapeCast S1x512 (V (Proc.devRef .tc main_arg6) : S512.Idx → EReal) shapeCasts_S512_S1x512 := by
    dsimp only [Gen.hostOps1]
    after_results_simp <;> rfl
  rw [e]
  refine shapeCast_apply _ _ (ix2 (0 : Fin 1) q) (ix1 q) ?_
  rw [Shape.rowMajor_val_one, Shape.rowMajor_val_two]
  simp

/-- The stretch between the kernels does not write the first kernel's activations. -/
theorem v21_0_keep (V : Valuation τ sig (Elt Ideal)) :
    StableHlo.after (Gen.hostOps1 (F := Ideal)) V (Proc.devRef .tc main_v21_0) = V (Proc.devRef .tc main_v21_0) :=
  StableHlo.after_of_writes_sub (Gen.hostOps1 (F := Ideal)) V Gen.hostOps1_writes (by decide)

end Cert.KernelIdeal.KHost

end
-- ==== Proof.Algebra.lean ====
/-
  The algebra of the batch statistics over the extended reals.

  * The coercion of the reals into the extended reals commutes with finite sums.
  * For a column of real numbers the two variance formulas agree: with n = 20000, S = Σ x, Q = Σ x², μ = S/n,
      Σ (x − μ)² = Q − 2 μ S + n μ² = Q − n μ²,   so   Σ (x − μ)² / n = Q / n − μ².
    (Over the extended reals this needs every entry finite: the expansion of the square uses distributivity.)
  * The linear layer followed by relu maps real inputs to real outputs.
  * A sum over the 20000 rows is the sum over 20 runs of 1000 consecutive rows of the sums inside each run.
-/
import proofs.«130999_j29059748725632_1_alg».proof.Proof.Spec
import Mathlib

namespace Cert.Algebra

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the sum of squared deviations from `μ` expanded. -/
theorem sum_sq_dev {ι : Type*} [Fintype ι] (x : ι → ℝ) (μ : ℝ) :
    ∑ r, (x r - μ) * (x r - μ) = (∑ r, x r * x r) - 2 * μ * (∑ r, x r) + (Fintype.card ι : ℝ) * (μ * μ) := by
  have h : ∀ r, (x r - μ) * (x r - μ) = x r * x r - 2 * μ * x r + μ * μ := fun r => by ring
  rw [Finset.sum_congr rfl (fun r _ => h r), Finset.sum_add_distrib, Finset.sum_sub_distrib, ← Finset.mul_sum,
    Finset.sum_const, Finset.card_univ, nsmul_eq_mul]

/-- For a column of real numbers, the second moment minus the squared mean is the mean squared deviation. -/
theorem varK_eq_varR (h : Fin 20000 → Fin 512 → EReal) (hreal : ∀ r c, ∃ x : ℝ, h r c = (x : EReal)) (c : Fin 512) :
    Cert.Spec.varK h c = Cert.Spec.varR h c := by
  choose x hx using hreal
  have hn : (20000 : ℝ) ≠ 0 := by norm_num
  have hS : Cert.Spec.colSum h c = ((∑ r, x r c : ℝ) : EReal) := by
    unfold Cert.Spec.colSum; rw [coe_sum]; exact Finset.sum_congr rfl fun r _ => hx r c
  have hQ : Cert.Spec.colSumSq h c = ((∑ r, x r c * x r c : ℝ) : EReal) := by
    unfold Cert.Spec.colSumSq; rw [coe_sum]
    exact Finset.sum_congr rfl fun r _ => by rw [hx r c, EReal.coe_mul]
  have hμ : Cert.Spec.mean h c = (((∑ r, x r c) * (1 / 20000) : ℝ) : EReal) := by
    unfold Cert.Spec.mean Cert.Spec.nRows
    rw [Idealize.ShloMosaic.Ideal.div_coe hn, hS, ← EReal.coe_mul]
  have hD : (∑ r : Fin 20000, (h r c - Cert.Spec.mean h c) * (h r c - Cert.Spec.mean h c))
      = ((∑ r, (x r c - (∑ r, x r c) * (1 / 20000)) * (x r c - (∑ r, x r c) * (1 / 20000)) : ℝ) : EReal) := by
    rw [coe_sum]
    exact Finset.sum_congr rfl fun r _ => by rw [hx r c, hμ, ← EReal.coe_sub, ← EReal.coe_mul]
  unfold Cert.Spec.varK Cert.Spec.varR
  rw [hD, hQ, hμ]
  unfold Cert.Spec.nRows
  rw [Idealize.ShloMosaic.Ideal.div_coe hn, Idealize.ShloMosaic.Ideal.div_coe hn, ← EReal.coe_mul, ← EReal.coe_mul,
    ← EReal.coe_mul, ← EReal.coe_sub, EReal.coe_eq_coe_iff]
  rw [sum_sq_dev, Fintype.card_fin]
  push_cast
  ring

/-- The linear layer followed by relu maps real inputs to real outputs. -/
theorem act_real (hp : Cert.Spec.Arr2 20000 512) (W : Cert.Spec.Arr2 512 512) (b : Cert.Spec.Arr1 512)
    (hhp : ∀ i, ∃ x : ℝ, hp i = x) (hW : ∀ i, ∃ x : ℝ, W i = x) (hb : ∀ i, ∃ x : ℝ, b i = x) :
    ∀ r c, ∃ x : ℝ, Cert.Spec.act hp W b r c = x := by
  intro r c
  choose xp hxp using hhp
  choose xW hxW using hW
  choose xb hxb using hb
  have hlin : (∑ k : Fin 512, hp (ix2 r k) * W (ix2 c k)) + b (ix1 c)
      = (((∑ k : Fin 512, xp (ix2 r k) * xW (ix2 c k)) + xb (ix1 c) : ℝ) : EReal) := by
    rw [EReal.coe_add, coe_sum, hxb]
    refine congrArg (· + ((xb (ix1 c) : ℝ) : EReal)) ?_
    exact Finset.sum_congr rfl fun k _ => by rw [hxp, hxW, EReal.coe_mul]
  unfold Cert.Spec.act
  rw [hlin]
  rcases max_choice (((∑ k : Fin 512, xp (ix2 r k) * xW (ix2 c k)) + xb (ix1 c) : ℝ) : EReal) 0 with h | h
  · exact ⟨_, h⟩
  · exact ⟨0, by rw [h, EReal.coe_zero]⟩

/-- A sum over the 20000 rows is the sum over 20 runs of 1000 consecutive rows of the sums inside each run. -/
theorem sum_tiles {M : Type*} [AddCommMonoid M] (f : Fin 20000 → M) :
    ∑ r : Fin 20000, f r = ∑ t : Fin 20, ∑ q : Fin 1000, f ⟨t.val * 1000 + q.val, by omega⟩ := by
  calc ∑ r : Fin 20000, f r
      = ∑ p : Fin 20 × Fin 1000, f ((finProdFinEquiv (m := 20) (n := 1000)) p) :=
        (Equiv.sum_comp (finProdFinEquiv (m := 20) (n := 1000)) f).symm
    _ = ∑ t : Fin 20, ∑ q : Fin 1000, f ((finProdFinEquiv (m := 20) (n := 1000)) (t, q)) := Fintype.sum_prod_type _
    _ = _ := by
        refine Finset.sum_congr rfl fun t _ => Finset.sum_congr rfl fun q _ => ?_
        refine congrArg f ?_
        apply Fin.ext
        simp only [finProdFinEquiv_apply_val]
        omega

/-- A column's sum, tile by tile. -/
theorem colSum_tiles (h : Fin 20000 → Fin 512 → EReal) (c : Fin 512) :
    Cert.Spec.colSum h c = ∑ t : Fin 20, ∑ q : Fin 1000, h ⟨t.val * 1000 + q.val, by omega⟩ c :=
  sum_tiles (fun r => h r c)

/-- A column's sum of squares, tile by tile. -/
theorem colSumSq_tiles (h : Fin 20000 → Fin 512 → EReal) (c : Fin 512) :
    Cert.Spec.colSumSq h c
      = ∑ t : Fin 20, ∑ q : Fin 1000, h ⟨t.val * 1000 + q.val, by omega⟩ c * h ⟨t.val * 1000 + q.val, by omega⟩ c :=
  sum_tiles (fun r => h r c * h r c)

end Cert.Algebra
-- ==== Proof.KValue.lean ====
/-
  The idealized kernel's result as one function of its arguments.

  Reading the run backwards: the result array is written by the second region block by block, each entry
  (h − mean) · rsqrt(var + ε) · γ + β of the first region's activation array h and of the two statistics rows the host
  computed between the regions, mean = S / 20000 and var = Q / 20000 − mean². The first region leaves in S and Q the
  column sums of h and of h², accumulated one block of 1000 rows at a time: regrouped, they are the sums over all 20000
  rows. And h itself is relu(hp · Wᵀ + b) of the aggregated features hp. Together: the specification's `out` with the
  variance taken as second moment minus squared mean.
-/
import proofs.«130999_j29059748725632_1_alg».proof.Proof.KFrame
import proofs.«130999_j29059748725632_1_alg».proof.Proof.KArr0
import proofs.«130999_j29059748725632_1_alg».proof.Proof.KArr1
import proofs.«130999_j29059748725632_1_alg».proof.Proof.R0Sums
import proofs.«130999_j29059748725632_1_alg».proof.Proof.KHost
import proofs.«130999_j29059748725632_1_alg».proof.Proof.Algebra

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

variable [Facts]
variable (m : (ℓ : Loc nD τ sig) → Buf (Elt Ideal) ℓ) (ρ : Dev nD → PrngReg)

/-- The aggregated node features, from the launch contents of the three graph arguments. -/
def hp (c : Dev nD) : Cert.Spec.Arr2 20000 512 := Agg.hpre (m ((c : Thread nD τ).loc main_arg0)) (m ((c : Thread nD τ).loc main_arg1)) (m ((c : Thread nD τ).loc main_arg2))

/-- The activations: the linear layer and relu of the aggregated features. -/
def hact (c : Dev nD) : Fin 20000 → Fin 512 → EReal := Cert.Spec.act (hp m c) (m ((c : Thread nD τ).loc main_arg3)) (m ((c : Thread nD τ).loc main_arg4))

/-! ## What the first region finds -/

theorem e17 (c : Dev nD) : KF.V3 m ρ c main_v17 = hp m c := KHost.v17_launch (KF.W0 m ρ c)
theorem e19 (c : Dev nD) (k q : Fin 512) :
    (KF.V3 m ρ c main_v19 : S512x512.Idx → EReal) (ix2 k q) = (m ((c : Thread nD τ).loc main_arg3) : S512x512.Idx → EReal) (ix2 q k) :=
  KHost.v19_launch (KF.W0 m ρ c) k q
theorem e20 (c : Dev nD) (q : Fin 512) :
    (KF.V3 m ρ c main_v20 : S1x512.Idx → EReal) (ix2 (0 : Fin 1) q) = (m ((c : Thread nD τ).loc main_arg4) : S512.Idx → EReal) (ix1 q) :=
  KHost.v20_launch (KF.W0 m ρ c) q

/-- The kernel's activation of block t at local row p is the specification's activation at row 1000·t + p. -/
theorem blk_act (c : Dev nD) (t : Fin cfg0.N) (p : Fin 1000) (q : Fin 512) (hr : 1000 * t.val + p.val < 20000) :
    Gen.k0_pay3 (F := Ideal) (R0.iblk0 (KF.V3 m ρ) c 0 t) (R0.iblk0 (KF.V3 m ρ) c 1 t) (R0.iblk0 (KF.V3 m ρ) c 2 t) (ix2 p q)
      = hact m c ⟨1000 * t.val + p.val, hr⟩ q := by
  refine (KPay.pay3_apply _ _ _ p q).trans ?_
  unfold hact Cert.Spec.act
  refine congrArg (fun z => max z 0) ?_
  refine congrArg₂ (· + ·) (Finset.sum_congr rfl fun k _ => ?_) ?_
  · refine congrArg₂ (· * ·) ?_ ?_
    · exact (KB.iblk0_0_apply (KF.V3 m ρ) c t (ix2 p k) (ix2 ⟨_, hr⟩ k) rfl rfl).trans (congrFun (e17 m ρ c) _)
    · exact (KB.iblk0_1_apply (KF.V3 m ρ) c t (ix2 k q)).trans (e19 m ρ c k q)
  · exact (KB.iblk0_2_apply (KF.V3 m ρ) c t (ix2 (0 : Fin 1) q)).trans (e20 m ρ c q)

/-! ## What the first region leaves -/

/-- The activation array. -/
def G3 (c : Dev nD) : S20000x512.Idx → EReal := fun j => hact m c (j 0) (j 1)

theorem arr3 (c : Dev nD) : (R0.dat0 (KF.V3 m ρ) c).arrAt 3 cfg0.N = G3 m c :=
  KA.arr0_3 (KF.V3 m ρ) c (G3 m c) fun t x j h0 h1 => by
    rw [R0S.out3_eq]
    obtain ⟨p, q, rfl⟩ : ∃ (p : Fin 1000) (q : Fin 512), x = ix2 p q := ⟨x 0, x 1, eq_ix2 x⟩
    have hj : (j 0).val < 20000 := (j 0).isLt
    have h0' : (j 0).val = 1000 * t.val + p.val := h0
    have hr : 1000 * t.val + p.val < 20000 := by omega
    rw [blk_act m ρ c t p q hr]
    have e0 : j 0 = ⟨1000 * t.val + p.val, hr⟩ := Fin.ext h0
    have e1 : j 1 = q := Fin.ext h1
    exact (congrArg₂ (fun (a : Fin 20000) (b : Fin 512) => hact m c a b) e0 e1).symm

theorem payAt_eq (c : Dev nD) (s : Fin 20) (p : Fin 1000) (q : Fin 512) :
    R0S.payAt (KF.V3 m ρ) c s.val p q = hact m c ⟨s.val * 1000 + p.val, by omega⟩ q := by
  have hs : s.val < cfg0.N := by rw [show cfg0.N = 20 from N_0]; exact s.isLt
  unfold R0S.payAt
  rw [dif_pos hs]
  rw [blk_act m ρ c ⟨s.val, hs⟩ p q (by show 1000 * s.val + p.val < 20000; omega)]
  exact congrArg (fun r => hact m c r q) (Fin.ext (by show 1000 * s.val + p.val = s.val * 1000 + p.val; omega))

/-- The column-sum row: the sums over all rows. -/
theorem srow (c : Dev nD) (q : Fin 512) :
    ((R0.dat0 (KF.V3 m ρ) c).arrAt 4 cfg0.N : S1x512.Idx → EReal) (ix2 (0 : Fin 1) q) = Cert.Spec.colSum (hact m c) q := by
  rw [KA.arr0_4, R0S.out4_eq (KF.V3 m ρ) c KA.tLast, R0S.acc0_closed, Cert.Algebra.colSum_tiles]
  show ∑ s ∈ Finset.range 20, ∑ p : Fin 1000, R0S.payAt (KF.V3 m ρ) c s p q = _
  rw [Finset.sum_range]
  exact Finset.sum_congr rfl fun s _ => Finset.sum_congr rfl fun p _ => payAt_eq m ρ c s p q

/-- The sum-of-squares row. -/
theorem qrow (c : Dev nD) (q : Fin 512) :
    ((R0.dat0 (KF.V3 m ρ) c).arrAt 5 cfg0.N : S1x512.Idx → EReal) (ix2 (0 : Fin 1) q) = Cert.Spec.colSumSq (hact m c) q := by
  rw [KA.arr0_5, R0S.out5_eq (KF.V3 m ρ) c KA.tLast, R0S.acc1_closed, Cert.Algebra.colSumSq_tiles]
  show ∑ s ∈ Finset.range 20, ∑ p : Fin 1000, R0S.payAt (KF.V3 m ρ) c s p q * R0S.payAt (KF.V3 m ρ) c s p q = _
  rw [Finset.sum_range]
  exact Finset.sum_congr rfl fun s _ => Finset.sum_congr rfl fun p _ => by rw [payAt_eq m ρ c s p q]

/-! ## What the second region finds, and leaves -/

theorem W4_arg5 (c : Dev nD) : KF.W4 m ρ c (Proc.devRef .tc main_arg5) = m ((c : Thread nD τ).loc main_arg5) :=
  (KF.W4_of_ne m ρ c main_arg5 (by decide)).trans <| (Gen.V3_of m c main_arg5 (by decide)).trans <| (Gen.V2_of m c main_arg5 (by decide)).trans <| (Gen.V1_of m c main_arg5 (by decide)).trans rfl
theorem W4_arg6 (c : Dev nD) : KF.W4 m ρ c (Proc.devRef .tc main_arg6) = m ((c : Thread nD τ).loc main_arg6) :=
  (KF.W4_of_ne m ρ c main_arg6 (by decide)).trans <| (Gen.V3_of m c main_arg6 (by decide)).trans <| (Gen.V2_of m c main_arg6 (by decide)).trans <| (Gen.V1_of m c main_arg6 (by decide)).trans rfl

/-- THE RESULT: the specification's output with the variance as second moment minus squared mean. -/
theorem out_eq (c : Dev nD) :
    KF.W6 m ρ c (Proc.devRef .tc main_v30)
      = fun i => Cert.Spec.out (hact m c) (Cert.Spec.varK (hact m c)) (m ((c : Thread nD τ).loc main_arg5)) (m ((c : Thread nD τ).loc main_arg6)) (i 0) (i 1) := by
  have a0 : KF.V5 m ρ c main_v21_0 = G3 m c :=
    (KHost.v21_0_keep (KF.W4 m ρ c)).trans ((KF.W4_out0 m ρ c).trans (arr3 m ρ c))
  have a1 : ∀ q : Fin 512, (KF.V5 m ρ c main_v23 : S1x512.Idx → EReal) (ix2 (0 : Fin 1) q) = Cert.Spec.mean (hact m c) q := fun q => by
    refine (KHost.v23_apply (KF.W4 m ρ c) (ix2 (0 : Fin 1) q)).trans ?_
    rw [KF.W4_out1, srow]; rfl
  have a2 : ∀ q : Fin 512, (KF.V5 m ρ c main_v27 : S1x512.Idx → EReal) (ix2 (0 : Fin 1) q) = Cert.Spec.varK (hact m c) q := fun q => by
    refine (KHost.v27_apply (KF.W4 m ρ c) (ix2 (0 : Fin 1) q)).trans ?_
    rw [KF.W4_out1, KF.W4_out2, srow, qrow]; rfl
  have a3 : ∀ q : Fin 512, (KF.V5 m ρ c main_v28 : S1x512.Idx → EReal) (ix2 (0 : Fin 1) q) = (m ((c : Thread nD τ).loc main_arg5) : S512.Idx → EReal) (ix1 q) := fun q => by
    refine (KHost.v28_apply (KF.W4 m ρ c) q).trans ?_
    rw [W4_arg5]
  have a4 : ∀ q : Fin 512, (KF.V5 m ρ c main_v29 : S1x512.Idx → EReal) (ix2 (0 : Fin 1) q) = (m ((c : Thread nD τ).loc main_arg6) : S512.Idx → EReal) (ix1 q) := fun q => by
    refine (KHost.v29_apply (KF.W4 m ρ c) q).trans ?_
    rw [W4_arg6]
  rw [KF.W6_out, KA1.arr1_5 (KF.V5 m ρ) c, a0]
  funext i
  have b1 := a1 (i 1)
  have b2 := a2 (i 1)
  have b3 := a3 (i 1)
  have b4 := a4 (i 1)
  simp only [KA1.affine]
  rw [b1, b2, b3, b4]
  rfl

end Cert.KernelIdeal.KV

end
-- ==== Proof.RefValueOps.lean ====
/-
  The non-pointwise operations of the reference, each read at one index of its result, at the extended reals:
  the row vector of a [512] array laid along the columns of a [20000, 512] one (through [1, 512]); a scalar laid over any
  shape; the column sums of a [20000, 512] array as sums over the row index; the matrix product contracting the second axis
  of both operands as the sum over that axis; and the one float word that is evaluated, the row count 20000.
-/
import proofs.«130999_j29059748725632_1_alg».proof.Proof.RefRun
import proofs.«130999_j29059748725632_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The row count -/

/-- The float word `0x469C4000` is the real number 20000: exponent field 141, significand 2²³ + 1851392 = 10240000,
    and 10240000 · 2⁻⁹ = 20000. -/
theorem ofBits_nRows : Ideal.ofBits .f32 0x469C4000#32 = Cert.Spec.nRows := by
  unfold Cert.Spec.nRows
  simp [Ideal.ofBits, Ideal.ieee, -EReal.coe_mul]; norm_num

/-! ## Layout -/

/-- A [512] array laid as the one row of a [1, 512] array reads its entry at the column. -/
theorem row1_apply {α : Type} (h : S512.BroadcastsInDim S1x512 ![1]) (v : S512.Idx → α) (z : Fin 1) (c : Fin 512) :
    broadcastInDim S1x512 ![1] h v (ix2 z c) = v (ix1 c) :=
  broadcastInDim_apply _ h v (ix2 z c) (ix1 c) (fun a => by match a with | ⟨0, _⟩ => rfl)

/-- A [1, 512] array repeated over 20000 rows reads, at (r, c), its entry at (0, c). -/
theorem rows_apply {α : Type} (h : S1x512.BroadcastsInDim S20000x512 ![0, 1]) (v : S1x512.Idx → α) (r : Fin 20000) (c : Fin 512) :
    broadcastInDim S20000x512 ![0, 1] h v (ix2 r c) = v (ix2 (0 : Fin 1) c) :=
  broadcastInDim_apply _ h v (ix2 r c) (ix2 (0 : Fin 1) c) (fun a => by match a with | ⟨0, _⟩ => rfl | ⟨1, _⟩ => rfl)

/-- So a [512] array laid along the columns of a [20000, 512] one reads, at (r, c), its entry at c. -/
theorem cols_apply {α : Type} (h1 : S512.BroadcastsInDim S1x512 ![1]) (h2 : S1x512.BroadcastsInDim S20000x512 ![0, 1])
    (v : S512.Idx → α) (r : Fin 20000) (c : Fin 512) :
    broadcastInDim S20000x512 ![0, 1] h2 (broadcastInDim S1x512 ![1] h1 v) (ix2 r c) = v (ix1 c) :=
  (rows_apply h2 _ r c).trans (row1_apply h1 v 0 c)

/-- A float word laid over any shape reads the extended real it denotes, everywhere. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-! ## Column sums -/

/-- The host's sum over the rows, from the zero word, at column c: the sum over the row index of the entries of that
    column. -/
theorem colSum_apply (x : FVec Ideal S20000x512 .f32) (hR : S20000x512.ReducesTo [0] S512) (hS : 0 < S_.numel) (c : Fin 512) :
    Host.reduceAdd x (constant (F := Ideal) S_ .f32 0x00000000#32) hR hS (ix1 c) = ∑ r : Fin 20000, x (ix2 r c) := by
  simp only [Host.reduceAdd, Ideal.hostReduceAdd_def]
  rw [Ideal.hostReduceAdd_single hR (by decide)]
  rw [constant_apply, Ideal.ofBits_zero_f32, zero_add]
  refine Finset.sum_congr rfl fun r _ => ?_
  exact congrArg x (funext fun a => Fin.ext (by match a with | ⟨0, _⟩ => rfl | ⟨1, _⟩ => rfl))

/-! ## The matrix product -/

theorem lhs_coord0 (i : S20000x512.Idx) (q : dot_S20000x512_S512x512_S20000x512_1_1_0_0_n_n.contr.Idx) :
    (dot_S20000x512_S512x512_S20000x512_1_1_0_0_n_n.lhsIdx i q 0).val = (i 0).val := by
  unfold DotDims.lhsIdx
  rw [dif_neg (show ¬(0 : Fin S20000x512.rank) ∈ dot_S20000x512_S512x512_S20000x512_1_1_0_0_n_n.lhsBatch by decide),
    dif_pos (show (0 : Fin S20000x512.rank) ∈ dot_S20000x512_S512x512_S20000x512_1_1_0_0_n_n.lhsNonContracting by decide)]
  rfl
theorem lhs_coord1 (i : S20000x512.Idx) (q : dot_S20000x512_S512x512_S20000x512_1_1_0_0_n_n.contr.Idx) :
    (dot_S20000x512_S512x512_S20000x512_1_1_0_0_n_n.lhsIdx i q 1).val = (q ⟨0, by decide⟩).val :=
  dot_S20000x512_S512x512_S20000x512_1_1_0_0_n_n.lhsIdx_val_of_single rfl i q
theorem rhs_coord0 (i : S20000x512.Idx) (q : dot_S20000x512_S512x512_S20000x512_1_1_0_0_n_n.contr.Idx) :
    (dot_S20000x512_S512x512_S20000x512_1_1_0_0_n_n.rhsIdx i q 0).val = (i 1).val := by
  unfold DotDims.rhsIdx
  rw [dif_neg (show ¬(0 : Fin S512x512.rank) ∈ dot_S20000x512_S512x512_S20000x512_1_1_0_0_n_n.rhsBatch by decide),
    dif_pos (show (0 : Fin S512x512.rank) ∈ dot_S20000x512_S512x512_S20000x512_1_1_0_0_n_n.rhsNonContracting by decide)]
  rfl
theorem rhs_coord1 (i : S20000x512.Idx) (q : dot_S20000x512_S512x512_S20000x512_1_1_0_0_n_n.contr.Idx) :
    (dot_S20000x512_S512x512_S20000x512_1_1_0_0_n_n.rhsIdx i q 1).val = (q ⟨0, by decide⟩).val :=
  dot_S20000x512_S512x512_S20000x512_1_1_0_0_n_n.rhsIdx_val_of_single rfl i q

/-- The host's product contracting the second axis of both operands, at (r, c): the sum over k of l[r,k] · w[c,k]. -/
theorem dot_apply (l : FVec Ideal S20000x512 .f32) (w : FVec Ideal S512x512 .f32) (r : Fin 20000) (c : Fin 512) :
    Host.dotGeneral dot_S20000x512_S512x512_S20000x512_1_1_0_0_n_n none l w (ix2 r c) = ∑ k : Fin 512, l (ix2 r k) * w (ix2 c k) := by
  simp only [Host.dotGeneral]
  rw [Ideal.dotGeneral_apply, ← Equiv.sum_comp (contrEquiv1 dot_S20000x512_S512x512_S20000x512_1_1_0_0_n_n 512 rfl rfl).symm]
  refine Finset.sum_congr rfl fun k _ => ?_
  have hk := contrEquiv1_symm_val dot_S20000x512_S512x512_S20000x512_1_1_0_0_n_n 512 rfl rfl k
  have el : dot_S20000x512_S512x512_S20000x512_1_1_0_0_n_n.lhsIdx (ix2 r c) ((contrEquiv1 dot_S20000x512_S512x512_S20000x512_1_1_0_0_n_n 512 rfl rfl).symm k) = ix2 r k :=
    funext fun a => Fin.ext (by
      match a with
      | ⟨0, _⟩ => exact lhs_coord0 _ _
      | ⟨1, _⟩ => exact (lhs_coord1 _ _).trans hk)
  have er : dot_S20000x512_S512x512_S20000x512_1_1_0_0_n_n.rhsIdx (ix2 r c) ((contrEquiv1 dot_S20000x512_S512x512_S20000x512_1_1_0_0_n_n 512 rfl rfl).symm k) = ix2 c k :=
    funext fun a => Fin.ext (by
      match a with
      | ⟨0, _⟩ => exact rhs_coord0 _ _
      | ⟨1, _⟩ => exact (rhs_coord1 _ _).trans hk)
  rw [el, er]

end Cert.ReferenceIdeal.RefValue

end
-- ==== Proof.RefValue.lean ====
/-
  The reference's value against the specification. Each stage of the composed term is read at one index:
    actT hp W b at (r, c)   is   max (Σ_k hp[r,k] · W[c,k] + b[c]) 0
    meanT h at c            is   (Σ_r h[r,c]) / 20000
    devT h at (r, c)        is   h[r,c] − mean c
    dofT                    is   20000 − 0 = 20000, which is positive, so the variance's select takes its first branch
    varT h at c             is   (Σ_r (h[r,c] − mean c)²) / 20000
    normT h g bt at (r, c)  is   (h[r,c] − mean c) · rsqrt (var c + ε) · g[c] + bt[c]
  and the whole is the specification's `out` with the mean-squared-deviation variance `varR`. The aggregated features
  enter as one opaque array.
-/
import proofs.«130999_j29059748725632_1_alg».proof.Proof.RefValueOps

noncomputable section

namespace Cert.ReferenceIdeal.RefValue

open Cert.ReferenceIdeal Cert.ReferenceIdeal.Gen Cert.ReferenceIdeal.RefRun Idealize.ShloMosaic Idealize.ShloMosaic.ValueIdx

/-- A [20000, 512] array read by its two coordinates. -/
def rc (h : FVec Ideal S20000x512 .f32) : Fin 20000 → Fin 512 → EReal := fun r c => h (ix2 r c)

/-- The linear layer and relu at (r, c). -/
theorem actT_apply (hp : FVec Ideal S20000x512 .f32) (W : FVec Ideal S512x512 .f32) (b : FVec Ideal S512 .f32)
    (r : Fin 20000) (c : Fin 512) : actT hp W b (ix2 r c) = Cert.Spec.act hp W b r c := by
  unfold actT Cert.Spec.act
  rw [maximumf_apply, addf_apply, dot_apply, cols_apply, splat_apply, Ideal.ofBits_zero_f32]

/-- The column mean at c. -/
theorem meanT_apply (h : FVec Ideal S20000x512 .f32) (c : Fin 512) : meanT h (ix1 c) = Cert.Spec.mean (rc h) c := by
  unfold meanT Cert.Spec.mean Cert.Spec.colSum rc
  rw [hostDivf_apply, colSum_apply, splat_apply, ofBits_nRows]

/-- The deviation from the column mean at (r, c). -/
theorem devT_apply (h : FVec Ideal S20000x512 .f32) (r : Fin 20000) (c : Fin 512) :
    devT h (ix2 r c) = h (ix2 r c) - Cert.Spec.mean (rc h) c := by
  unfold devT Cert.Spec.mean Cert.Spec.colSum rc
  rw [subf_apply, rows_apply, hostDivf_apply, row1_apply, colSum_apply, splat_apply, ofBits_nRows]

/-- The variance's divisor: 20000 minus the integer zero read as a real, that is 20000. -/
theorem dofT_eq : dofT (F := Ideal) ix0 = Cert.Spec.nRows := by
  unfold dofT
  rw [subf_apply, constant_apply, ofBits_nRows, sitofp_apply]
  show Cert.Spec.nRows - ((((0#32 : BitVec 32).toInt : ℝ)) : EReal) = Cert.Spec.nRows
  have z : ((((0#32 : BitVec 32).toInt : ℝ)) : EReal) = 0 := by simp
  rw [z, sub_zero]

/-- The divisor is positive: the comparison against zero is the bit one. -/
theorem dof_pos : FloatOps.cmpf (F := Ideal) (φ := .f32) .ogt Cert.Spec.nRows 0 = 1#1 := by
  rw [Ideal.cmpf_def]
  unfold Ideal.cmp
  have h : (0 : EReal) < Cert.Spec.nRows := by
    unfold Cert.Spec.nRows
    exact EReal.coe_pos.mpr (by norm_num)
  simp only [decide_eq_true h]
  rfl

/-- The column variance at c: the mean squared deviation. -/
theorem varT_apply (h : FVec Ideal S20000x512 .f32) (c : Fin 512) : varT h (ix1 c) = Cert.Spec.varR (rc h) c := by
  unfold varT
  rw [select_apply, broadcastInDim_scalar_apply, cmpf_apply, dofT_eq, constant_apply, Ideal.ofBits_zero_f32, dof_pos, select_one,
    hostDivf_apply, colSum_apply, broadcastInDim_scalar_apply, dofT_eq]
  unfold Cert.Spec.varR
  refine congrArg (fun s => Ideal.div s Cert.Spec.nRows) (Finset.sum_congr rfl fun r _ => ?_)
  rw [mulf_apply, devT_apply]
  rfl

/-- The normalization and the affine map at (r, c). -/
theorem normT_apply (h : FVec Ideal S20000x512 .f32) (g bt : FVec Ideal S512 .f32) (r : Fin 20000) (c : Fin 512) :
    normT h g bt (ix2 r c) = Cert.Spec.out (rc h) (Cert.Spec.varR (rc h)) g bt r c := by
  unfold normT Cert.Spec.out
  rw [addf_apply, mulf_apply, mulf_apply, subf_apply, cols_apply, cols_apply, cols_apply, cols_apply, meanT_apply]
  show (h (ix2 r c) - Cert.Spec.mean (rc h) c) * Ideal.rsqrt (addf (varT h) (broadcastInDim S512 ![] bcast_S_S512 (constant (F := Ideal) S_ .f32 0x3727C5AC#32)) (ix1 c)) * g (ix1 c) + bt (ix1 c) = _
  rw [addf_apply, varT_apply, splat_apply]
  rfl

/-- The reference's result is the specification's batch normalization, with the mean-squared-deviation variance, of the
    activations of the aggregated features. -/
theorem result_eq (x : FVec Ideal S20000x512 .f32) (src dst : IVec S150000 32) (W : FVec Ideal S512x512 .f32)
    (b g bt : FVec Ideal S512 .f32) :
    result x src dst W b g bt = fun i => Cert.Spec.out (Cert.Spec.act (hpre x src dst) W b)
      (Cert.Spec.varR (Cert.Spec.act (hpre x src dst) W b)) g bt (i 0) (i 1) := by
  funext i
  obtain ⟨r, c, rfl⟩ : ∃ (r : Fin 20000) (c : Fin 512), i = ix2 r c := ⟨i 0, i 1, eq_ix2 i⟩
  unfold result
  generalize hpre x src dst = hp
  have e : rc (actT hp W b) = Cert.Spec.act hp W b := funext fun r => funext fun c => actT_apply hp W b r c
  rw [normT_apply, e]

end Cert.ReferenceIdeal.RefValue

end
-- ==== Proof.HpreEq.lean ====
/-
  The two programs aggregate the node features by the same operations: the sources wrapped, the rows gathered, the
  neighbour sum and the in-degree accumulated at the targets, the selection on a positive in-degree. Their shape records
  are stated separately for each program but have the same fields, so the two composed terms are the same function of
  (x, src, dst), by computation.
-/
import proofs.«130999_j29059748725632_1_alg».proof.Proof.RefRun
import proofs.«130999_j29059748725632_1_alg».proof.Proof.AggFinite

noncomputable section

namespace Cert.HpreEq

open Idealize.ShloMosaic

/-- The aggregated features of the reference are those of the kernel's host code. -/
theorem hpre_eq [Cert.KernelIdeal.Facts₀] (x : FVec Ideal Cert.ReferenceIdeal.S20000x512 .f32)
    (src dst : IVec Cert.ReferenceIdeal.S150000 32) :
    Cert.ReferenceIdeal.RefRun.hpre (F := Ideal) x src dst = Cert.KernelIdeal.Agg.hpre x src dst := rfl

end Cert.HpreEq

end
-- ==== Proof.PreFinite.lean ====
/-
  From the precondition to "every entry of the float arguments is a real number".

  The precondition is a conjunction of one test per float argument: all entries `a` of the argument satisfy
  |a| < +∞, where |a| = max a (−a) and +∞ is the float word 0x7F800000. Over the extended reals
  |⊤| = |⊥| = ⊤, which is not below ⊤; so an entry that passes the test is neither infinity: it is a real number.
  The conjunction being all ones gives every test, and a reduction by "and" over all axes that is one had a one at
  every index.
-/
import proofs.«130999_j29059748725632_1_alg».proof.Defs
import Idealize.ShloMosaic.Lib.ReduceAll
import Idealize.ShloMosaic.Lib.ValueIdx

namespace Cert.PreFinite

open Idealize.ShloMosaic Idealize.SL.Sem

/-- The scalar shape has one index. -/
instance : Subsingleton Cert.Pre_finite_inputs.S_.Idx := ⟨fun _ _ => funext fun d => d.elim0⟩

/-- The float word 0x7F800000 is +∞. -/
theorem inf_word : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One test of the precondition: when "all entries have absolute value below +∞" is one, every entry is real. -/
theorem all_real {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf a)
            (broadcastInDim s ![] bc (constant (F := Ideal) Cert.Pre_finite_inputs.S_ .f32 0x7F800000#32)))
          (constantI Cert.Pre_finite_inputs.S_ 1 1#1) hr hu ValueIdx.ix0 = 1#1) :
    ∀ i, ∃ r : ℝ, a i = (r : EReal) := by
  intro i
  have h1 := Host.reduce_andi_all _ _ hr hu ValueIdx.ix0 e i
  exact real_of_abs_lt (a i) h1

/-- The precondition's function being all ones makes the first, fourth and fifth arguments real everywhere. -/
theorem fn_real [Cert.Pre_finite_inputs.Facts]
    (a0 : FVec Ideal Cert.Pre_finite_inputs.S20000x512 .f32) (a1 a2 : IVec Cert.Pre_finite_inputs.S150000 32)
    (a3 : FVec Ideal Cert.Pre_finite_inputs.S512x512 .f32) (a4 a5 a6 : FVec Ideal Cert.Pre_finite_inputs.S512 .f32)
    (h : Cert.Pre_finite_inputs.fn (F := Ideal) a0 a1 a2 a3 a4 a5 a6 = fun _ => 1#1) :
    (∀ i, ∃ r : ℝ, a0 i = (r : EReal)) ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h18, _⟩ := IntOp.andi_eq_one.1 h0
  obtain ⟨h13, _⟩ := IntOp.andi_eq_one.1 h18
  obtain ⟨h8, h12⟩ := IntOp.andi_eq_one.1 h13
  obtain ⟨h3, h7⟩ := IntOp.andi_eq_one.1 h8
  exact ⟨all_real a0 _ _ _ h3, all_real a3 _ _ _ h7, all_real a4 _ _ _ h12⟩

variable [Cert.Pre_finite_inputs.Facts]

/-- Under the precondition every node feature is a real number. -/
theorem x_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (fn_real _ _ _ _ _ _ _ (h c)).1

/-- Under the precondition every weight is a real number. -/
theorem W_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (fn_real _ _ _ _ _ _ _ (h c)).2.1

/-- Under the precondition every bias entry is a real number. -/
theorem b_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (fn_real _ _ _ _ _ _ _ (h c)).2.2

end Cert.PreFinite
-- ==== Proof.Algebraic.lean ====
/-
  The value claim: at the extended reals the idealized kernel and the idealized reference, run from memories that
  agree on the arguments, end with equal results.

  Both results are the batch normalization of the same activations h = relu(hp · Wᵀ + b) of the same aggregated features
  hp. They differ only in how the variance is taken: the kernel as E[h²] − (E h)², from column sums accumulated block by
  block; the reference as E[(h − E h)²]. The two agree because every activation is a real number: the arguments are
  finite by the precondition, a gather of rows and a scatter-add of finite values are finite, and so are a finite sum of
  products and a maximum with zero. (At an infinite activation the two variances would differ.)
-/
import proofs.«130999_j29059748725632_1_alg».proof.Proof.KValue
import proofs.«130999_j29059748725632_1_alg».proof.Proof.RefValue
import proofs.«130999_j29059748725632_1_alg».proof.Proof.HpreEq
import proofs.«130999_j29059748725632_1_alg».proof.Proof.PreFinite
import proofs.«130999_j29059748725632_1_alg».proof.Proof.AggFinite
import proofs.«130999_j29059748725632_1_alg».proof.Proof.Algebra
import proofs.«130999_j29059748725632_1_alg».proof.Defs

set_option maxRecDepth 16384

noncomputable section

namespace Cert.Proof.Alg

open Idealize.ShloMosaic Idealize.ShloMosaic.TcCoe Idealize.SL.Sem Idealize.ShloMosaic.ValueIdx

variable [hKI : Cert.KernelIdeal.Facts] [hRI : Cert.ReferenceIdeal.Facts] [hPre : Cert.Pre_finite_inputs.Facts]

/-- Under the precondition every activation is a real number. -/
theorem hact_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ r q, ∃ x : ℝ, Cert.KernelIdeal.KV.hact m c r q = (x : EReal) :=
  Cert.Algebra.act_real _ _ _
    (Cert.KernelIdeal.Agg.hpre_real _ _ _ (Cert.PreFinite.x_real m hpre c))
    (Cert.PreFinite.W_real m hpre c) (Cert.PreFinite.b_real m hpre c)

theorem algebraic : Cert.algebraic_KernelIdeal_ReferenceIdeal := by
  intro m ρ m' ρ' hpre hagree
  refine ⟨fun c => fun i => Cert.Spec.out (Cert.KernelIdeal.KV.hact m c) (Cert.Spec.varK (Cert.KernelIdeal.KV.hact m c)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1), ?_, ?_⟩
  · refine (θ_run Cert.KernelIdeal.defs _ _).mono (fun r h c => ⟨?_, ?_, ?_, ?_, ?_, ?_, ?_, ?_⟩) (Cert.KernelIdeal.KF.run_full (F := Ideal) m ρ)
    · exact (h c _ (Cert.KernelIdeal.KF.mem_uc Cert.KernelIdeal.main_v30 (by decide))).trans (Cert.KernelIdeal.KV.out_eq m ρ c)
    · exact (h c _ (Cert.KernelIdeal.KF.mem_uc Cert.KernelIdeal.main_arg0 (by decide))).trans (Cert.KernelIdeal.KF.W6_main_arg0 m ρ c)
    · exact (h c _ (Cert.KernelIdeal.KF.mem_uc Cert.KernelIdeal.main_arg1 (by decide))).trans (Cert.KernelIdeal.KF.W6_main_arg1 m ρ c)
    · exact (h c _ (Cert.KernelIdeal.KF.mem_uc Cert.KernelIdeal.main_arg2 (by decide))).trans (Cert.KernelIdeal.KF.W6_main_arg2 m ρ c)
    · exact (h c _ (Cert.KernelIdeal.KF.mem_uc Cert.KernelIdeal.main_arg3 (by decide))).trans (Cert.KernelIdeal.KF.W6_main_arg3 m ρ c)
    · exact (h c _ (Cert.KernelIdeal.KF.mem_uc Cert.KernelIdeal.main_arg4 (by decide))).trans (Cert.KernelIdeal.KF.W6_main_arg4 m ρ c)
    · exact (h c _ (Cert.KernelIdeal.KF.mem_uc Cert.KernelIdeal.main_arg5 (by decide))).trans (Cert.KernelIdeal.KF.W6_main_arg5 m ρ c)
    · exact (h c _ (Cert.KernelIdeal.KF.mem_uc Cert.KernelIdeal.main_arg6 (by decide))).trans (Cert.KernelIdeal.KF.W6_main_arg6 m ρ c)
  · refine (θ_run Cert.ReferenceIdeal.defs _ _).mono (fun r h c => ⟨(h c).1.trans ?_, (h c).2⟩) (Cert.ReferenceIdeal.RefRun.run (F := Ideal) m' ρ')
    refine (Cert.ReferenceIdeal.RefValue.result_eq _ _ _ _ _ _ _).trans ?_
    obtain ⟨a0, a1, a2, a3, a4, a5, a6⟩ := hagree c
    rw [a0, a1, a2, a3, a4, a5, a6, Cert.HpreEq.hpre_eq]
    have hv : Cert.Spec.varK (Cert.KernelIdeal.KV.hact m c) = Cert.Spec.varR (Cert.KernelIdeal.KV.hact m c) :=
      funext fun q => Cert.Algebra.varK_eq_varR _ (hact_real m hpre c) q
    funext i
    show Cert.Spec.out _ _ _ _ _ _ = Cert.Spec.out (Cert.KernelIdeal.KV.hact m c) (Cert.Spec.varK (Cert.KernelIdeal.KV.hact m c)) _ _ _ _
    rw [hv]
    rfl

end Cert.Proof.Alg

end
-- ==== Proof.lean ====
/-
  The proof of `Cert.Claim`: a graph layer — neighbour aggregation, a linear map, relu and batch normalization over
  20000 nodes of 512 features — computed by two tiled kernels around host operations, against its plain reference.

  The three frames. The kernel program is host operations, a first region (the linear map, relu and the running column
  sums, 20 row blocks, two accumulators carried from block to block), host operations (mean and variance from the sums),
  a second region (the normalization, 20 row blocks). Each region's body is run once symbolically at a generic point
  (the first region in two cases: the first point clears the accumulators, the later points find them as the point
  before left them), the regions and host stretches are chained, and every argument array is read back unchanged from
  the last boundary's contents. The same text read at the word-level instance and at the extended reals gives the two
  kernel frames. The reference is host operations only: its run is their composition.

  The idealization changed no operation, so there is nothing to preserve.

  The value claim. At the extended reals both programs compute
    out[r,c] = (h[r,c] − mean[c]) · rsqrt(var[c] + ε) · γ[c] + β[c],   h = relu(hp · Wᵀ + b),   mean[c] = Σ_r h[r,c] / 20000,
  from the same aggregated features hp (the same host operations in both programs). The kernel takes
  var = Σ h² / 20000 − mean² from sums accumulated block by block — regrouped, the sums over all rows —, the reference
  var = Σ (h − mean)² / 20000. The two are equal because every h[r,c] is a real number under the precondition
  (finite arguments; a gather, a scatter-add, a finite sum of products and a maximum with zero keep finiteness); the
  expansion of the square is then ordinary algebra over the reals.
-/
import proofs.«130999_j29059748725632_1_alg».proof.Defs
import proofs.«130999_j29059748725632_1_alg».proof.Proof.Frames
import proofs.«130999_j29059748725632_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, Cert.Proof.Frames.preserves,
    Cert.Proof.Alg.algebraic⟩

end Cert.Proof

end
